-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x256 : Shape := ⟨3, ![2048, 128, 256]⟩
abbrev S2 : Shape := ⟨1, ![2]⟩
abbrev S_ : Shape := ⟨0, ![]⟩

class Facts : Prop where
  bcast_S_S2048x128x256 : S_.BroadcastsInDim S2048x128x256 (![] : Fin 0 → Fin S2048x128x256.rank)
  reducesTo_S2048x128x256_S_d0_1_2 : S2048x128x256.ReducesTo [0, 1, 2] S_
  h_S_ : 0 < S_.numel

variable [Facts]

def fn {F : FTy → Type} [FloatOps F] (main_arg0 : FVec F S2048x128x256 .f32) (main_arg1 : FVec F S2048x128x256 .f32) (main_arg2 : IVec S2 32) : IVec S_ 1 :=
  let main_v0 : FVec F S2048x128x256 .f32 := Host.absf main_arg0
  let main_cst : FVec F S_ .f32 := constant S_ .f32 0x7F800000#32
  let main_v1 : FVec F S2048x128x256 .f32 := broadcastInDim S2048x128x256 ![] bcast_S_S2048x128x256 main_cst
  let main_v2 : IVec S2048x128x256 1 := cmpf .olt main_v0 main_v1
  let main_c : IVec S_ 1 := constantI S_ 1 1#1
  let main_v3 : IVec S_ 1 := (fun x v => Host.reduce IntOp.andi x v reducesTo_S2048x128x256_S_d0_1_2 h_S_) main_v2 main_c
  let main_v4 : FVec F S2048x128x256 .f32 := Host.absf main_arg1
  let main_cst_0 : FVec F S_ .f32 := constant S_ .f32 0x7F800000#32
  let main_v5 : FVec F S2048x128x256 .f32 := broadcastInDim S2048x128x256 ![] bcast_S_S2048x128x256 main_cst_0
  let main_v6 : IVec S2048x128x256 1 := cmpf .olt main_v4 main_v5
  let main_c_1 : IVec S_ 1 := constantI S_ 1 1#1
  let main_v7 : IVec S_ 1 := (fun x v => Host.reduce IntOp.andi x v reducesTo_S2048x128x256_S_d0_1_2 h_S_) main_v6 main_c_1
  let main_v8 : IVec S_ 1 := andi main_v3 main_v7
  main_v8
-- ==== Kernel.lean ====
abbrev S2048x128x256 : Shape := ⟨3, ![2048, 128, 256]⟩
abbrev S2 : Shape := ⟨1, ![2]⟩
abbrev S_ : Shape := ⟨0, ![]⟩
abbrev S2x1 : Shape := ⟨2, ![2, 1]⟩
abbrev S2048x2x256 : Shape := ⟨3, ![2048, 2, 256]⟩
abbrev S4096x256 : Shape := ⟨2, ![4096, 256]⟩
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1 : Shape := ⟨1, ![1]⟩

abbrev nBuf : Space → Nat
  | .hbm => 27
  | .vmem => 10
  | .smem => 0
  | _ => 0

abbrev bufTy : (tb : Table) → Fin (tcTables nBuf tb) → BufTy
  | .hbm, ⟨0, _⟩ => ⟨S2048x128x256, .f32⟩
  | .hbm, ⟨1, _⟩ => ⟨S2048x128x256, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i1⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S2, .i32⟩
  | .hbm, ⟨10, _⟩ => ⟨S2x1, .i32⟩
  | .hbm, ⟨11, _⟩ => ⟨S2048x2x256, .f32⟩
  | .hbm, ⟨12, _⟩ => ⟨S4096x256, .f32⟩
  | .hbm, ⟨13, _⟩ => ⟨S_, .i32⟩
  | .hbm, ⟨14, _⟩ => ⟨S2, .i32⟩
  | .hbm, ⟨15, _⟩ => ⟨S2, .i1⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2, .i32⟩
  | .hbm, ⟨20, _⟩ => ⟨S2x1, .i32⟩
  | .hbm, ⟨21, _⟩ => ⟨S2048x2x256, .f32⟩
  | .hbm, ⟨22, _⟩ => ⟨S4096x256, .f32⟩
  | .hbm, ⟨23, _⟩ => ⟨S8192x256, .f32⟩
  | .hbm, ⟨24, _⟩ => ⟨S1x1, .f32⟩
  | .hbm, ⟨25, _⟩ => ⟨S1x1, .f32⟩
  | .hbm, ⟨26, _⟩ => ⟨S_, .f32⟩
  | .local _ .vmem, ⟨0, _⟩ => ⟨S8192x256, .f32⟩
  | .local _ .vmem, ⟨1, _⟩ => ⟨S1x1, .f32⟩
  | .local _ .vmem, ⟨2, _⟩ => ⟨S1x1, .f32⟩
  | .local _ .vmem, ⟨3, _⟩ => ⟨S8192x256, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S2048x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v5 : BitVec 32 := Scalar.muli arg0 c1024_i32
  v5
def k0_mult2 (i : grid0.Coords) : BitVec 32 :=
  let arg1 : BitVec 32 := BitVec.ofNat 32 (i 1).val
  let c1024_i32_2 : BitVec 32 := 1024#32
  let v7 : BitVec 32 := Scalar.muli arg1 c1024_i32_2
  v7
def k0_off1 (i : grid0.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c1024_i32_2 : BitVec 32 := 1024#32
  let v7 : BitVec 32 := Scalar.muli arg1 c1024_i32_2
  let v8 : BitVec 32 := v7
  let v12 : Index := Scalar.indexCast v8
  let c0_3 : Index := 0#32
  ![v12.toNat, 0]
def k0_cond2 (i : grid0.Coords) : BitVec 1 :=
  let arg0 : BitVec 32 := BitVec.ofNat 32 (i 0).val
  let c7_i32 : BitVec 32 := 7#32
  let v43 : BitVec 1 := Scalar.cmpi .eq arg0 c7_i32
  let arg1 : BitVec 32 := BitVec.ofNat 32 (i 1).val
  let c7_i32_14 : BitVec 32 := 7#32
  let v44 : BitVec 1 := Scalar.cmpi .eq arg1 c7_i32_14
  let v45 : BitVec 1 := Scalar.andi v43 v44
  let v46 : BitVec 32 := Scalar.extui v45
  let c0_i32_15 : BitVec 32 := 0#32
  let v47 : BitVec 1 := Scalar.cmpi .ne v46 c0_i32_15
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v5 : BitVec 32 := Scalar.muli arg0 c1024_i32
  v5
def k1_mult2 (i : grid1.Coords) : BitVec 32 :=
  let arg1 : BitVec 32 := BitVec.ofNat 32 (i 1).val
  let c1024_i32_2 : BitVec 32 := 1024#32
  let v7 : BitVec 32 := Scalar.muli arg1 c1024_i32_2
  v7
def k1_off1 (i : grid1.Coords) : Fin 2 → Nat :=
  let arg0 : BitVec 32 := BitVec.ofNat 32 (i 0).val
  let c1024_i32 : BitVec 32 := 1024#32
  let v5 : BitVec 32 := Scalar.muli arg0 c1024_i32
  let v6 : BitVec 32 := v5
  let v9 : Index := Scalar.indexCast v6
  let c0 : Index := 0#32
  ![v9.toNat, 0]
def k1_off2 (i : grid1.Coords) : Fin 2 → Nat :=
  let arg1 : BitVec 32 := BitVec.ofNat 32 (i 1).val
  let c1024_i32_2 : BitVec 32 := 1024#32
  let v7 : BitVec 32 := Scalar.muli arg1 c1024_i32_2
  let v8 : BitVec 32 := v7
  let v12 : Index := Scalar.indexCast v8
  let c0_3 : Index := 0#32
  ![v12.toNat, 0]
def k1_cond6 (i : grid1.Coords) : BitVec 1 :=
  let arg0 : BitVec 32 := BitVec.ofNat 32 (i 0).val
  let c7_i32 : BitVec 32 := 7#32
  let v99 : BitVec 1 := Scalar.cmpi .eq arg0 c7_i32
  let arg1 : BitVec 32 := BitVec.ofNat 32 (i 1).val
  let c7_i32_31 : BitVec 32 := 7#32
  let v100 : BitVec 1 := Scalar.cmpi .eq arg1 c7_i32_31
  let v101 : BitVec 1 := Scalar.andi v99 v100
  let v102 : BitVec 32 := Scalar.extui v101
  let c0_i32_32 : BitVec 32 := 0#32
  let v103 : BitVec 1 := Scalar.cmpi .ne v102 c0_i32_32
  v103

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  bcast_S_S2 : S_.BroadcastsInDim S2 (![] : Fin 0 → Fin S2.rank)
  bcast_S2_S2x1_0 : S2.BroadcastsInDim S2x1 (![0] : Fin 1 → Fin S2x1.rank)
  shapeCasts_S2048x2x256_S4096x256 : S2048x2x256.ShapeCasts S4096x256
  concatenates_S4096x256_S4096x256_S8192x256_d0 : Shape.Concatenates [S4096x256, S4096x256] S8192x256 0
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  broadcasts_S1x1_S1024x1024 : S1x1.Broadcasts S1024x1024
  shapeCasts_S1x1_S_ : S1x1.ShapeCasts S_
  gather_S2048x128x256_S2x1_S2048x2x256_02_1_n_n_1_1_20481256_wf : GatherDims.WF S2048x128x256 S2x1 S2048x2x256 [0, 2] [1] [] [1] [] 1 ![2048, 1, 256]
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x256.size a ≤ S8192x256.size a
  k0_off2_inb : ∀ i : grid0.Coords, ∀ a, (k0_off2 i) a + S1024x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1024x256.size a ≤ S8192x256.size a
  k1_off2_inb : ∀ i : grid1.Coords, ∀ a, (k1_off2 i) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .f32 = 32 ∨ (Rect.block (s := S8192x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S2048x128x256_S2x1_S2048x2x256_02_1_n_n_1_1_20481256 : GatherDims S2048x128x256 S2x1 S2048x2x256 where
  offsetDims := [0, 2]
  collapsedSliceDims := [1]
  operandBatchingDims := []
  startIndicesBatchingDims := []
  startIndexMap := [1]
  indexVectorDim := 1
  sliceSizes := ![2048, 1, 256]
  wf := gather_S2048x128x256_S2x1_S2048x2x256_02_1_n_n_1_1_20481256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v16) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v16) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond6 i == 1#1) | ⟨_ + 3, h⟩ => absurd h (Nat.not_lt.2 (Nat.le_add_left _ _))

class Facts : Prop extends Facts₀ where

variable [Facts]
-- ==== ReferenceIdeal.lean ====
abbrev S2048x128x256 : Shape := ⟨3, ![2048, 128, 256]⟩
abbrev S2 : Shape := ⟨1, ![2]⟩
abbrev S_ : Shape := ⟨0, ![]⟩
abbrev S2x1 : Shape := ⟨2, ![2, 1]⟩
abbrev S2048x2x256 : Shape := ⟨3, ![2048, 2, 256]⟩
abbrev S4096x256 : Shape := ⟨2, ![4096, 256]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S4096x4096 : Shape := ⟨2, ![4096, 4096]⟩

abbrev nBuf : Space → Nat
  | .hbm => 107
  | .vmem => 0
  | .smem => 0
  | _ => 0

abbrev bufTy : (tb : Table) → Fin (tcTables nBuf tb) → BufTy
  | .hbm, ⟨0, _⟩ => ⟨S2048x128x256, .f32⟩
  | .hbm, ⟨1, _⟩ => ⟨S2048x128x256, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i1⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S2, .i32⟩
  | .hbm, ⟨10, _⟩ => ⟨S2x1, .i32⟩
  | .hbm, ⟨11, _⟩ => ⟨S2048x2x256, .f32⟩
  | .hbm, ⟨12, _⟩ => ⟨S4096x256, .f32⟩
  | .hbm, ⟨13, _⟩ => ⟨S_, .i32⟩
  | .hbm, ⟨14, _⟩ => ⟨S2, .i32⟩
  | .hbm, ⟨15, _⟩ => ⟨S2, .i1⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2, .i32⟩
  | .hbm, ⟨20, _⟩ => ⟨S2x1, .i32⟩
  | .hbm, ⟨21, _⟩ => ⟨S2048x2x256, .f32⟩
  | .hbm, ⟨22, _⟩ => ⟨S4096x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S256x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S4096x4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4096x4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4096x4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S4096x4096, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S2048x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_v71 : Ref sig .tc := ⟨.hbm, 94, rfl⟩
abbrev main_cst_18 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_cst_21 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  shapeCasts_S2048x2x256_S4096x256 : S2048x2x256.ShapeCasts S4096x256
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  reducesTo_S4096x4096_S_d0_1 : S4096x4096.ReducesTo [0, 1] S_
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  gather_S2048x128x256_S2x1_S2048x2x256_02_1_n_n_1_1_20481256_wf : GatherDims.WF S2048x128x256 S2x1 S2048x2x256 [0, 2] [1] [] [1] [] 1 ![2048, 1, 256]
  dot_S8192x256_S256x8192_S8192x8192_1_0_0_1_n_n_wf : DotDims.WF S8192x256 S256x8192 S8192x8192 [1] [0] [0] [1] [] []

variable [Facts₀]

def gather_S2048x128x256_S2x1_S2048x2x256_02_1_n_n_1_1_20481256 : GatherDims S2048x128x256 S2x1 S2048x2x256 where
  offsetDims := [0, 2]
  collapsedSliceDims := [1]
  operandBatchingDims := []
  startIndicesBatchingDims := []
  startIndexMap := [1]
  indexVectorDim := 1
  sliceSizes := ![2048, 1, 256]
  wf := gather_S2048x128x256_S2x1_S2048x2x256_02_1_n_n_1_1_20481256_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BRegion0.lean ====
/-
  The first kernel region (the bandwidth pass) of the word-level program, at any float instance: the body's run in each of its
  three control cases (first point, middle points, last point), what the carried one-word accumulator and the output window
  hold after each of the 64 grid points, the region's invariant, its proof data and the body obligation.
-/
import proofs.«121879_j18313740550844_2_alg».proof.Proof.Gen.Kernel.Launch
import proofs.«121879_j18313740550844_2_alg».proof.Proof.Gen.Kernel.Skeleton
import proofs.«121879_j18313740550844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: where the body's two conditionals hold -/

/-- The first conditional of the body: the point is the grid's first, (0, 0). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second: the point is the grid's last, (7, 7). -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the output window is idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x1 .f32 := (Memref.whole cc0_stg1_0 : Memref sig .tc .vmem S1x1 .f32).view
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The accumulator: a scoped buffer of one word, carried from point to point. -/
abbrev scM0_0 : Memref sig .tc .vmem S1x1 .f32 := Memref.whole cc0_scratch0
abbrev VS0_0 : View sig .tc .vmem S1x1 .f32 := scM0_0.view

/-- The scoped buffers that are neither a staging buffer of this region nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the region is entered with beside its windows: the accumulator at anything, the other scoped buffers, the generator
    register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

set_option maxHeartbeats 4000000 in
/-- At the first point the body zeroes the accumulator, then adds the tile's sum to it; the output window is left alone. -/
noncomputable def kernelRun0_A (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x256 .f32) :
    { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, fun xi1 E K => ?run⟩
  case run =>
    simp only [cc0__bandwidth_kernel_eq_skeleton]; unfold cc0__bandwidth_kernel_skel
    simp only [k0_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- At a point that is neither the first nor the last the body adds the tile's sum to the carried accumulator and stores
    nothing else: the accumulator's pieces are what the run finds. -/
noncomputable def kernelRun0_B (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x256 .f32) (xs0 : Vec F S1x1 .f32) :
    { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, fun xi1 E K => ?run⟩
  case run =>
    simp only [cc0__bandwidth_kernel_eq_skeleton]; unfold cc0__bandwidth_kernel_skel
    simp only [k0_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- At the last point the body adds the tile's sum to the accumulator and stores the scaled total into the output window. -/
noncomputable def kernelRun0_C (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x256 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, ?_, fun E K => ?run⟩
  case run =>
    simp only [cc0__bandwidth_kernel_eq_skeleton]; unfold cc0__bandwidth_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What each case leaves -/

theorem scover0_A_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x256 .f32) (y : S1x1.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S1x1.size (by sl_kernel_rfl) y
/-- The accumulator after the first point. -/
def sout0_A_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x256 .f32) : Vec F S1x1 .f32 :=
  VS0_0.read (Elt F) (VS0_0.writes (Elt F) VS0_0.junk (kernelRun0_A c i arg2 harg2 arg3 harg3 arg4 harg4 hc0 hc1 x0).1)

theorem scover0_B_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x256 .f32) (xs0 : Vec F S1x1 .f32) (y : S1x1.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S1x1.size (by sl_kernel_rfl) y
/-- The accumulator after a middle point, from what the point before left. -/
def sout0_B_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x256 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).1)

theorem cover0_C_1 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) (y : S1x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1.size (by sl_kernel_rfl) y
/-- The output window's buffer after the last point. -/
def out0_C_1 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) : Vec F S1x1 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y
/-- The accumulator after the last point. -/
def sout0_C_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

section Region0
-- the TensorCore's buffer contents when the region is entered: a parameter, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem hc0_of_zero (t : Fin cfg0.N) (h : t.val = 0) : cond0_0 (grid0.coords t) := (hcond0_0 t).mpr h
theorem nhc0_of_pos (t : Fin cfg0.N) (h : t.val ≠ 0) : ¬cond0_0 (grid0.coords t) := fun hc => h ((hcond0_0 t).mp hc)
theorem hc1_of_last (t : Fin cfg0.N) (h : t.val = 63) : cond0_1 (grid0.coords t) := (hcond0_1 t).mpr h
theorem nhc1_of_ne (t : Fin cfg0.N) (h : t.val ≠ 63) : ¬cond0_1 (grid0.coords t) := fun hc => h ((hcond0_1 t).mp hc)

/-- THE ACCUMULATION: what the output window's buffer (a placeholder before the last point, where nothing is stored into it)
    and the accumulator hold after the body at position `n`. -/
def outsAt0 (c : Dev nD) : (n : ℕ) → n < cfg0.N → Vec F S1x1 .f32 × Vec F S1x1 .f32
  | 0, hn => (VO0_1.read (Elt F) VO0_1.junk,
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) (hc0_of_zero ⟨0, hn⟩ rfl) (nhc1_of_ne ⟨0, hn⟩ (show (0 : ℕ) ≠ 63 by decide)) (iblk0 V c 0 ⟨0, hn⟩))
  | n + 1, hn =>
    if h1 : n + 1 = 63 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (hc1_of_last ⟨n + 1, hn⟩ h1) (iblk0 V c 0 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (hc1_of_last ⟨n + 1, hn⟩ h1) (iblk0 V c 0 ⟨n + 1, hn⟩) (outsAt0 c n (Nat.lt_of_succ_lt hn)).2)
    else
      (VO0_1.read (Elt F) VO0_1.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (nhc1_of_ne ⟨n + 1, hn⟩ h1) (iblk0 V c 0 ⟨n + 1, hn⟩) (outsAt0 c n (Nat.lt_of_succ_lt hn)).2)

theorem outsAt0_A (c : Dev nD) (t : Fin cfg0.N) (h0 : t.val = 0) (h1 : t.val ≠ 63) :
    outsAt0 V c t.val t.isLt = (VO0_1.read (Elt F) VO0_1.junk,
      sout0_A_0 c (grid0.coords t) (ms0_0 t) (hs0_0 t) (ms0_1 t) (hs0_1 t) scM0_0 (Memref.isWhole_whole _) (hc0_of_zero t h0) (nhc1_of_ne t h1) (iblk0 V c 0 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 63) :
    outsAt0 V c t.val t.isLt = (VO0_1.read (Elt F) VO0_1.junk,
      sout0_B_0 c (grid0.coords t) (ms0_0 t) (hs0_0 t) (ms0_1 t) (hs0_1 t) scM0_0 (Memref.isWhole_whole _) (nhc0_of_pos t h0) (nhc1_of_ne t h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 63) :
    outsAt0 V c t.val t.isLt = (out0_C_1 c (grid0.coords t) (ms0_0 t) (hs0_0 t) (ms0_1 t) (hs0_1 t) scM0_0 (Memref.isWhole_whole _) (nhc0_of_pos t h0) (hc1_of_last t h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (nhc0_of_pos t h0) (hc1_of_last t h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the region is entered with; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- The proof data of the region on core `c`: the arrays as the region finds them; after the body at point `t` the input's
    buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator at
    what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases h0 : t.val = 0
  · have h1 : t.val ≠ 63 := by omega
    rw [Dat.leavesExact_idle (dat0 V c) 1 t (idleAt0_1 t (nhc1_of_ne t h1)) (noFlush0_1 t (nhc1_of_ne t h1))]
    rw [outsAt0_A V c t h0 h1]
    unfold sout0_A_0; (try dsimp only)
    rw [PhiS_castSucc V c t, PhiS_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ (hc0_of_zero t h0) (nhc1_of_ne t h1) (iblk0 V c 0 t)).2 _ Set.univ _)
    isplitl [H0]; · iexact H0
    isplitl [H1]; · iexact H1
    isplitl [HS0]; · iexact HS0
    iintro ⟨H0, H1, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover0_A_0 c _ _ _ _ _ _ _ _ _ _)
        iexact Hr
      iexact Hg
    isplitl [Ho]; · iexact Ho
    isplitl [H0]; · iexact H0
    iexists _; iexact H1
  · by_cases h1 : t.val = 63
    · rw [show (dat0 V c).leavesExact 1 t = owns (c : Thread nD τ) (ms0_1 t) fullShare ((dat0 V c).after 1 t) from by
        unfold Dat.leavesExact; rw [liveAt0_1 t (hc1_of_last t h1)], after0_1]
      rw [outsAt0_C V c t h0 h1]
      unfold out0_C_1 sout0_C_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_C c (grid0.coords t) _ _ _ _ _ _ (nhc0_of_pos t h0) (hc1_of_last t h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (nhc1_of_ne t h1)) (noFlush0_1 t (nhc1_of_ne t h1))]
      rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (nhc0_of_pos t h0) (nhc1_of_ne t h1) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.Kernel.Hand

end
-- ==== Proof.BRegion1Runs.lean ====
/-
  The second kernel region (the loss pass) of the word-level program at any float instance: where each of the body's six conditionals holds on the
  8 × 8 grid, and the body's run in each of the six control cases the grid meets, with the pieces each run stores into
  the four carried one-word accumulators and into the output window.
-/
import proofs.«121879_j18313740550844_2_alg».proof.Proof.Gen.Kernel.Launch
import proofs.«121879_j18313740550844_2_alg».proof.Proof.Gen.Kernel.Skeleton
import proofs.«121879_j18313740550844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: where the body's six conditionals hold -/

/-- The first conditional of the body: the point is the grid's first, (0, 0). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: both coordinates are below 4. -/
abbrev cond1_1 (i : grid1.Coords) : Prop :=
  (Scalar.cmpi .ne (Scalar.extui (Scalar.andi (Scalar.cmpi .slt (BitVec.ofNat 32 (i 0).val) 4#32) (Scalar.cmpi .slt (BitVec.ofNat 32 (i 1).val) 4#32))) 0#32) = 1#1
/-- The third: the first coordinate is below 4, the second is not. -/
abbrev cond1_2 (i : grid1.Coords) : Prop :=
  (Scalar.cmpi .ne (Scalar.extui (Scalar.andi (Scalar.cmpi .slt (BitVec.ofNat 32 (i 0).val) 4#32) (Scalar.xori (Scalar.cmpi .slt (BitVec.ofNat 32 (i 1).val) 4#32) 1#1))) 0#32) = 1#1
/-- The fourth: the first coordinate is not below 4, the second is. -/
abbrev cond1_3 (i : grid1.Coords) : Prop :=
  (Scalar.cmpi .ne (Scalar.extui (Scalar.andi (Scalar.xori (Scalar.cmpi .slt (BitVec.ofNat 32 (i 0).val) 4#32) 1#1) (Scalar.cmpi .slt (BitVec.ofNat 32 (i 1).val) 4#32))) 0#32) = 1#1
/-- The fifth: neither coordinate is below 4. -/
abbrev cond1_4 (i : grid1.Coords) : Prop :=
  (Scalar.cmpi .ne (Scalar.extui (Scalar.andi (Scalar.xori (Scalar.cmpi .slt (BitVec.ofNat 32 (i 0).val) 4#32) 1#1) (Scalar.xori (Scalar.cmpi .slt (BitVec.ofNat 32 (i 1).val) 4#32) 1#1))) 0#32) = 1#1
/-- The sixth: the point is the grid's last, (7, 7). -/
abbrev cond1_5 (i : grid1.Coords) : Prop := k1_cond6 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ (t.val / 8 < 4 ∧ t.val % 8 < 4) :=
  (by decide +kernel : ∀ t : Fin grid1.N, cond1_1 (grid1.coords t) ↔ (t.val / 8 < 4 ∧ t.val % 8 < 4))
theorem hcond1_2 : ∀ t : Fin cfg1.N, cond1_2 (grid1.coords t) ↔ (t.val / 8 < 4 ∧ ¬ t.val % 8 < 4) :=
  (by decide +kernel : ∀ t : Fin grid1.N, cond1_2 (grid1.coords t) ↔ (t.val / 8 < 4 ∧ ¬ t.val % 8 < 4))
theorem hcond1_3 : ∀ t : Fin cfg1.N, cond1_3 (grid1.coords t) ↔ (¬ t.val / 8 < 4 ∧ t.val % 8 < 4) :=
  (by decide +kernel : ∀ t : Fin grid1.N, cond1_3 (grid1.coords t) ↔ (¬ t.val / 8 < 4 ∧ t.val % 8 < 4))
theorem hcond1_4 : ∀ t : Fin cfg1.N, cond1_4 (grid1.coords t) ↔ (¬ t.val / 8 < 4 ∧ ¬ t.val % 8 < 4) :=
  (by decide +kernel : ∀ t : Fin grid1.N, cond1_4 (grid1.coords t) ↔ (¬ t.val / 8 < 4 ∧ ¬ t.val % 8 < 4))
theorem hcond1_5 : ∀ t : Fin cfg1.N, cond1_5 (grid1.coords t) ↔ t.val = 63 :=
  (by decide +kernel : ∀ t : Fin grid1.N, cond1_5 (grid1.coords t) ↔ t.val = 63)

/-! ## The body's run, case by case -/

set_option maxHeartbeats 8000000 in
/-- At the first point the body zeroes the four accumulators, then adds the tile's sum to the first; the output window is left alone. -/
noncomputable def kernelRun1_A (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i)
    (x0 : Vec F S8192x256 .f32) (x1 : Vec F S1x1 .f32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, ?_, ?_, ?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, HS0⟩, ⟨%d4, %f4, -, HS1⟩, ⟨%d5, %f5, -, HS2⟩, ⟨%d6, %f6, -, HS3⟩, Hk⟩
    obtain rfl := harg2.eq_unread hf0; obtain rfl := harg3.eq_unread hf1; obtain rfl := harg4.eq_unread hf2
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; iexact HS3

set_option maxHeartbeats 8000000 in
/-- At a later point of the first quadrant the body adds the tile's sum to the first accumulator and stores nothing else. -/
noncomputable def kernelRun1_Bxx (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i)
    (x0 : Vec F S8192x256 .f32) (x1 : Vec F S1x1 .f32) (xs0 xs1 xs2 xs3 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ owns (c : Thread nD τ) arg6 fullShare xs1 ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]
    · iexists _; isplitr; · ipureintro; exact harg6.read_unread _
      iexact HS1
    isplitl [HS2]
    · iexists _; isplitr; · ipureintro; exact harg7.read_unread _
      iexact HS2
    iexists _; isplitr; · ipureintro; exact harg8.read_unread _
    iexact HS3

set_option maxHeartbeats 8000000 in
/-- At a point of the quadrant of low rows and high columns the body adds the tile's sum to the third accumulator and stores nothing else. -/
noncomputable def kernelRun1_Bxy (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i)
    (x0 : Vec F S8192x256 .f32) (x1 : Vec F S1x1 .f32) (xs0 xs1 xs2 xs3 : Vec F S1x1 .f32) :
    { LS2 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    isplitl [HS2]; · iexists _; iexact HS2
    iexists _; isplitr; · ipureintro; exact harg8.read_unread _
    iexact HS3

set_option maxHeartbeats 8000000 in
/-- At a point of the quadrant of high rows and low columns the body adds the tile's sum to the fourth accumulator and stores nothing else. -/
noncomputable def kernelRun1_Byx (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i)
    (x0 : Vec F S8192x256 .f32) (x1 : Vec F S1x1 .f32) (xs0 xs1 xs2 xs3 : Vec F S1x1 .f32) :
    { LS3 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ (∃ f, arg8.view.loc (c : Thread nD τ) ↦[arg8.view.set]{fullShare} arg8.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    isplitl [HS2]
    · iexists _; isplitr; · ipureintro; exact harg7.read_unread _
      iexact HS2
    iexists _; iexact HS3

set_option maxHeartbeats 8000000 in
/-- At a point of the last quadrant other than the last point the body adds the tile's sum to the second accumulator and stores nothing else. -/
noncomputable def kernelRun1_Byy (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i)
    (x0 : Vec F S8192x256 .f32) (x1 : Vec F S1x1 .f32) (xs0 xs1 xs2 xs3 : Vec F S1x1 .f32) :
    { LS1 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; isplitr; · ipureintro; exact harg8.read_unread _
    iexact HS3

set_option maxHeartbeats 8000000 in
/-- At the last point the body adds the tile's sum to the second accumulator and stores the combination of the four, scaled, into the output window. -/
noncomputable def kernelRun1_C (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i)
    (x0 : Vec F S8192x256 .f32) (x1 : Vec F S1x1 .f32) (xs0 xs1 xs2 xs3 : Vec F S1x1 .f32) :
    Σ' (L2 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, ?_, fun E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%d2, %f2, -, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; isplitr; · ipureintro; exact harg8.read_unread _
    iexact HS3

end Cert.Kernel.Hand

end
-- ==== Proof.BRegion1.lean ====
/-
  The second kernel region (the loss pass) of the word-level program at any float instance: what the four carried one-word accumulators and the
  output window hold after each of the 64 grid points, from the body's run in each of its six control cases; the region's
  invariant, its proof data and the body obligation.
-/
import proofs.«121879_j18313740550844_2_alg».proof.Proof.Gen.Kernel.Launch
import proofs.«121879_j18313740550844_2_alg».proof.Proof.Gen.Kernel.Skeleton
import proofs.«121879_j18313740550844_2_alg».proof.Proof.Gen.Kernel.Points
import proofs.«121879_j18313740550844_2_alg».proof.Proof.BRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The six control cases of the grid -/

theorem hcase1_A : ∀ t : Fin cfg1.N, t.val = 0 → (cond1_0 (grid1.coords t) ∧ cond1_1 (grid1.coords t) ∧ ¬cond1_2 (grid1.coords t) ∧ ¬cond1_3 (grid1.coords t) ∧ ¬cond1_4 (grid1.coords t) ∧ ¬cond1_5 (grid1.coords t)) :=
  (by decide +kernel : ∀ t : Fin grid1.N, t.val = 0 → (cond1_0 (grid1.coords t) ∧ cond1_1 (grid1.coords t) ∧ ¬cond1_2 (grid1.coords t) ∧ ¬cond1_3 (grid1.coords t) ∧ ¬cond1_4 (grid1.coords t) ∧ ¬cond1_5 (grid1.coords t)))
theorem hcase1_Bxx : ∀ t : Fin cfg1.N, t.val ≠ 0 ∧ t.val / 8 < 4 ∧ t.val % 8 < 4 → (¬cond1_0 (grid1.coords t) ∧ cond1_1 (grid1.coords t) ∧ ¬cond1_2 (grid1.coords t) ∧ ¬cond1_3 (grid1.coords t) ∧ ¬cond1_4 (grid1.coords t) ∧ ¬cond1_5 (grid1.coords t)) :=
  (by decide +kernel : ∀ t : Fin grid1.N, t.val ≠ 0 ∧ t.val / 8 < 4 ∧ t.val % 8 < 4 → (¬cond1_0 (grid1.coords t) ∧ cond1_1 (grid1.coords t) ∧ ¬cond1_2 (grid1.coords t) ∧ ¬cond1_3 (grid1.coords t) ∧ ¬cond1_4 (grid1.coords t) ∧ ¬cond1_5 (grid1.coords t)))
theorem hcase1_Bxy : ∀ t : Fin cfg1.N, t.val / 8 < 4 ∧ ¬ t.val % 8 < 4 → (¬cond1_0 (grid1.coords t) ∧ ¬cond1_1 (grid1.coords t) ∧ cond1_2 (grid1.coords t) ∧ ¬cond1_3 (grid1.coords t) ∧ ¬cond1_4 (grid1.coords t) ∧ ¬cond1_5 (grid1.coords t)) :=
  (by decide +kernel : ∀ t : Fin grid1.N, t.val / 8 < 4 ∧ ¬ t.val % 8 < 4 → (¬cond1_0 (grid1.coords t) ∧ ¬cond1_1 (grid1.coords t) ∧ cond1_2 (grid1.coords t) ∧ ¬cond1_3 (grid1.coords t) ∧ ¬cond1_4 (grid1.coords t) ∧ ¬cond1_5 (grid1.coords t)))
theorem hcase1_Byx : ∀ t : Fin cfg1.N, ¬ t.val / 8 < 4 ∧ t.val % 8 < 4 → (¬cond1_0 (grid1.coords t) ∧ ¬cond1_1 (grid1.coords t) ∧ ¬cond1_2 (grid1.coords t) ∧ cond1_3 (grid1.coords t) ∧ ¬cond1_4 (grid1.coords t) ∧ ¬cond1_5 (grid1.coords t)) :=
  (by decide +kernel : ∀ t : Fin grid1.N, ¬ t.val / 8 < 4 ∧ t.val % 8 < 4 → (¬cond1_0 (grid1.coords t) ∧ ¬cond1_1 (grid1.coords t) ∧ ¬cond1_2 (grid1.coords t) ∧ cond1_3 (grid1.coords t) ∧ ¬cond1_4 (grid1.coords t) ∧ ¬cond1_5 (grid1.coords t)))
theorem hcase1_Byy : ∀ t : Fin cfg1.N, t.val ≠ 63 ∧ ¬ t.val / 8 < 4 ∧ ¬ t.val % 8 < 4 → (¬cond1_0 (grid1.coords t) ∧ ¬cond1_1 (grid1.coords t) ∧ ¬cond1_2 (grid1.coords t) ∧ ¬cond1_3 (grid1.coords t) ∧ cond1_4 (grid1.coords t) ∧ ¬cond1_5 (grid1.coords t)) :=
  (by decide +kernel : ∀ t : Fin grid1.N, t.val ≠ 63 ∧ ¬ t.val / 8 < 4 ∧ ¬ t.val % 8 < 4 → (¬cond1_0 (grid1.coords t) ∧ ¬cond1_1 (grid1.coords t) ∧ ¬cond1_2 (grid1.coords t) ∧ ¬cond1_3 (grid1.coords t) ∧ cond1_4 (grid1.coords t) ∧ ¬cond1_5 (grid1.coords t)))
theorem hcase1_C : ∀ t : Fin cfg1.N, t.val = 63 → (¬cond1_0 (grid1.coords t) ∧ ¬cond1_1 (grid1.coords t) ∧ ¬cond1_2 (grid1.coords t) ∧ ¬cond1_3 (grid1.coords t) ∧ cond1_4 (grid1.coords t) ∧ cond1_5 (grid1.coords t)) :=
  (by decide +kernel : ∀ t : Fin grid1.N, t.val = 63 → (¬cond1_0 (grid1.coords t) ∧ ¬cond1_1 (grid1.coords t) ∧ ¬cond1_2 (grid1.coords t) ∧ ¬cond1_3 (grid1.coords t) ∧ cond1_4 (grid1.coords t) ∧ cond1_5 (grid1.coords t)))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_5 (grid1.coords t) → cfg1.idle 2 (grid1.coords t) = true := by decide +kernel
theorem noFlush1_2 : ∀ t : Fin cfg1.N, ¬cond1_5 (grid1.coords t) → (cfg1.win 2).flush t = false := by decide +kernel
theorem liveAt1_2 : ∀ t : Fin cfg1.N, cond1_5 (grid1.coords t) → cfg1.idle 2 (grid1.coords t) = false := by decide +kernel

/-! ## The memrefs the body is called with -/

abbrev VO1_2 : View sig .tc .vmem S1x1 .f32 := (Memref.whole cc1_stg2_0 : Memref sig .tc .vmem S1x1 .f32).view
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The four accumulators: scoped buffers of one word each, carried from point to point. -/
abbrev scM1_0 : Memref sig .tc .vmem S1x1 .f32 := Memref.whole cc1_scratch0
abbrev scM1_1 : Memref sig .tc .vmem S1x1 .f32 := Memref.whole cc1_scratch1
abbrev scM1_2 : Memref sig .tc .vmem S1x1 .f32 := Memref.whole cc1_scratch2
abbrev scM1_3 : Memref sig .tc .vmem S1x1 .f32 := Memref.whole cc1_scratch3
abbrev VS1_0 : View sig .tc .vmem S1x1 .f32 := scM1_0.view
abbrev VS1_1 : View sig .tc .vmem S1x1 .f32 := scM1_1.view
abbrev VS1_2 : View sig .tc .vmem S1x1 .f32 := scM1_2.view
abbrev VS1_3 : View sig .tc .vmem S1x1 .f32 := scM1_3.view

/-- What the region is entered with beside its windows: the scoped buffers that are neither a staging buffer of this
    region nor an accumulator, each at some contents; the four accumulators at anything; the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-- The same with the four accumulators at named contents `o.2`. -/
def held1 (c : Dev nD) (o : Vec F S1x1 .f32 × Vec F S1x1 .f32 × Vec F S1x1 .f32 × Vec F S1x1 .f32 × Vec F S1x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare o.2.1 ∗ owns (c : Thread nD τ) scM1_1 fullShare o.2.2.1 ∗ owns (c : Thread nD τ) scM1_2 fullShare o.2.2.2.1 ∗ owns (c : Thread nD τ) scM1_3 fullShare o.2.2.2.2) ∗ (∃ r, prngReg c r))

/-! ## What each case leaves -/

theorem scover1_A_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).1 S1x1.size (by sl_kernel_rfl) y
/-- The first accumulator after the first point. -/
def sout1_A_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 hc0 hc1 hc2 hc3 hc4 hc5 x0 x1).1)
theorem scover1_A_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.1 S1x1.size (by sl_kernel_rfl) y
/-- The second accumulator after the first point. -/
def sout1_A_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_1.read (Elt F) (VS1_1.writes (Elt F) VS1_1.junk (kernelRun1_A c i arg2 harg2 arg3 harg3 arg4 harg4 arg5 harg5 arg6 harg6 arg7 harg7 arg8 harg8 hc0 hc1 hc2 hc3 hc4 hc5 x0 x1).2.1)
theorem scover1_A_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.2.1 S1x1.size (by sl_kernel_rfl) y
/-- The third accumulator after the first point. -/
def sout1_A_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_2.read (Elt F) (VS1_2.writes (Elt F) VS1_2.junk (kernelRun1_A c i arg2 harg2 arg3 harg3 arg4 harg4 arg5 harg5 arg6 harg6 arg7 harg7 arg8 harg8 hc0 hc1 hc2 hc3 hc4 hc5 x0 x1).2.2.1)
theorem scover1_A_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.2.2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.2.2.1 S1x1.size (by sl_kernel_rfl) y
/-- The fourth accumulator after the first point. -/
def sout1_A_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_3.read (Elt F) (VS1_3.writes (Elt F) VS1_3.junk (kernelRun1_A c i arg2 harg2 arg3 harg3 arg4 harg4 arg5 harg5 arg6 harg6 arg7 harg7 arg8 harg8 hc0 hc1 hc2 hc3 hc4 hc5 x0 x1).2.2.2.1)

theorem scover1_Bxx_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Bxx c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Bxx c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The first accumulator after a later point of the first quadrant. -/
def sout1_Bxx_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_0.read (Elt F) (VS1_0.writes (Elt F) VS1_0.junk (kernelRun1_Bxx c i arg2 harg2 arg3 harg3 arg4 harg4 arg5 harg5 arg6 harg6 arg7 harg7 arg8 harg8 hc0 hc1 hc2 hc3 hc4 hc5 x0 x1 xs0 xs1 xs2 xs3).1)

theorem scover1_Bxy_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Bxy c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Bxy c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The third accumulator after a point of low rows and high columns. -/
def sout1_Bxy_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_2.read (Elt F) (VS1_2.writes (Elt F) VS1_2.junk (kernelRun1_Bxy c i arg2 harg2 arg3 harg3 arg4 harg4 arg5 harg5 arg6 harg6 arg7 harg7 arg8 harg8 hc0 hc1 hc2 hc3 hc4 hc5 x0 x1 xs0 xs1 xs2 xs3).1)

theorem scover1_Byx_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Byx c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Byx c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The fourth accumulator after a point of high rows and low columns. -/
def sout1_Byx_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_3.read (Elt F) (VS1_3.writes (Elt F) VS1_3.junk (kernelRun1_Byx c i arg2 harg2 arg3 harg3 arg4 harg4 arg5 harg5 arg6 harg6 arg7 harg7 arg8 harg8 hc0 hc1 hc2 hc3 hc4 hc5 x0 x1 xs0 xs1 xs2 xs3).1)

theorem scover1_Byy_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Byy c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Byy c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The second accumulator after a point of the last quadrant before the last. -/
def sout1_Byy_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i) (x0 : Vec F S8192x256 .f32) (x1 : Vec F S1x1 .f32) (xs0 xs1 xs2 xs3 : Vec F S1x1 .f32) : Vec F S1x1 .f32 :=
  VS1_1.read (Elt F) (VS1_1.writes (Elt F) VS1_1.junk (kernelRun1_Byy c i arg2 harg2 arg3 harg3 arg4 harg4 arg5 harg5 arg6 harg6 arg7 harg7 arg8 harg8 hc0 hc1 hc2 hc3 hc4 hc5 x0 x1 xs0 xs1 xs2 xs3).1)

theorem cover1_C_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) (y : S1x1.Idx) :
    ∃ pc ∈ (kernelRun1_C c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_C c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The output window's buffer after the last point. -/
def out1_C_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) : Vec F S1x1 .f32 :=
  VO1_2.read (Elt F) (VO1_2.writes (Elt F) VO1_2.junk (kernelRun1_C c i arg2 harg2 arg3 harg3 arg4 harg4 arg5 harg5 arg6 harg6 arg7 harg7 arg8 harg8 hc0 hc1 hc2 hc3 hc4 hc5 x0 x1 xs0 xs1 xs2 xs3).1)
theorem scover1_C_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) (y : S1x1.Idx) :
    ∃ pc ∈ (kernelRun1_C c i arg2 harg2 arg3 harg3 arg4 harg4 arg5 harg5 arg6 harg6 arg7 harg7 arg8 harg8 hc0 hc1 hc2 hc3 hc4 hc5 x0 x1 xs0 xs1 xs2 xs3).2.1, y ∈ pc.1.set :=
  View.cover_of_tiledL (kernelRun1_C c i arg2 harg2 arg3 harg3 arg4 harg4 arg5 harg5 arg6 harg6 arg7 harg7 arg8 harg8 hc0 hc1 hc2 hc3 hc4 hc5 x0 x1 xs0 xs1 xs2 xs3).2.1 S1x1.size (by sl_kernel_rfl) y
/-- The second accumulator after the last point. -/
def sout1_C_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 hc0 hc1 hc2 hc3 hc4 hc5 x0 x1 xs0 xs1 xs2 xs3).2.1)

section Region1
-- the TensorCore's buffer contents when the region is entered: a parameter, instantiated by the run
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- So does the second's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output window's buffer (a placeholder before the last point, where nothing is stored into it)
    and the four accumulators hold after the body at position `n`; an accumulator the body does not store into at `n`
    keeps what it held after `n - 1`. -/
def outsAt1 (c : Dev nD) : (n : ℕ) → n < cfg1.N → Vec F S1x1 .f32 × Vec F S1x1 .f32 × Vec F S1x1 .f32 × Vec F S1x1 .f32 × Vec F S1x1 .f32
  | 0, hn => (VO1_2.read (Elt F) VO1_2.junk,
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩))
  | n + 1, hn =>
    if hC : n + 1 = 63 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_C ⟨n + 1, hn⟩ hC).1) ((hcase1_C ⟨n + 1, hn⟩ hC).2.1) ((hcase1_C ⟨n + 1, hn⟩ hC).2.2.1) ((hcase1_C ⟨n + 1, hn⟩ hC).2.2.2.1) ((hcase1_C ⟨n + 1, hn⟩ hC).2.2.2.2.1) ((hcase1_C ⟨n + 1, hn⟩ hC).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.1,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_C ⟨n + 1, hn⟩ hC).1) ((hcase1_C ⟨n + 1, hn⟩ hC).2.1) ((hcase1_C ⟨n + 1, hn⟩ hC).2.2.1) ((hcase1_C ⟨n + 1, hn⟩ hC).2.2.2.1) ((hcase1_C ⟨n + 1, hn⟩ hC).2.2.2.2.1) ((hcase1_C ⟨n + 1, hn⟩ hC).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.1,
        (outsAt1 c n (Nat.lt_of_succ_lt hn)).2.2.2.2)
    else if hxx : (n + 1) / 8 < 4 ∧ (n + 1) % 8 < 4 then
      (VO1_2.read (Elt F) VO1_2.junk,
        sout1_Bxx_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Bxx ⟨n + 1, hn⟩ ⟨Nat.succ_ne_zero n, hxx.1, hxx.2⟩).1) ((hcase1_Bxx ⟨n + 1, hn⟩ ⟨Nat.succ_ne_zero n, hxx.1, hxx.2⟩).2.1) ((hcase1_Bxx ⟨n + 1, hn⟩ ⟨Nat.succ_ne_zero n, hxx.1, hxx.2⟩).2.2.1) ((hcase1_Bxx ⟨n + 1, hn⟩ ⟨Nat.succ_ne_zero n, hxx.1, hxx.2⟩).2.2.2.1) ((hcase1_Bxx ⟨n + 1, hn⟩ ⟨Nat.succ_ne_zero n, hxx.1, hxx.2⟩).2.2.2.2.1) ((hcase1_Bxx ⟨n + 1, hn⟩ ⟨Nat.succ_ne_zero n, hxx.1, hxx.2⟩).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.1,
        (outsAt1 c n (Nat.lt_of_succ_lt hn)).2.2.2.1,
        (outsAt1 c n (Nat.lt_of_succ_lt hn)).2.2.2.2)
    else if hxy : (n + 1) / 8 < 4 ∧ ¬ (n + 1) % 8 < 4 then
      (VO1_2.read (Elt F) VO1_2.junk,
        (outsAt1 c n (Nat.lt_of_succ_lt hn)).2.1,
        (outsAt1 c n (Nat.lt_of_succ_lt hn)).2.2.1,
        sout1_Bxy_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Bxy ⟨n + 1, hn⟩ hxy).1) ((hcase1_Bxy ⟨n + 1, hn⟩ hxy).2.1) ((hcase1_Bxy ⟨n + 1, hn⟩ hxy).2.2.1) ((hcase1_Bxy ⟨n + 1, hn⟩ hxy).2.2.2.1) ((hcase1_Bxy ⟨n + 1, hn⟩ hxy).2.2.2.2.1) ((hcase1_Bxy ⟨n + 1, hn⟩ hxy).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.2)
    else if hyx : ¬ (n + 1) / 8 < 4 ∧ (n + 1) % 8 < 4 then
      (VO1_2.read (Elt F) VO1_2.junk,
        (outsAt1 c n (Nat.lt_of_succ_lt hn)).2.1,
        (outsAt1 c n (Nat.lt_of_succ_lt hn)).2.2.1,
        (outsAt1 c n (Nat.lt_of_succ_lt hn)).2.2.2.1,
        sout1_Byx_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Byx ⟨n + 1, hn⟩ hyx).1) ((hcase1_Byx ⟨n + 1, hn⟩ hyx).2.1) ((hcase1_Byx ⟨n + 1, hn⟩ hyx).2.2.1) ((hcase1_Byx ⟨n + 1, hn⟩ hyx).2.2.2.1) ((hcase1_Byx ⟨n + 1, hn⟩ hyx).2.2.2.2.1) ((hcase1_Byx ⟨n + 1, hn⟩ hyx).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2))
    else
      (VO1_2.read (Elt F) VO1_2.junk,
        (outsAt1 c n (Nat.lt_of_succ_lt hn)).2.1,
        sout1_Byy_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Byy ⟨n + 1, hn⟩ (show (n + 1) ≠ 63 ∧ ¬ (n + 1) / 8 < 4 ∧ ¬ (n + 1) % 8 < 4 from ⟨hC, by omega, by omega⟩)).1) ((hcase1_Byy ⟨n + 1, hn⟩ (show (n + 1) ≠ 63 ∧ ¬ (n + 1) / 8 < 4 ∧ ¬ (n + 1) % 8 < 4 from ⟨hC, by omega, by omega⟩)).2.1) ((hcase1_Byy ⟨n + 1, hn⟩ (show (n + 1) ≠ 63 ∧ ¬ (n + 1) / 8 < 4 ∧ ¬ (n + 1) % 8 < 4 from ⟨hC, by omega, by omega⟩)).2.2.1) ((hcase1_Byy ⟨n + 1, hn⟩ (show (n + 1) ≠ 63 ∧ ¬ (n + 1) / 8 < 4 ∧ ¬ (n + 1) % 8 < 4 from ⟨hC, by omega, by omega⟩)).2.2.2.1) ((hcase1_Byy ⟨n + 1, hn⟩ (show (n + 1) ≠ 63 ∧ ¬ (n + 1) / 8 < 4 ∧ ¬ (n + 1) % 8 < 4 from ⟨hC, by omega, by omega⟩)).2.2.2.2.1) ((hcase1_Byy ⟨n + 1, hn⟩ (show (n + 1) ≠ 63 ∧ ¬ (n + 1) / 8 < 4 ∧ ¬ (n + 1) % 8 < 4 from ⟨hC, by omega, by omega⟩)).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.1,
        (outsAt1 c n (Nat.lt_of_succ_lt hn)).2.2.2.2)

theorem outsAt1_A (c : Dev nD) (t : Fin cfg1.N) (h : t.val = 0) :
    outsAt1 V c t.val t.isLt = (VO1_2.read (Elt F) VO1_2.junk,
        sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t)) := by
  obtain ⟨n, hn⟩ := t
  cases n with
  | zero => exact rfl
  | succ n => exact absurd h (Nat.succ_ne_zero n)

theorem outsAt1_Bxx (c : Dev nD) (t : Fin cfg1.N) (h : t.val ≠ 0 ∧ t.val / 8 < 4 ∧ t.val % 8 < 4) :
    outsAt1 V c t.val t.isLt = (VO1_2.read (Elt F) VO1_2.junk,
        sout1_Bxx_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Bxx t h).1) ((hcase1_Bxx t h).2.1) ((hcase1_Bxx t h).2.2.1) ((hcase1_Bxx t h).2.2.2.1) ((hcase1_Bxx t h).2.2.2.2.1) ((hcase1_Bxx t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.1,
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 ≠ 0 ∧ 0 / 8 < 4 ∧ 0 % 8 < 4 := h
    exact absurd h' (by omega)
  | succ n =>
    have h' : (n + 1) ≠ 0 ∧ (n + 1) / 8 < 4 ∧ (n + 1) % 8 < 4 := h
    exact (dif_neg (by omega)).trans ((dif_pos ⟨h'.2.1, h'.2.2⟩).trans rfl)

theorem outsAt1_Bxy (c : Dev nD) (t : Fin cfg1.N) (h : t.val / 8 < 4 ∧ ¬ t.val % 8 < 4) :
    outsAt1 V c t.val t.isLt = (VO1_2.read (Elt F) VO1_2.junk,
        (outsAt1 V c (t.val - 1) (Nat.lt_of_le_of_lt (Nat.sub_le _ _) t.isLt)).2.1,
        (outsAt1 V c (t.val - 1) (Nat.lt_of_le_of_lt (Nat.sub_le _ _) t.isLt)).2.2.1,
        sout1_Bxy_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Bxy t h).1) ((hcase1_Bxy t h).2.1) ((hcase1_Bxy t h).2.2.1) ((hcase1_Bxy t h).2.2.2.1) ((hcase1_Bxy t h).2.2.2.2.1) ((hcase1_Bxy t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.2) := by
  obtain ⟨n, hn⟩ := t
  cases n with
  | zero =>
    have h' : 0 / 8 < 4 ∧ ¬ 0 % 8 < 4 := h
    exact absurd h' (by omega)
  | succ n =>
    have h' : (n + 1) / 8 < 4 ∧ ¬ (n + 1) % 8 < 4 := h
    exact (dif_neg (by omega)).trans ((dif_neg (by omega)).trans ((dif_pos h').trans rfl))

theorem outsAt1_Byx (c : Dev nD) (t : Fin cfg1.N) (h : ¬ t.val / 8 < 4 ∧ t.val % 8 < 4) :
    outsAt1 V c t.val t.isLt = (VO1_2.read (Elt F) VO1_2.junk,
        (outsAt1 V c (t.val - 1) (Nat.lt_of_le_of_lt (Nat.sub_le _ _) t.isLt)).2.1,
        (outsAt1 V c (t.val - 1) (Nat.lt_of_le_of_lt (Nat.sub_le _ _) t.isLt)).2.2.1,
        (outsAt1 V c (t.val - 1) (Nat.lt_of_le_of_lt (Nat.sub_le _ _) t.isLt)).2.2.2.1,
        sout1_Byx_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Byx t h).1) ((hcase1_Byx t h).2.1) ((hcase1_Byx t h).2.2.1) ((hcase1_Byx t h).2.2.2.1) ((hcase1_Byx t h).2.2.2.2.1) ((hcase1_Byx t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2)) := by
  obtain ⟨n, hn⟩ := t
  cases n with
  | zero =>
    have h' : ¬ 0 / 8 < 4 ∧ 0 % 8 < 4 := h
    exact absurd h' (by omega)
  | succ n =>
    have h' : ¬ (n + 1) / 8 < 4 ∧ (n + 1) % 8 < 4 := h
    exact (dif_neg (by omega)).trans ((dif_neg (by omega)).trans ((dif_neg (by omega)).trans ((dif_pos h').trans rfl)))

theorem outsAt1_Byy (c : Dev nD) (t : Fin cfg1.N) (h : t.val ≠ 63 ∧ ¬ t.val / 8 < 4 ∧ ¬ t.val % 8 < 4) :
    outsAt1 V c t.val t.isLt = (VO1_2.read (Elt F) VO1_2.junk,
        (outsAt1 V c (t.val - 1) (Nat.lt_of_le_of_lt (Nat.sub_le _ _) t.isLt)).2.1,
        sout1_Byy_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Byy t h).1) ((hcase1_Byy t h).2.1) ((hcase1_Byy t h).2.2.1) ((hcase1_Byy t h).2.2.2.1) ((hcase1_Byy t h).2.2.2.2.1) ((hcase1_Byy t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 ≠ 63 ∧ ¬ 0 / 8 < 4 ∧ ¬ 0 % 8 < 4 := h
    exact absurd h' (by omega)
  | succ n =>
    have h' : (n + 1) ≠ 63 ∧ ¬ (n + 1) / 8 < 4 ∧ ¬ (n + 1) % 8 < 4 := h
    exact (dif_neg (by omega)).trans ((dif_neg (by omega)).trans ((dif_neg (by omega)).trans ((dif_neg (by omega)).trans rfl)))

theorem outsAt1_C (c : Dev nD) (t : Fin cfg1.N) (h : t.val = 63) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_C t h).1) ((hcase1_C t h).2.1) ((hcase1_C t h).2.2.1) ((hcase1_C t h).2.2.2.1) ((hcase1_C t h).2.2.2.2.1) ((hcase1_C t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.1,
        sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_C t h).1) ((hcase1_C t h).2.1) ((hcase1_C t h).2.2.1) ((hcase1_C t h).2.2.2.1) ((hcase1_C t h).2.2.2.2.1) ((hcase1_C t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 = 63 := h
    exact absurd h' (by omega)
  | succ n =>
    have h' : (n + 1) = 63 := h
    exact (dif_pos h').trans rfl

/-- The region's invariant before position `n`: before the first point what the region is entered with; afterwards the
    four accumulators at what the point before left, the other scoped buffers at anything, the generator register at some
    state. -/
def PhiS1 (c : Dev nD) : (n : ℕ) → n ≤ cfg1.N → sProp 𝕄
  | 0, _ => Pipeline.ΦA spec1 c
  | n + 1, hn => held1 c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = held1 c (outsAt1 V c n hn) := rfl
theorem PhiS1_pos (c : Dev nD) (n : ℕ) (h : n ≤ cfg1.N) (hz : n ≠ 0) :
    PhiS1 V c n h = held1 c (outsAt1 V c (n - 1) (by omega)) := by
  cases n with
  | zero => exact absurd rfl hz
  | succ n => rfl

/-- The proof data of the region on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 16000000 in
/-- The body at any point: the closed forms say which case the point is in; the invariant hands the body the four
    accumulators at what the point before left (at anything at the first point) and takes them back at this point's
    contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases hA : t.val = 0
  · have hk := hcase1_A t hA
    rw [Dat.leavesExact_idle (dat1 V c) 2 t (idleAt1_2 t hk.2.2.2.2.2) (noFlush1_2 t hk.2.2.2.2.2)]
    rw [outsAt1_A V c t hA]
    unfold sout1_A_0 sout1_A_1 sout1_A_2 sout1_A_3; (try dsimp only)
    rw [PhiS1_castSucc V c t, PhiS1_zero V c _ _ hA, PhiA1_eq]
    unfold held1; (try dsimp only)
    iintro ⟨⟨⟨R0, R1, R2, HS0, HS1, HS2, HS3⟩, Hg⟩, Ho, ⟨%d0, H0⟩, ⟨%d1, H1⟩, ⟨%d2, H2⟩⟩
    iapply ((kernelRun1_A c (grid1.coords t) _ _ _ _ _ _ _ _ _ _ _ _ _ _ hk.1 hk.2.1 hk.2.2.1 hk.2.2.2.1 hk.2.2.2.2.1 hk.2.2.2.2.2 (iblk1 V c 0 t) (iblk1 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, ⟨%es0, HS0⟩, ⟨%es1, HS1⟩, ⟨%es2, HS2⟩, ⟨%es3, HS3⟩⟩
    isplitl [R0 R1 R2 HS0 HS1 HS2 HS3 Hg]
    · isplitl [R0 R1 R2 HS0 HS1 HS2 HS3]
      · isplitl [R0]; · iexact R0
        isplitl [R1]; · iexact R1
        isplitl [R2]; · iexact R2
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _)
      iexact Hg
    isplitl [Ho]; · iexact Ho
    isplitl [H0]; · iexact H0
    isplitl [H1]; · iexact H1
    iexists _; iexact H2
  · have hne0 : t.val ≠ 0 := hA
    by_cases hC : t.val = 63
    · have hk := hcase1_C t hC
      rw [show (dat1 V c).leavesExact 2 t = owns (c : Thread nD τ) (ms1_2 t) fullShare ((dat1 V c).after 2 t) from by
        unfold Dat.leavesExact; rw [liveAt1_2 t hk.2.2.2.2.2], after1_2]
      rw [outsAt1_C V c t hC]
      unfold out1_C_2 sout1_C_1; (try dsimp only)
      rw [PhiS1_castSucc V c t, PhiS1_pos V c _ _ hne0]
      unfold held1; (try dsimp only)
      iintro ⟨⟨⟨R0, R1, R2, HS0, HS1, HS2, HS3⟩, Hg⟩, Ho, ⟨%d0, H0⟩, ⟨%d1, H1⟩, ⟨%d2, H2⟩⟩
      iapply ((kernelRun1_C c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      isplitl [HS3]; · iexact HS3
      iintro ⟨H0, H1, ⟨%e2, H2⟩, HS0, ⟨%es1, HS1⟩, HS2, HS3⟩
      isplitl [R0 R1 R2 HS0 HS1 HS2 HS3 Hg]
      · isplitl [R0 R1 R2 HS0 HS1 HS2 HS3]
        · isplitl [R0]; · iexact R0
          isplitl [R1]; · iexact R1
          isplitl [R2]; · iexact R2
          isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _)
          isplitl [HS2]; · iexact HS2
          iexact HS3
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _ _ _ _ _ _ _ _)
    · by_cases hxx : t.val / 8 < 4 ∧ t.val % 8 < 4
      · have hBxx : t.val ≠ 0 ∧ t.val / 8 < 4 ∧ t.val % 8 < 4 := ⟨hne0, hxx.1, hxx.2⟩
        have hk := hcase1_Bxx t hBxx
        rw [Dat.leavesExact_idle (dat1 V c) 2 t (idleAt1_2 t hk.2.2.2.2.2) (noFlush1_2 t hk.2.2.2.2.2)]
        rw [outsAt1_Bxx V c t hBxx]
        unfold sout1_Bxx_0; (try dsimp only)
        rw [PhiS1_castSucc V c t, PhiS1_pos V c _ _ hne0]
        unfold held1; (try dsimp only)
        iintro ⟨⟨⟨R0, R1, R2, HS0, HS1, HS2, HS3⟩, Hg⟩, Ho, ⟨%d0, H0⟩, ⟨%d1, H1⟩, ⟨%d2, H2⟩⟩
        iapply ((kernelRun1_Bxx c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        iintro ⟨H0, H1, H2, ⟨%es0, HS0⟩, HS1, HS2, HS3⟩
        isplitl [R0 R1 R2 HS0 HS1 HS2 HS3 Hg]
        · isplitl [R0 R1 R2 HS0 HS1 HS2 HS3]
          · isplitl [R0]; · iexact R0
            isplitl [R1]; · iexact R1
            isplitl [R2]; · iexact R2
            isplitl [HS0]
            · unfold owns; iexists _; isplitr
              swap; · iexact HS0
              ipureintro; exact View.read_writes_of_cover _ _ _ _ _ (scover1_Bxx_0 c _ _ _ _ _ _ _ _ _ _ _ _ _ _ _ _ _ _ _ _ _ _ _ _ _ _ _)
            isplitl [HS1]; · iexact HS1
            isplitl [HS2]; · iexact HS2
            iexact HS3
          iexact Hg
        isplitl [Ho]; · iexact Ho
        isplitl [H0]; · iexact H0
        isplitl [H1]; · iexact H1
        iexists _; iexact H2
      · by_cases hBxy : t.val / 8 < 4 ∧ ¬ t.val % 8 < 4
        · have hk := hcase1_Bxy t hBxy
          rw [Dat.leavesExact_idle (dat1 V c) 2 t (idleAt1_2 t hk.2.2.2.2.2) (noFlush1_2 t hk.2.2.2.2.2)]
          rw [outsAt1_Bxy V c t hBxy]
          unfold sout1_Bxy_2; (try dsimp only)
          rw [PhiS1_castSucc V c t, PhiS1_pos V c _ _ hne0]
          unfold held1; (try dsimp only)
          iintro ⟨⟨⟨R0, R1, R2, HS0, HS1, HS2, HS3⟩, Hg⟩, Ho, ⟨%d0, H0⟩, ⟨%d1, H1⟩, ⟨%d2, H2⟩⟩
          iapply ((kernelRun1_Bxy c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
          isplitl [H0]; · iexact H0
          isplitl [H1]; · iexact H1
          isplitl [H2]; · iexact H2
          isplitl [HS0]; · iexact HS0
          isplitl [HS1]; · iexact HS1
          isplitl [HS2]; · iexact HS2
          isplitl [HS3]; · iexact HS3
          iintro ⟨H0, H1, H2, HS0, HS1, ⟨%es2, HS2⟩, HS3⟩
          isplitl [R0 R1 R2 HS0 HS1 HS2 HS3 Hg]
          · isplitl [R0 R1 R2 HS0 HS1 HS2 HS3]
            · isplitl [R0]; · iexact R0
              isplitl [R1]; · iexact R1
              isplitl [R2]; · iexact R2
              isplitl [HS0]; · iexact HS0
              isplitl [HS1]; · iexact HS1
              isplitl [HS2]
              · unfold owns; iexists _; isplitr
                swap; · iexact HS2
                ipureintro; exact View.read_writes_of_cover _ _ _ _ _ (scover1_Bxy_2 c _ _ _ _ _ _ _ _ _ _ _ _ _ _ _ _ _ _ _ _ _ _ _ _ _ _ _)
              iexact HS3
            iexact Hg
          isplitl [Ho]; · iexact Ho
          isplitl [H0]; · iexact H0
          isplitl [H1]; · iexact H1
          iexists _; iexact H2
        · by_cases hByx : ¬ t.val / 8 < 4 ∧ t.val % 8 < 4
          · have hk := hcase1_Byx t hByx
            rw [Dat.leavesExact_idle (dat1 V c) 2 t (idleAt1_2 t hk.2.2.2.2.2) (noFlush1_2 t hk.2.2.2.2.2)]
            rw [outsAt1_Byx V c t hByx]
            unfold sout1_Byx_3; (try dsimp only)
            rw [PhiS1_castSucc V c t, PhiS1_pos V c _ _ hne0]
            unfold held1; (try dsimp only)
            iintro ⟨⟨⟨R0, R1, R2, HS0, HS1, HS2, HS3⟩, Hg⟩, Ho, ⟨%d0, H0⟩, ⟨%d1, H1⟩, ⟨%d2, H2⟩⟩
            iapply ((kernelRun1_Byx c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
            isplitl [H0]; · iexact H0
            isplitl [H1]; · iexact H1
            isplitl [H2]; · iexact H2
            isplitl [HS0]; · iexact HS0
            isplitl [HS1]; · iexact HS1
            isplitl [HS2]; · iexact HS2
            isplitl [HS3]; · iexact HS3
            iintro ⟨H0, H1, H2, HS0, HS1, HS2, ⟨%es3, HS3⟩⟩
            isplitl [R0 R1 R2 HS0 HS1 HS2 HS3 Hg]
            · isplitl [R0 R1 R2 HS0 HS1 HS2 HS3]
              · isplitl [R0]; · iexact R0
                isplitl [R1]; · iexact R1
                isplitl [R2]; · iexact R2
                isplitl [HS0]; · iexact HS0
                isplitl [HS1]; · iexact HS1
                isplitl [HS2]; · iexact HS2
                unfold owns; iexists _; isplitr
                swap; · iexact HS3
                ipureintro; exact View.read_writes_of_cover _ _ _ _ _ (scover1_Byx_3 c _ _ _ _ _ _ _ _ _ _ _ _ _ _ _ _ _ _ _ _ _ _ _ _ _ _ _)
              iexact Hg
            isplitl [Ho]; · iexact Ho
            isplitl [H0]; · iexact H0
            isplitl [H1]; · iexact H1
            iexists _; iexact H2
          · have hByy : t.val ≠ 63 ∧ ¬ t.val / 8 < 4 ∧ ¬ t.val % 8 < 4 := ⟨hC, by omega, by omega⟩
            have hk := hcase1_Byy t hByy
            rw [Dat.leavesExact_idle (dat1 V c) 2 t (idleAt1_2 t hk.2.2.2.2.2) (noFlush1_2 t hk.2.2.2.2.2)]
            rw [outsAt1_Byy V c t hByy]
            unfold sout1_Byy_1; (try dsimp only)
            rw [PhiS1_castSucc V c t, PhiS1_pos V c _ _ hne0]
            unfold held1; (try dsimp only)
            iintro ⟨⟨⟨R0, R1, R2, HS0, HS1, HS2, HS3⟩, Hg⟩, Ho, ⟨%d0, H0⟩, ⟨%d1, H1⟩, ⟨%d2, H2⟩⟩
            iapply ((kernelRun1_Byy c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
            isplitl [H0]; · iexact H0
            isplitl [H1]; · iexact H1
            isplitl [H2]; · iexact H2
            isplitl [HS0]; · iexact HS0
            isplitl [HS1]; · iexact HS1
            isplitl [HS2]; · iexact HS2
            isplitl [HS3]; · iexact HS3
            iintro ⟨H0, H1, H2, HS0, ⟨%es1, HS1⟩, HS2, HS3⟩
            isplitl [R0 R1 R2 HS0 HS1 HS2 HS3 Hg]
            · isplitl [R0 R1 R2 HS0 HS1 HS2 HS3]
              · isplitl [R0]; · iexact R0
                isplitl [R1]; · iexact R1
                isplitl [R2]; · iexact R2
                isplitl [HS0]; · iexact HS0
                isplitl [HS1]
                · unfold owns; iexists _; isplitr
                  swap; · iexact HS1
                  ipureintro; exact View.read_writes_of_cover _ _ _ _ _ (scover1_Byy_1 c _ _ _ _ _ _ _ _ _ _ _ _ _ _ _ _ _ _ _ _ _ _ _ _ _ _ _)
                isplitl [HS2]; · iexact HS2
                iexact HS3
              iexact Hg
            isplitl [Ho]; · iexact Ho
            isplitl [H0]; · iexact H0
            isplitl [H1]; · iexact H1
            iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold held1
  iintro ⟨⟨R0, R1, R2, HS0, HS1, HS2, HS3⟩, Hg⟩
  isplitl [R0 R1 R2 HS0 HS1 HS2 HS3]
  · isplitl [R0]; · iexact R0
    isplitl [R1]; · iexact R1
    isplitl [R2]; · iexact R2
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.BRun.lean ====
/-
  The whole run of the program of two kernel regions: the buffer contents at each boundary of @main as a fold from the launch
  memory (host operations applied, then each region's arrays at what its pipeline leaves), the two regions as segments
  entered from and left at those contents, @main as the list of its four segments, and from the launch theorem for such a
  list: every weakly fair execution terminates, nothing faulting, each unscoped buffer ending at the fold's last contents —
  whence the argument arrays end as launched and the result buffer at the last contents of its own.
-/
import proofs.«121879_j18313740550844_2_alg».proof.Proof.Gen.Kernel.Launch
import proofs.«121879_j18313740550844_2_alg».proof.Proof.Gen.Kernel.Skeleton
import proofs.«121879_j18313740550844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121879_j18313740550844_2_alg».proof.Proof.BRegion0
import proofs.«121879_j18313740550844_2_alg».proof.Proof.BRegion1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register. -/
abbrev Tₙ (c : Dev nD) : sProp 𝕄 := iprop(StableHlo.held (c : Thread nD τ) (Pipeline.ucRefs τ sig) (W4 m ρ c) ∗ ∃ r, prngReg c r)

/-- What a region is handed beside its windows makes the class's invariant, and back. -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c) ⊢ (Pipeline.ΦA win c : sProp 𝕄) := by
  unfold Pipeline.ΦA
  iintro ⟨Hp, -, Hr⟩
  isplitl [Hr]; · iexact Hr
  iexact Hp
theorem phiA_out {gr W : Nat} (win : Fin W → Pipeline.WinSpec sig gr) (c : Dev nD) :
    (Pipeline.ΦA win c : sProp 𝕄) ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr
/-- The last host segment's post is the last thread state beside the core owing nothing. -/
theorem last_link (c : Dev nD) :
    iprop(StableHlo.held (c : Thread nD τ) (Pipeline.ucRefs τ sig) (W4 m ρ c) ∗ R (F := F) c) ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at the contents before it, left at the contents
    after it. Its arrays are split out of the unscoped buffers and put back at what the pipeline leaves; the generator
    register and the scoped buffers go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec0 c _).trans (hin0 (V1 m ρ) c)
  hout c := by
    rw [Pipeline.ownSems0_none]
    exact (hout0 (V1 m ρ) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register and the scoped buffers go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec1 c _).trans (hin1 (V2 m ρ) c)
  hout c := by
    rw [Pipeline.ownSems0_none]
    exact (hout1 (V2 m ρ) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched; the result is the last contents of its buffer -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg2) := rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run with the result buffer named: it ends at the fold's last contents. -/
theorem valued : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v19 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.IRegion0.lean ====
/-
  The first kernel region (the bandwidth pass) of the idealized program, at any float instance: the body's run in each of its
  three control cases (first point, middle points, last point), what the carried one-word accumulator and the output window
  hold after each of the 64 grid points, the region's invariant, its proof data and the body obligation.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: where the body's two conditionals hold -/

/-- The first conditional of the body: the point is the grid's first, (0, 0). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second: the point is the grid's last, (7, 7). -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the output window is idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x1 .f32 := (Memref.whole cc0_stg1_0 : Memref sig .tc .vmem S1x1 .f32).view
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The accumulator: a scoped buffer of one word, carried from point to point. -/
abbrev scM0_0 : Memref sig .tc .vmem S1x1 .f32 := Memref.whole cc0_scratch0
abbrev VS0_0 : View sig .tc .vmem S1x1 .f32 := scM0_0.view

/-- The scoped buffers that are neither a staging buffer of this region nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the region is entered with beside its windows: the accumulator at anything, the other scoped buffers, the generator
    register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

set_option maxHeartbeats 4000000 in
/-- At the first point the body zeroes the accumulator, then adds the tile's sum to it; the output window is left alone. -/
noncomputable def kernelRun0_A (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x256 .f32) :
    { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, fun xi1 E K => ?run⟩
  case run =>
    simp only [cc0__bandwidth_kernel_eq_skeleton]; unfold cc0__bandwidth_kernel_skel
    simp only [k0_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- At a point that is neither the first nor the last the body adds the tile's sum to the carried accumulator and stores
    nothing else: the accumulator's pieces are what the run finds. -/
noncomputable def kernelRun0_B (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x256 .f32) (xs0 : Vec F S1x1 .f32) :
    { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, fun xi1 E K => ?run⟩
  case run =>
    simp only [cc0__bandwidth_kernel_eq_skeleton]; unfold cc0__bandwidth_kernel_skel
    simp only [k0_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- At the last point the body adds the tile's sum to the accumulator and stores the scaled total into the output window. -/
noncomputable def kernelRun0_C (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x256 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__bandwidth_kernel i arg2 harg2 arg3 harg3 arg4 harg4) K } := by
  refine ⟨?_, ?_, fun E K => ?run⟩
  case run =>
    simp only [cc0__bandwidth_kernel_eq_skeleton]; unfold cc0__bandwidth_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What each case leaves -/

theorem scover0_A_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x256 .f32) (y : S1x1.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S1x1.size (by sl_kernel_rfl) y
/-- The accumulator after the first point. -/
def sout0_A_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x256 .f32) : Vec F S1x1 .f32 :=
  VS0_0.read (Elt F) (VS0_0.writes (Elt F) VS0_0.junk (kernelRun0_A c i arg2 harg2 arg3 harg3 arg4 harg4 hc0 hc1 x0).1)

theorem scover0_B_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x256 .f32) (xs0 : Vec F S1x1 .f32) (y : S1x1.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S1x1.size (by sl_kernel_rfl) y
/-- The accumulator after a middle point, from what the point before left. -/
def sout0_B_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x256 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).1)

theorem cover0_C_1 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) (y : S1x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1.size (by sl_kernel_rfl) y
/-- The output window's buffer after the last point. -/
def out0_C_1 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) : Vec F S1x1 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y
/-- The accumulator after the last point. -/
def sout0_C_0 (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

section Region0
-- the TensorCore's buffer contents when the region is entered: a parameter, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem hc0_of_zero (t : Fin cfg0.N) (h : t.val = 0) : cond0_0 (grid0.coords t) := (hcond0_0 t).mpr h
theorem nhc0_of_pos (t : Fin cfg0.N) (h : t.val ≠ 0) : ¬cond0_0 (grid0.coords t) := fun hc => h ((hcond0_0 t).mp hc)
theorem hc1_of_last (t : Fin cfg0.N) (h : t.val = 63) : cond0_1 (grid0.coords t) := (hcond0_1 t).mpr h
theorem nhc1_of_ne (t : Fin cfg0.N) (h : t.val ≠ 63) : ¬cond0_1 (grid0.coords t) := fun hc => h ((hcond0_1 t).mp hc)

/-- THE ACCUMULATION: what the output window's buffer (a placeholder before the last point, where nothing is stored into it)
    and the accumulator hold after the body at position `n`. -/
def outsAt0 (c : Dev nD) : (n : ℕ) → n < cfg0.N → Vec F S1x1 .f32 × Vec F S1x1 .f32
  | 0, hn => (VO0_1.read (Elt F) VO0_1.junk,
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) (hc0_of_zero ⟨0, hn⟩ rfl) (nhc1_of_ne ⟨0, hn⟩ (show (0 : ℕ) ≠ 63 by decide)) (iblk0 V c 0 ⟨0, hn⟩))
  | n + 1, hn =>
    if h1 : n + 1 = 63 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (hc1_of_last ⟨n + 1, hn⟩ h1) (iblk0 V c 0 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (hc1_of_last ⟨n + 1, hn⟩ h1) (iblk0 V c 0 ⟨n + 1, hn⟩) (outsAt0 c n (Nat.lt_of_succ_lt hn)).2)
    else
      (VO0_1.read (Elt F) VO0_1.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (nhc1_of_ne ⟨n + 1, hn⟩ h1) (iblk0 V c 0 ⟨n + 1, hn⟩) (outsAt0 c n (Nat.lt_of_succ_lt hn)).2)

theorem outsAt0_A (c : Dev nD) (t : Fin cfg0.N) (h0 : t.val = 0) (h1 : t.val ≠ 63) :
    outsAt0 V c t.val t.isLt = (VO0_1.read (Elt F) VO0_1.junk,
      sout0_A_0 c (grid0.coords t) (ms0_0 t) (hs0_0 t) (ms0_1 t) (hs0_1 t) scM0_0 (Memref.isWhole_whole _) (hc0_of_zero t h0) (nhc1_of_ne t h1) (iblk0 V c 0 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 63) :
    outsAt0 V c t.val t.isLt = (VO0_1.read (Elt F) VO0_1.junk,
      sout0_B_0 c (grid0.coords t) (ms0_0 t) (hs0_0 t) (ms0_1 t) (hs0_1 t) scM0_0 (Memref.isWhole_whole _) (nhc0_of_pos t h0) (nhc1_of_ne t h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 63) :
    outsAt0 V c t.val t.isLt = (out0_C_1 c (grid0.coords t) (ms0_0 t) (hs0_0 t) (ms0_1 t) (hs0_1 t) scM0_0 (Memref.isWhole_whole _) (nhc0_of_pos t h0) (hc1_of_last t h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (nhc0_of_pos t h0) (hc1_of_last t h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the region is entered with; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- The proof data of the region on core `c`: the arrays as the region finds them; after the body at point `t` the input's
    buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator at
    what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases h0 : t.val = 0
  · have h1 : t.val ≠ 63 := by omega
    rw [Dat.leavesExact_idle (dat0 V c) 1 t (idleAt0_1 t (nhc1_of_ne t h1)) (noFlush0_1 t (nhc1_of_ne t h1))]
    rw [outsAt0_A V c t h0 h1]
    unfold sout0_A_0; (try dsimp only)
    rw [PhiS_castSucc V c t, PhiS_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ (hc0_of_zero t h0) (nhc1_of_ne t h1) (iblk0 V c 0 t)).2 _ Set.univ _)
    isplitl [H0]; · iexact H0
    isplitl [H1]; · iexact H1
    isplitl [HS0]; · iexact HS0
    iintro ⟨H0, H1, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover0_A_0 c _ _ _ _ _ _ _ _ _ _)
        iexact Hr
      iexact Hg
    isplitl [Ho]; · iexact Ho
    isplitl [H0]; · iexact H0
    iexists _; iexact H1
  · by_cases h1 : t.val = 63
    · rw [show (dat0 V c).leavesExact 1 t = owns (c : Thread nD τ) (ms0_1 t) fullShare ((dat0 V c).after 1 t) from by
        unfold Dat.leavesExact; rw [liveAt0_1 t (hc1_of_last t h1)], after0_1]
      rw [outsAt0_C V c t h0 h1]
      unfold out0_C_1 sout0_C_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_C c (grid0.coords t) _ _ _ _ _ _ (nhc0_of_pos t h0) (hc1_of_last t h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (nhc1_of_ne t h1)) (noFlush0_1 t (nhc1_of_ne t h1))]
      rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (nhc0_of_pos t h0) (nhc1_of_ne t h1) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.KernelIdeal.Hand

end
-- ==== Proof.IRegion1Runs.lean ====
/-
  The second kernel region (the loss pass) at any float instance: where each of the body's six conditionals holds on the
  8 × 8 grid, and the body's run in each of the six control cases the grid meets, with the pieces each run stores into
  the four carried one-word accumulators and into the output window.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: where the body's six conditionals hold -/

/-- The first conditional of the body: the point is the grid's first, (0, 0). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: both coordinates are below 4. -/
abbrev cond1_1 (i : grid1.Coords) : Prop :=
  (Scalar.cmpi .ne (Scalar.extui (Scalar.andi (Scalar.cmpi .slt (BitVec.ofNat 32 (i 0).val) 4#32) (Scalar.cmpi .slt (BitVec.ofNat 32 (i 1).val) 4#32))) 0#32) = 1#1
/-- The third: the first coordinate is below 4, the second is not. -/
abbrev cond1_2 (i : grid1.Coords) : Prop :=
  (Scalar.cmpi .ne (Scalar.extui (Scalar.andi (Scalar.cmpi .slt (BitVec.ofNat 32 (i 0).val) 4#32) (Scalar.xori (Scalar.cmpi .slt (BitVec.ofNat 32 (i 1).val) 4#32) 1#1))) 0#32) = 1#1
/-- The fourth: the first coordinate is not below 4, the second is. -/
abbrev cond1_3 (i : grid1.Coords) : Prop :=
  (Scalar.cmpi .ne (Scalar.extui (Scalar.andi (Scalar.xori (Scalar.cmpi .slt (BitVec.ofNat 32 (i 0).val) 4#32) 1#1) (Scalar.cmpi .slt (BitVec.ofNat 32 (i 1).val) 4#32))) 0#32) = 1#1
/-- The fifth: neither coordinate is below 4. -/
abbrev cond1_4 (i : grid1.Coords) : Prop :=
  (Scalar.cmpi .ne (Scalar.extui (Scalar.andi (Scalar.xori (Scalar.cmpi .slt (BitVec.ofNat 32 (i 0).val) 4#32) 1#1) (Scalar.xori (Scalar.cmpi .slt (BitVec.ofNat 32 (i 1).val) 4#32) 1#1))) 0#32) = 1#1
/-- The sixth: the point is the grid's last, (7, 7). -/
abbrev cond1_5 (i : grid1.Coords) : Prop := k1_cond6 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ (t.val / 8 < 4 ∧ t.val % 8 < 4) :=
  (by decide +kernel : ∀ t : Fin grid1.N, cond1_1 (grid1.coords t) ↔ (t.val / 8 < 4 ∧ t.val % 8 < 4))
theorem hcond1_2 : ∀ t : Fin cfg1.N, cond1_2 (grid1.coords t) ↔ (t.val / 8 < 4 ∧ ¬ t.val % 8 < 4) :=
  (by decide +kernel : ∀ t : Fin grid1.N, cond1_2 (grid1.coords t) ↔ (t.val / 8 < 4 ∧ ¬ t.val % 8 < 4))
theorem hcond1_3 : ∀ t : Fin cfg1.N, cond1_3 (grid1.coords t) ↔ (¬ t.val / 8 < 4 ∧ t.val % 8 < 4) :=
  (by decide +kernel : ∀ t : Fin grid1.N, cond1_3 (grid1.coords t) ↔ (¬ t.val / 8 < 4 ∧ t.val % 8 < 4))
theorem hcond1_4 : ∀ t : Fin cfg1.N, cond1_4 (grid1.coords t) ↔ (¬ t.val / 8 < 4 ∧ ¬ t.val % 8 < 4) :=
  (by decide +kernel : ∀ t : Fin grid1.N, cond1_4 (grid1.coords t) ↔ (¬ t.val / 8 < 4 ∧ ¬ t.val % 8 < 4))
theorem hcond1_5 : ∀ t : Fin cfg1.N, cond1_5 (grid1.coords t) ↔ t.val = 63 :=
  (by decide +kernel : ∀ t : Fin grid1.N, cond1_5 (grid1.coords t) ↔ t.val = 63)

/-! ## The body's run, case by case -/

set_option maxHeartbeats 8000000 in
/-- At the first point the body zeroes the four accumulators, then adds the tile's sum to the first; the output window is left alone. -/
noncomputable def kernelRun1_A (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i)
    (x0 : Vec F S8192x256 .f32) (x1 : Vec F S1x1 .f32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, ?_, ?_, ?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, HS0⟩, ⟨%d4, %f4, -, HS1⟩, ⟨%d5, %f5, -, HS2⟩, ⟨%d6, %f6, -, HS3⟩, Hk⟩
    obtain rfl := harg2.eq_unread hf0; obtain rfl := harg3.eq_unread hf1; obtain rfl := harg4.eq_unread hf2
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; iexact HS3

set_option maxHeartbeats 8000000 in
/-- At a later point of the first quadrant the body adds the tile's sum to the first accumulator and stores nothing else. -/
noncomputable def kernelRun1_Bxx (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i)
    (x0 : Vec F S8192x256 .f32) (x1 : Vec F S1x1 .f32) (xs0 xs1 xs2 xs3 : Vec F S1x1 .f32) :
    { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ owns (c : Thread nD τ) arg6 fullShare xs1 ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]
    · iexists _; isplitr; · ipureintro; exact harg6.read_unread _
      iexact HS1
    isplitl [HS2]
    · iexists _; isplitr; · ipureintro; exact harg7.read_unread _
      iexact HS2
    iexists _; isplitr; · ipureintro; exact harg8.read_unread _
    iexact HS3

set_option maxHeartbeats 8000000 in
/-- At a point of the quadrant of low rows and high columns the body adds the tile's sum to the third accumulator and stores nothing else. -/
noncomputable def kernelRun1_Bxy (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i)
    (x0 : Vec F S8192x256 .f32) (x1 : Vec F S1x1 .f32) (xs0 xs1 xs2 xs3 : Vec F S1x1 .f32) :
    { LS2 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    isplitl [HS2]; · iexists _; iexact HS2
    iexists _; isplitr; · ipureintro; exact harg8.read_unread _
    iexact HS3

set_option maxHeartbeats 8000000 in
/-- At a point of the quadrant of high rows and low columns the body adds the tile's sum to the fourth accumulator and stores nothing else. -/
noncomputable def kernelRun1_Byx (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i)
    (x0 : Vec F S8192x256 .f32) (x1 : Vec F S1x1 .f32) (xs0 xs1 xs2 xs3 : Vec F S1x1 .f32) :
    { LS3 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ (∃ f, arg8.view.loc (c : Thread nD τ) ↦[arg8.view.set]{fullShare} arg8.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]
    · iexists _; isplitr; · ipureintro; exact harg6.read_unread _
      iexact HS1
    isplitl [HS2]
    · iexists _; isplitr; · ipureintro; exact harg7.read_unread _
      iexact HS2
    iexists _; iexact HS3

set_option maxHeartbeats 8000000 in
/-- At a point of the last quadrant other than the last point the body adds the tile's sum to the second accumulator and stores nothing else. -/
noncomputable def kernelRun1_Byy (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i)
    (x0 : Vec F S8192x256 .f32) (x1 : Vec F S1x1 .f32) (xs0 xs1 xs2 xs3 : Vec F S1x1 .f32) :
    { LS1 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, fun xi2 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; isplitr; · ipureintro; exact harg8.read_unread _
    iexact HS3

set_option maxHeartbeats 8000000 in
/-- At the last point the body adds the tile's sum to the second accumulator and stores the combination of the four, scaled, into the output window. -/
noncomputable def kernelRun1_C (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i)
    (x0 : Vec F S8192x256 .f32) (x1 : Vec F S1x1 .f32) (xs0 xs1 xs2 xs3 : Vec F S1x1 .f32) :
    Σ' (L2 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ owns (c : Thread nD τ) arg8 fullShare xs3) -∗ K ⟨⟩))
          ⊢ wp frame (wpE (defs₀ (F := F)) Variants.none c none) E (cc1__loss_kernel i arg2 harg2 arg3 harg3 arg4 harg4 arg5 harg5 arg6 harg6 arg7 harg7 arg8 harg8) K } := by
  refine ⟨?_, ?_, fun E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%d2, %f2, -, H2⟩, ⟨%f3, %hf3, HS0⟩, ⟨%f4, %hf4, HS1⟩, ⟨%f5, %hf5, HS2⟩, ⟨%f6, %hf6, HS3⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6
    sl_exec (disch := first | exact hc0 | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; isplitr; · ipureintro; exact harg8.read_unread _
    iexact HS3

end Cert.KernelIdeal.Hand

end
-- ==== Proof.IRegion1.lean ====
/-
  The second kernel region (the loss pass) at any float instance: what the four carried one-word accumulators and the
  output window hold after each of the 64 grid points, from the body's run in each of its six control cases; the region's
  invariant, its proof data and the body obligation.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import proofs.«121879_j18313740550844_2_alg».proof.Proof.IRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The six control cases of the grid -/

theorem hcase1_A : ∀ t : Fin cfg1.N, t.val = 0 → (cond1_0 (grid1.coords t) ∧ cond1_1 (grid1.coords t) ∧ ¬cond1_2 (grid1.coords t) ∧ ¬cond1_3 (grid1.coords t) ∧ ¬cond1_4 (grid1.coords t) ∧ ¬cond1_5 (grid1.coords t)) :=
  (by decide +kernel : ∀ t : Fin grid1.N, t.val = 0 → (cond1_0 (grid1.coords t) ∧ cond1_1 (grid1.coords t) ∧ ¬cond1_2 (grid1.coords t) ∧ ¬cond1_3 (grid1.coords t) ∧ ¬cond1_4 (grid1.coords t) ∧ ¬cond1_5 (grid1.coords t)))
theorem hcase1_Bxx : ∀ t : Fin cfg1.N, t.val ≠ 0 ∧ t.val / 8 < 4 ∧ t.val % 8 < 4 → (¬cond1_0 (grid1.coords t) ∧ cond1_1 (grid1.coords t) ∧ ¬cond1_2 (grid1.coords t) ∧ ¬cond1_3 (grid1.coords t) ∧ ¬cond1_4 (grid1.coords t) ∧ ¬cond1_5 (grid1.coords t)) :=
  (by decide +kernel : ∀ t : Fin grid1.N, t.val ≠ 0 ∧ t.val / 8 < 4 ∧ t.val % 8 < 4 → (¬cond1_0 (grid1.coords t) ∧ cond1_1 (grid1.coords t) ∧ ¬cond1_2 (grid1.coords t) ∧ ¬cond1_3 (grid1.coords t) ∧ ¬cond1_4 (grid1.coords t) ∧ ¬cond1_5 (grid1.coords t)))
theorem hcase1_Bxy : ∀ t : Fin cfg1.N, t.val / 8 < 4 ∧ ¬ t.val % 8 < 4 → (¬cond1_0 (grid1.coords t) ∧ ¬cond1_1 (grid1.coords t) ∧ cond1_2 (grid1.coords t) ∧ ¬cond1_3 (grid1.coords t) ∧ ¬cond1_4 (grid1.coords t) ∧ ¬cond1_5 (grid1.coords t)) :=
  (by decide +kernel : ∀ t : Fin grid1.N, t.val / 8 < 4 ∧ ¬ t.val % 8 < 4 → (¬cond1_0 (grid1.coords t) ∧ ¬cond1_1 (grid1.coords t) ∧ cond1_2 (grid1.coords t) ∧ ¬cond1_3 (grid1.coords t) ∧ ¬cond1_4 (grid1.coords t) ∧ ¬cond1_5 (grid1.coords t)))
theorem hcase1_Byx : ∀ t : Fin cfg1.N, ¬ t.val / 8 < 4 ∧ t.val % 8 < 4 → (¬cond1_0 (grid1.coords t) ∧ ¬cond1_1 (grid1.coords t) ∧ ¬cond1_2 (grid1.coords t) ∧ cond1_3 (grid1.coords t) ∧ ¬cond1_4 (grid1.coords t) ∧ ¬cond1_5 (grid1.coords t)) :=
  (by decide +kernel : ∀ t : Fin grid1.N, ¬ t.val / 8 < 4 ∧ t.val % 8 < 4 → (¬cond1_0 (grid1.coords t) ∧ ¬cond1_1 (grid1.coords t) ∧ ¬cond1_2 (grid1.coords t) ∧ cond1_3 (grid1.coords t) ∧ ¬cond1_4 (grid1.coords t) ∧ ¬cond1_5 (grid1.coords t)))
theorem hcase1_Byy : ∀ t : Fin cfg1.N, t.val ≠ 63 ∧ ¬ t.val / 8 < 4 ∧ ¬ t.val % 8 < 4 → (¬cond1_0 (grid1.coords t) ∧ ¬cond1_1 (grid1.coords t) ∧ ¬cond1_2 (grid1.coords t) ∧ ¬cond1_3 (grid1.coords t) ∧ cond1_4 (grid1.coords t) ∧ ¬cond1_5 (grid1.coords t)) :=
  (by decide +kernel : ∀ t : Fin grid1.N, t.val ≠ 63 ∧ ¬ t.val / 8 < 4 ∧ ¬ t.val % 8 < 4 → (¬cond1_0 (grid1.coords t) ∧ ¬cond1_1 (grid1.coords t) ∧ ¬cond1_2 (grid1.coords t) ∧ ¬cond1_3 (grid1.coords t) ∧ cond1_4 (grid1.coords t) ∧ ¬cond1_5 (grid1.coords t)))
theorem hcase1_C : ∀ t : Fin cfg1.N, t.val = 63 → (¬cond1_0 (grid1.coords t) ∧ ¬cond1_1 (grid1.coords t) ∧ ¬cond1_2 (grid1.coords t) ∧ ¬cond1_3 (grid1.coords t) ∧ cond1_4 (grid1.coords t) ∧ cond1_5 (grid1.coords t)) :=
  (by decide +kernel : ∀ t : Fin grid1.N, t.val = 63 → (¬cond1_0 (grid1.coords t) ∧ ¬cond1_1 (grid1.coords t) ∧ ¬cond1_2 (grid1.coords t) ∧ ¬cond1_3 (grid1.coords t) ∧ cond1_4 (grid1.coords t) ∧ cond1_5 (grid1.coords t)))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_5 (grid1.coords t) → cfg1.idle 2 (grid1.coords t) = true := by decide +kernel
theorem noFlush1_2 : ∀ t : Fin cfg1.N, ¬cond1_5 (grid1.coords t) → (cfg1.win 2).flush t = false := by decide +kernel
theorem liveAt1_2 : ∀ t : Fin cfg1.N, cond1_5 (grid1.coords t) → cfg1.idle 2 (grid1.coords t) = false := by decide +kernel

/-! ## The memrefs the body is called with -/

abbrev VO1_2 : View sig .tc .vmem S1x1 .f32 := (Memref.whole cc1_stg2_0 : Memref sig .tc .vmem S1x1 .f32).view
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The four accumulators: scoped buffers of one word each, carried from point to point. -/
abbrev scM1_0 : Memref sig .tc .vmem S1x1 .f32 := Memref.whole cc1_scratch0
abbrev scM1_1 : Memref sig .tc .vmem S1x1 .f32 := Memref.whole cc1_scratch1
abbrev scM1_2 : Memref sig .tc .vmem S1x1 .f32 := Memref.whole cc1_scratch2
abbrev scM1_3 : Memref sig .tc .vmem S1x1 .f32 := Memref.whole cc1_scratch3
abbrev VS1_0 : View sig .tc .vmem S1x1 .f32 := scM1_0.view
abbrev VS1_1 : View sig .tc .vmem S1x1 .f32 := scM1_1.view
abbrev VS1_2 : View sig .tc .vmem S1x1 .f32 := scM1_2.view
abbrev VS1_3 : View sig .tc .vmem S1x1 .f32 := scM1_3.view

/-- What the region is entered with beside its windows: the scoped buffers that are neither a staging buffer of this
    region nor an accumulator, each at some contents; the four accumulators at anything; the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-- The same with the four accumulators at named contents `o.2`. -/
def held1 (c : Dev nD) (o : Vec F S1x1 .f32 × Vec F S1x1 .f32 × Vec F S1x1 .f32 × Vec F S1x1 .f32 × Vec F S1x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare o.2.1 ∗ owns (c : Thread nD τ) scM1_1 fullShare o.2.2.1 ∗ owns (c : Thread nD τ) scM1_2 fullShare o.2.2.2.1 ∗ owns (c : Thread nD τ) scM1_3 fullShare o.2.2.2.2) ∗ (∃ r, prngReg c r))

/-! ## What each case leaves -/

theorem scover1_A_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).1 S1x1.size (by sl_kernel_rfl) y
/-- The first accumulator after the first point. -/
def sout1_A_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 hc0 hc1 hc2 hc3 hc4 hc5 x0 x1).1)
theorem scover1_A_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.1 S1x1.size (by sl_kernel_rfl) y
/-- The second accumulator after the first point. -/
def sout1_A_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_1.read (Elt F) (VS1_1.writes (Elt F) VS1_1.junk (kernelRun1_A c i arg2 harg2 arg3 harg3 arg4 harg4 arg5 harg5 arg6 harg6 arg7 harg7 arg8 harg8 hc0 hc1 hc2 hc3 hc4 hc5 x0 x1).2.1)
theorem scover1_A_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.2.1 S1x1.size (by sl_kernel_rfl) y
/-- The third accumulator after the first point. -/
def sout1_A_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_2.read (Elt F) (VS1_2.writes (Elt F) VS1_2.junk (kernelRun1_A c i arg2 harg2 arg3 harg3 arg4 harg4 arg5 harg5 arg6 harg6 arg7 harg7 arg8 harg8 hc0 hc1 hc2 hc3 hc4 hc5 x0 x1).2.2.1)
theorem scover1_A_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (y : S1x1.Idx) :
    ∃ pc ∈ (kernelRun1_A c i arg2 harg2 arg3 harg3 arg4 harg4 arg5 harg5 arg6 harg6 arg7 harg7 arg8 harg8 hc0 hc1 hc2 hc3 hc4 hc5 x0 x1).2.2.2.1, y ∈ pc.1.set :=
  View.cover_of_tiledL (kernelRun1_A c i arg2 harg2 arg3 harg3 arg4 harg4 arg5 harg5 arg6 harg6 arg7 harg7 arg8 harg8 hc0 hc1 hc2 hc3 hc4 hc5 x0 x1).2.2.2.1 S1x1.size (by sl_kernel_rfl) y
/-- The fourth accumulator after the first point. -/
def sout1_A_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) : Vec F S1x1 .f32 :=
  VS1_3.read (Elt F) (VS1_3.writes (Elt F) VS1_3.junk (kernelRun1_A c i arg2 harg2 arg3 harg3 arg4 harg4 arg5 harg5 arg6 harg6 arg7 harg7 arg8 harg8 hc0 hc1 hc2 hc3 hc4 hc5 x0 x1).2.2.2.1)

theorem scover1_Bxx_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Bxx c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Bxx c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The first accumulator after a later point of the first quadrant. -/
def sout1_Bxx_0 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_0.read (Elt F) (VS1_0.writes (Elt F) VS1_0.junk (kernelRun1_Bxx c i arg2 harg2 arg3 harg3 arg4 harg4 arg5 harg5 arg6 harg6 arg7 harg7 arg8 harg8 hc0 hc1 hc2 hc3 hc4 hc5 x0 x1 xs0 xs1 xs2 xs3).1)

theorem scover1_Bxy_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Bxy c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Bxy c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The third accumulator after a point of low rows and high columns. -/
def sout1_Bxy_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_2.read (Elt F) (VS1_2.writes (Elt F) VS1_2.junk (kernelRun1_Bxy c i arg2 harg2 arg3 harg3 arg4 harg4 arg5 harg5 arg6 harg6 arg7 harg7 arg8 harg8 hc0 hc1 hc2 hc3 hc4 hc5 x0 x1 xs0 xs1 xs2 xs3).1)

theorem scover1_Byx_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Byx c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Byx c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The fourth accumulator after a point of high rows and low columns. -/
def sout1_Byx_3 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i) (x0 : Vec F S8192x256 .f32) (x1 : Vec F S1x1 .f32) (xs0 xs1 xs2 xs3 : Vec F S1x1 .f32) : Vec F S1x1 .f32 :=
  VS1_3.read (Elt F) (VS1_3.writes (Elt F) VS1_3.junk (kernelRun1_Byx c i arg2 harg2 arg3 harg3 arg4 harg4 arg5 harg5 arg6 harg6 arg7 harg7 arg8 harg8 hc0 hc1 hc2 hc3 hc4 hc5 x0 x1 xs0 xs1 xs2 xs3).1)

theorem scover1_Byy_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i) (x0 : Vec F S8192x256 .f32) (x1 : Vec F S1x1 .f32) (xs0 xs1 xs2 xs3 : Vec F S1x1 .f32) (y : S1x1.Idx) :
    ∃ pc ∈ (kernelRun1_Byy c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_Byy c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The second accumulator after a point of the last quadrant before the last. -/
def sout1_Byy_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i) (x0 : Vec F S8192x256 .f32) (x1 : Vec F S1x1 .f32) (xs0 xs1 xs2 xs3 : Vec F S1x1 .f32) : Vec F S1x1 .f32 :=
  VS1_1.read (Elt F) (VS1_1.writes (Elt F) VS1_1.junk (kernelRun1_Byy c i arg2 harg2 arg3 harg3 arg4 harg4 arg5 harg5 arg6 harg6 arg7 harg7 arg8 harg8 hc0 hc1 hc2 hc3 hc4 hc5 x0 x1 xs0 xs1 xs2 xs3).1)

theorem cover1_C_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) (y : S1x1.Idx) :
    ∃ pc ∈ (kernelRun1_C c i arg2 harg2 arg3 harg3 arg4 harg4 arg5 harg5 arg6 harg6 arg7 harg7 arg8 harg8 hc0 hc1 hc2 hc3 hc4 hc5 x0 x1 xs0 xs1 xs2 xs3).1, y ∈ pc.1.set :=
  View.cover_of_tiledL (kernelRun1_C c i arg2 harg2 arg3 harg3 arg4 harg4 arg5 harg5 arg6 harg6 arg7 harg7 arg8 harg8 hc0 hc1 hc2 hc3 hc4 hc5 x0 x1 xs0 xs1 xs2 xs3).1 S1x1.size (by sl_kernel_rfl) y
/-- The output window's buffer after the last point. -/
def out1_C_2 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) : Vec F S1x1 .f32 :=
  VO1_2.read (Elt F) (VO1_2.writes (Elt F) VO1_2.junk (kernelRun1_C c i arg2 harg2 arg3 harg3 arg4 harg4 arg5 harg5 arg6 harg6 arg7 harg7 arg8 harg8 hc0 hc1 hc2 hc3 hc4 hc5 x0 x1 xs0 xs1 xs2 xs3).1)
theorem scover1_C_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) (y : S1x1.Idx) :
    ∃ pc ∈ (kernelRun1_C c i arg2 harg2 arg3 harg3 arg4 harg4 arg5 harg5 arg6 harg6 arg7 harg7 arg8 harg8 hc0 hc1 hc2 hc3 hc4 hc5 x0 x1 xs0 xs1 xs2 xs3).2.1, y ∈ pc.1.set :=
  View.cover_of_tiledL (kernelRun1_C c i arg2 harg2 arg3 harg3 arg4 harg4 arg5 harg5 arg6 harg6 arg7 harg7 arg8 harg8 hc0 hc1 hc2 hc3 hc4 hc5 x0 x1 xs0 xs1 xs2 xs3).2.1 S1x1.size (by sl_kernel_rfl) y
/-- The second accumulator after the last point. -/
def sout1_C_1 (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 hc0 hc1 hc2 hc3 hc4 hc5 x0 x1 xs0 xs1 xs2 xs3).2.1)

section Region1
-- the TensorCore's buffer contents when the region is entered: a parameter, instantiated by the run
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- So does the second's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output window's buffer (a placeholder before the last point, where nothing is stored into it)
    and the four accumulators hold after the body at position `n`; an accumulator the body does not store into at `n`
    keeps what it held after `n - 1`. -/
def outsAt1 (c : Dev nD) : (n : ℕ) → n < cfg1.N → Vec F S1x1 .f32 × Vec F S1x1 .f32 × Vec F S1x1 .f32 × Vec F S1x1 .f32 × Vec F S1x1 .f32
  | 0, hn => (VO1_2.read (Elt F) VO1_2.junk,
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩),
        sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) scM1_2 (Memref.isWhole_whole _) scM1_3 (Memref.isWhole_whole _) ((hcase1_A ⟨0, hn⟩ rfl).1) ((hcase1_A ⟨0, hn⟩ rfl).2.1) ((hcase1_A ⟨0, hn⟩ rfl).2.2.1) ((hcase1_A ⟨0, hn⟩ rfl).2.2.2.1) ((hcase1_A ⟨0, hn⟩ rfl).2.2.2.2.1) ((hcase1_A ⟨0, hn⟩ rfl).2.2.2.2.2) (iblk1 V c 0 ⟨0, hn⟩) (iblk1 V c 1 ⟨0, hn⟩))
  | n + 1, hn =>
    if hC : n + 1 = 63 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_C ⟨n + 1, hn⟩ hC).1) ((hcase1_C ⟨n + 1, hn⟩ hC).2.1) ((hcase1_C ⟨n + 1, hn⟩ hC).2.2.1) ((hcase1_C ⟨n + 1, hn⟩ hC).2.2.2.1) ((hcase1_C ⟨n + 1, hn⟩ hC).2.2.2.2.1) ((hcase1_C ⟨n + 1, hn⟩ hC).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.1,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_C ⟨n + 1, hn⟩ hC).1) ((hcase1_C ⟨n + 1, hn⟩ hC).2.1) ((hcase1_C ⟨n + 1, hn⟩ hC).2.2.1) ((hcase1_C ⟨n + 1, hn⟩ hC).2.2.2.1) ((hcase1_C ⟨n + 1, hn⟩ hC).2.2.2.2.1) ((hcase1_C ⟨n + 1, hn⟩ hC).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.1,
        (outsAt1 c n (Nat.lt_of_succ_lt hn)).2.2.2.2)
    else if hxx : (n + 1) / 8 < 4 ∧ (n + 1) % 8 < 4 then
      (VO1_2.read (Elt F) VO1_2.junk,
        sout1_Bxx_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Bxx ⟨n + 1, hn⟩ ⟨Nat.succ_ne_zero n, hxx.1, hxx.2⟩).1) ((hcase1_Bxx ⟨n + 1, hn⟩ ⟨Nat.succ_ne_zero n, hxx.1, hxx.2⟩).2.1) ((hcase1_Bxx ⟨n + 1, hn⟩ ⟨Nat.succ_ne_zero n, hxx.1, hxx.2⟩).2.2.1) ((hcase1_Bxx ⟨n + 1, hn⟩ ⟨Nat.succ_ne_zero n, hxx.1, hxx.2⟩).2.2.2.1) ((hcase1_Bxx ⟨n + 1, hn⟩ ⟨Nat.succ_ne_zero n, hxx.1, hxx.2⟩).2.2.2.2.1) ((hcase1_Bxx ⟨n + 1, hn⟩ ⟨Nat.succ_ne_zero n, hxx.1, hxx.2⟩).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.1,
        (outsAt1 c n (Nat.lt_of_succ_lt hn)).2.2.2.1,
        (outsAt1 c n (Nat.lt_of_succ_lt hn)).2.2.2.2)
    else if hxy : (n + 1) / 8 < 4 ∧ ¬ (n + 1) % 8 < 4 then
      (VO1_2.read (Elt F) VO1_2.junk,
        (outsAt1 c n (Nat.lt_of_succ_lt hn)).2.1,
        (outsAt1 c n (Nat.lt_of_succ_lt hn)).2.2.1,
        sout1_Bxy_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Bxy ⟨n + 1, hn⟩ hxy).1) ((hcase1_Bxy ⟨n + 1, hn⟩ hxy).2.1) ((hcase1_Bxy ⟨n + 1, hn⟩ hxy).2.2.1) ((hcase1_Bxy ⟨n + 1, hn⟩ hxy).2.2.2.1) ((hcase1_Bxy ⟨n + 1, hn⟩ hxy).2.2.2.2.1) ((hcase1_Bxy ⟨n + 1, hn⟩ hxy).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.2)
    else if hyx : ¬ (n + 1) / 8 < 4 ∧ (n + 1) % 8 < 4 then
      (VO1_2.read (Elt F) VO1_2.junk,
        (outsAt1 c n (Nat.lt_of_succ_lt hn)).2.1,
        (outsAt1 c n (Nat.lt_of_succ_lt hn)).2.2.1,
        (outsAt1 c n (Nat.lt_of_succ_lt hn)).2.2.2.1,
        sout1_Byx_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Byx ⟨n + 1, hn⟩ hyx).1) ((hcase1_Byx ⟨n + 1, hn⟩ hyx).2.1) ((hcase1_Byx ⟨n + 1, hn⟩ hyx).2.2.1) ((hcase1_Byx ⟨n + 1, hn⟩ hyx).2.2.2.1) ((hcase1_Byx ⟨n + 1, hn⟩ hyx).2.2.2.2.1) ((hcase1_Byx ⟨n + 1, hn⟩ hyx).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2))
    else
      (VO1_2.read (Elt F) VO1_2.junk,
        (outsAt1 c n (Nat.lt_of_succ_lt hn)).2.1,
        sout1_Byy_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) scM1_2 (Memref.isWhole_whole _) scM1_3 (Memref.isWhole_whole _) ((hcase1_Byy ⟨n + 1, hn⟩ (show (n + 1) ≠ 63 ∧ ¬ (n + 1) / 8 < 4 ∧ ¬ (n + 1) % 8 < 4 from ⟨hC, by omega, by omega⟩)).1) ((hcase1_Byy ⟨n + 1, hn⟩ (show (n + 1) ≠ 63 ∧ ¬ (n + 1) / 8 < 4 ∧ ¬ (n + 1) % 8 < 4 from ⟨hC, by omega, by omega⟩)).2.1) ((hcase1_Byy ⟨n + 1, hn⟩ (show (n + 1) ≠ 63 ∧ ¬ (n + 1) / 8 < 4 ∧ ¬ (n + 1) % 8 < 4 from ⟨hC, by omega, by omega⟩)).2.2.1) ((hcase1_Byy ⟨n + 1, hn⟩ (show (n + 1) ≠ 63 ∧ ¬ (n + 1) / 8 < 4 ∧ ¬ (n + 1) % 8 < 4 from ⟨hC, by omega, by omega⟩)).2.2.2.1) ((hcase1_Byy ⟨n + 1, hn⟩ (show (n + 1) ≠ 63 ∧ ¬ (n + 1) / 8 < 4 ∧ ¬ (n + 1) % 8 < 4 from ⟨hC, by omega, by omega⟩)).2.2.2.2.1) ((hcase1_Byy ⟨n + 1, hn⟩ (show (n + 1) ≠ 63 ∧ ¬ (n + 1) / 8 < 4 ∧ ¬ (n + 1) % 8 < 4 from ⟨hC, by omega, by omega⟩)).2.2.2.2.2) (iblk1 V c 0 ⟨n + 1, hn⟩) (iblk1 V c 1 ⟨n + 1, hn⟩) ((outsAt1 c n (Nat.lt_of_succ_lt hn)).2.1) ((outsAt1 c n (Nat.lt_of_succ_lt hn)).2.2.1) ((outsAt1 c n (Nat.lt_of_succ_lt hn)).2.2.2.1) ((outsAt1 c n (Nat.lt_of_succ_lt hn)).2.2.2.2),
        (outsAt1 c n (Nat.lt_of_succ_lt hn)).2.2.2.1,
        (outsAt1 c n (Nat.lt_of_succ_lt hn)).2.2.2.2)

theorem outsAt1_A (c : Dev nD) (t : Fin cfg1.N) (h : t.val = 0) :
    outsAt1 V c t.val t.isLt = (VO1_2.read (Elt F) VO1_2.junk,
        sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t),
        sout1_A_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_A t h).1) ((hcase1_A t h).2.1) ((hcase1_A t h).2.2.1) ((hcase1_A t h).2.2.2.1) ((hcase1_A t h).2.2.2.2.1) ((hcase1_A t h).2.2.2.2.2) (iblk1 V c 0 t) (iblk1 V c 1 t)) := by
  obtain ⟨n, hn⟩ := t
  cases n with
  | zero => exact rfl
  | succ n => exact absurd h (Nat.succ_ne_zero n)

theorem outsAt1_Bxx (c : Dev nD) (t : Fin cfg1.N) (h : t.val ≠ 0 ∧ t.val / 8 < 4 ∧ t.val % 8 < 4) :
    outsAt1 V c t.val t.isLt = (VO1_2.read (Elt F) VO1_2.junk,
        sout1_Bxx_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Bxx t h).1) ((hcase1_Bxx t h).2.1) ((hcase1_Bxx t h).2.2.1) ((hcase1_Bxx t h).2.2.2.1) ((hcase1_Bxx t h).2.2.2.2.1) ((hcase1_Bxx t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.1,
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 ≠ 0 ∧ 0 / 8 < 4 ∧ 0 % 8 < 4 := h
    exact absurd h' (by omega)
  | succ n =>
    have h' : (n + 1) ≠ 0 ∧ (n + 1) / 8 < 4 ∧ (n + 1) % 8 < 4 := h
    exact (dif_neg (by omega)).trans ((dif_pos ⟨h'.2.1, h'.2.2⟩).trans rfl)

theorem outsAt1_Bxy (c : Dev nD) (t : Fin cfg1.N) (h : t.val / 8 < 4 ∧ ¬ t.val % 8 < 4) :
    outsAt1 V c t.val t.isLt = (VO1_2.read (Elt F) VO1_2.junk,
        (outsAt1 V c (t.val - 1) (Nat.lt_of_le_of_lt (Nat.sub_le _ _) t.isLt)).2.1,
        (outsAt1 V c (t.val - 1) (Nat.lt_of_le_of_lt (Nat.sub_le _ _) t.isLt)).2.2.1,
        sout1_Bxy_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Bxy t h).1) ((hcase1_Bxy t h).2.1) ((hcase1_Bxy t h).2.2.1) ((hcase1_Bxy t h).2.2.2.1) ((hcase1_Bxy t h).2.2.2.2.1) ((hcase1_Bxy t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.2) := by
  obtain ⟨n, hn⟩ := t
  cases n with
  | zero =>
    have h' : 0 / 8 < 4 ∧ ¬ 0 % 8 < 4 := h
    exact absurd h' (by omega)
  | succ n =>
    have h' : (n + 1) / 8 < 4 ∧ ¬ (n + 1) % 8 < 4 := h
    exact (dif_neg (by omega)).trans ((dif_neg (by omega)).trans ((dif_pos h').trans rfl))

theorem outsAt1_Byx (c : Dev nD) (t : Fin cfg1.N) (h : ¬ t.val / 8 < 4 ∧ t.val % 8 < 4) :
    outsAt1 V c t.val t.isLt = (VO1_2.read (Elt F) VO1_2.junk,
        (outsAt1 V c (t.val - 1) (Nat.lt_of_le_of_lt (Nat.sub_le _ _) t.isLt)).2.1,
        (outsAt1 V c (t.val - 1) (Nat.lt_of_le_of_lt (Nat.sub_le _ _) t.isLt)).2.2.1,
        (outsAt1 V c (t.val - 1) (Nat.lt_of_le_of_lt (Nat.sub_le _ _) t.isLt)).2.2.2.1,
        sout1_Byx_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Byx t h).1) ((hcase1_Byx t h).2.1) ((hcase1_Byx t h).2.2.1) ((hcase1_Byx t h).2.2.2.1) ((hcase1_Byx t h).2.2.2.2.1) ((hcase1_Byx t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2)) := by
  obtain ⟨n, hn⟩ := t
  cases n with
  | zero =>
    have h' : ¬ 0 / 8 < 4 ∧ 0 % 8 < 4 := h
    exact absurd h' (by omega)
  | succ n =>
    have h' : ¬ (n + 1) / 8 < 4 ∧ (n + 1) % 8 < 4 := h
    exact (dif_neg (by omega)).trans ((dif_neg (by omega)).trans ((dif_neg (by omega)).trans ((dif_pos h').trans rfl)))

theorem outsAt1_Byy (c : Dev nD) (t : Fin cfg1.N) (h : t.val ≠ 63 ∧ ¬ t.val / 8 < 4 ∧ ¬ t.val % 8 < 4) :
    outsAt1 V c t.val t.isLt = (VO1_2.read (Elt F) VO1_2.junk,
        (outsAt1 V c (t.val - 1) (Nat.lt_of_le_of_lt (Nat.sub_le _ _) t.isLt)).2.1,
        sout1_Byy_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_Byy t h).1) ((hcase1_Byy t h).2.1) ((hcase1_Byy t h).2.2.1) ((hcase1_Byy t h).2.2.2.1) ((hcase1_Byy t h).2.2.2.2.1) ((hcase1_Byy t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 ≠ 63 ∧ ¬ 0 / 8 < 4 ∧ ¬ 0 % 8 < 4 := h
    exact absurd h' (by omega)
  | succ n =>
    have h' : (n + 1) ≠ 63 ∧ ¬ (n + 1) / 8 < 4 ∧ ¬ (n + 1) % 8 < 4 := h
    exact (dif_neg (by omega)).trans ((dif_neg (by omega)).trans ((dif_neg (by omega)).trans ((dif_neg (by omega)).trans rfl)))

theorem outsAt1_C (c : Dev nD) (t : Fin cfg1.N) (h : t.val = 63) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_C t h).1) ((hcase1_C t h).2.1) ((hcase1_C t h).2.2.1) ((hcase1_C t h).2.2.2.1) ((hcase1_C t h).2.2.2.2.1) ((hcase1_C t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.1,
        sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcase1_C t h).1) ((hcase1_C t h).2.1) ((hcase1_C t h).2.2.1) ((hcase1_C t h).2.2.2.1) ((hcase1_C t h).2.2.2.2.1) ((hcase1_C t h).2.2.2.2.2) (iblk1 V c 0 t) (iblk1 V c 1 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2),
        (outsAt1 V c (t.val - 1) (Nat.lt_of_le_of_lt (Nat.sub_le _ _) t.isLt)).2.2.2.1,
        (outsAt1 V c (t.val - 1) (Nat.lt_of_le_of_lt (Nat.sub_le _ _) t.isLt)).2.2.2.2) := by
  obtain ⟨n, hn⟩ := t
  cases n with
  | zero =>
    have h' : 0 = 63 := h
    exact absurd h' (by omega)
  | succ n =>
    have h' : (n + 1) = 63 := h
    exact (dif_pos h').trans rfl

/-- The region's invariant before position `n`: before the first point what the region is entered with; afterwards the
    four accumulators at what the point before left, the other scoped buffers at anything, the generator register at some
    state. -/
def PhiS1 (c : Dev nD) : (n : ℕ) → n ≤ cfg1.N → sProp 𝕄
  | 0, _ => Pipeline.ΦA spec1 c
  | n + 1, hn => held1 c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = held1 c (outsAt1 V c n hn) := rfl
theorem PhiS1_pos (c : Dev nD) (n : ℕ) (h : n ≤ cfg1.N) (hz : n ≠ 0) :
    PhiS1 V c n h = held1 c (outsAt1 V c (n - 1) (by omega)) := by
  cases n with
  | zero => exact absurd rfl hz
  | succ n => rfl

/-- The proof data of the region on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 16000000 in
/-- The body at any point: the closed forms say which case the point is in; the invariant hands the body the four
    accumulators at what the point before left (at anything at the first point) and takes them back at this point's
    contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases hA : t.val = 0
  · have hk := hcase1_A t hA
    rw [Dat.leavesExact_idle (dat1 V c) 2 t (idleAt1_2 t hk.2.2.2.2.2) (noFlush1_2 t hk.2.2.2.2.2)]
    rw [outsAt1_A V c t hA]
    unfold sout1_A_0 sout1_A_1 sout1_A_2 sout1_A_3; (try dsimp only)
    rw [PhiS1_castSucc V c t, PhiS1_zero V c _ _ hA, PhiA1_eq]
    unfold held1; (try dsimp only)
    iintro ⟨⟨⟨R0, R1, R2, HS0, HS1, HS2, HS3⟩, Hg⟩, Ho, ⟨%d0, H0⟩, ⟨%d1, H1⟩, ⟨%d2, H2⟩⟩
    iapply ((kernelRun1_A c (grid1.coords t) _ _ _ _ _ _ _ _ _ _ _ _ _ _ hk.1 hk.2.1 hk.2.2.1 hk.2.2.2.1 hk.2.2.2.2.1 hk.2.2.2.2.2 (iblk1 V c 0 t) (iblk1 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, ⟨%es0, HS0⟩, ⟨%es1, HS1⟩, ⟨%es2, HS2⟩, ⟨%es3, HS3⟩⟩
    isplitl [R0 R1 R2 HS0 HS1 HS2 HS3 Hg]
    · isplitl [R0 R1 R2 HS0 HS1 HS2 HS3]
      · isplitl [R0]; · iexact R0
        isplitl [R1]; · iexact R1
        isplitl [R2]; · iexact R2
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _)
      iexact Hg
    isplitl [Ho]; · iexact Ho
    isplitl [H0]; · iexact H0
    isplitl [H1]; · iexact H1
    iexists _; iexact H2
  · have hne0 : t.val ≠ 0 := hA
    by_cases hC : t.val = 63
    · have hk := hcase1_C t hC
      rw [show (dat1 V c).leavesExact 2 t = owns (c : Thread nD τ) (ms1_2 t) fullShare ((dat1 V c).after 2 t) from by
        unfold Dat.leavesExact; rw [liveAt1_2 t hk.2.2.2.2.2], after1_2]
      rw [outsAt1_C V c t hC]
      unfold out1_C_2 sout1_C_1; (try dsimp only)
      rw [PhiS1_castSucc V c t, PhiS1_pos V c _ _ hne0]
      unfold held1; (try dsimp only)
      iintro ⟨⟨⟨R0, R1, R2, HS0, HS1, HS2, HS3⟩, Hg⟩, Ho, ⟨%d0, H0⟩, ⟨%d1, H1⟩, ⟨%d2, H2⟩⟩
      iapply ((kernelRun1_C c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      isplitl [HS3]; · iexact HS3
      iintro ⟨H0, H1, ⟨%e2, H2⟩, HS0, ⟨%es1, HS1⟩, HS2, HS3⟩
      isplitl [R0 R1 R2 HS0 HS1 HS2 HS3 Hg]
      · isplitl [R0 R1 R2 HS0 HS1 HS2 HS3]
        · isplitl [R0]; · iexact R0
          isplitl [R1]; · iexact R1
          isplitl [R2]; · iexact R2
          isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _)
          isplitl [HS2]; · iexact HS2
          iexact HS3
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _ _ _ _ _ _ _ _)
    · by_cases hxx : t.val / 8 < 4 ∧ t.val % 8 < 4
      · have hBxx : t.val ≠ 0 ∧ t.val / 8 < 4 ∧ t.val % 8 < 4 := ⟨hne0, hxx.1, hxx.2⟩
        have hk := hcase1_Bxx t hBxx
        rw [Dat.leavesExact_idle (dat1 V c) 2 t (idleAt1_2 t hk.2.2.2.2.2) (noFlush1_2 t hk.2.2.2.2.2)]
        rw [outsAt1_Bxx V c t hBxx]
        unfold sout1_Bxx_0; (try dsimp only)
        rw [PhiS1_castSucc V c t, PhiS1_pos V c _ _ hne0]
        unfold held1; (try dsimp only)
        iintro ⟨⟨⟨R0, R1, R2, HS0, HS1, HS2, HS3⟩, Hg⟩, Ho, ⟨%d0, H0⟩, ⟨%d1, H1⟩, ⟨%d2, H2⟩⟩
        iapply ((kernelRun1_Bxx c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        iintro ⟨H0, H1, H2, ⟨%es0, HS0⟩, HS1, HS2, HS3⟩
        isplitl [R0 R1 R2 HS0 HS1 HS2 HS3 Hg]
        · isplitl [R0 R1 R2 HS0 HS1 HS2 HS3]
          · isplitl [R0]; · iexact R0
            isplitl [R1]; · iexact R1
            isplitl [R2]; · iexact R2
            isplitl [HS0]
            · unfold owns; iexists _; isplitr
              swap; · iexact HS0
              ipureintro; exact View.read_writes_of_cover _ _ _ _ _ (scover1_Bxx_0 c _ _ _ _ _ _ _ _ _ _ _ _ _ _ _ _ _ _ _ _ _ _ _ _ _ _ _)
            isplitl [HS1]; · iexact HS1
            isplitl [HS2]; · iexact HS2
            iexact HS3
          iexact Hg
        isplitl [Ho]; · iexact Ho
        isplitl [H0]; · iexact H0
        isplitl [H1]; · iexact H1
        iexists _; iexact H2
      · by_cases hBxy : t.val / 8 < 4 ∧ ¬ t.val % 8 < 4
        · have hk := hcase1_Bxy t hBxy
          rw [Dat.leavesExact_idle (dat1 V c) 2 t (idleAt1_2 t hk.2.2.2.2.2) (noFlush1_2 t hk.2.2.2.2.2)]
          rw [outsAt1_Bxy V c t hBxy]
          unfold sout1_Bxy_2; (try dsimp only)
          rw [PhiS1_castSucc V c t, PhiS1_pos V c _ _ hne0]
          unfold held1; (try dsimp only)
          iintro ⟨⟨⟨R0, R1, R2, HS0, HS1, HS2, HS3⟩, Hg⟩, Ho, ⟨%d0, H0⟩, ⟨%d1, H1⟩, ⟨%d2, H2⟩⟩
          iapply ((kernelRun1_Bxy c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
          isplitl [H0]; · iexact H0
          isplitl [H1]; · iexact H1
          isplitl [H2]; · iexact H2
          isplitl [HS0]; · iexact HS0
          isplitl [HS1]; · iexact HS1
          isplitl [HS2]; · iexact HS2
          isplitl [HS3]; · iexact HS3
          iintro ⟨H0, H1, H2, HS0, HS1, ⟨%es2, HS2⟩, HS3⟩
          isplitl [R0 R1 R2 HS0 HS1 HS2 HS3 Hg]
          · isplitl [R0 R1 R2 HS0 HS1 HS2 HS3]
            · isplitl [R0]; · iexact R0
              isplitl [R1]; · iexact R1
              isplitl [R2]; · iexact R2
              isplitl [HS0]; · iexact HS0
              isplitl [HS1]; · iexact HS1
              isplitl [HS2]
              · unfold owns; iexists _; isplitr
                swap; · iexact HS2
                ipureintro; exact View.read_writes_of_cover _ _ _ _ _ (scover1_Bxy_2 c _ _ _ _ _ _ _ _ _ _ _ _ _ _ _ _ _ _ _ _ _ _ _ _ _ _ _)
              iexact HS3
            iexact Hg
          isplitl [Ho]; · iexact Ho
          isplitl [H0]; · iexact H0
          isplitl [H1]; · iexact H1
          iexists _; iexact H2
        · by_cases hByx : ¬ t.val / 8 < 4 ∧ t.val % 8 < 4
          · have hk := hcase1_Byx t hByx
            rw [Dat.leavesExact_idle (dat1 V c) 2 t (idleAt1_2 t hk.2.2.2.2.2) (noFlush1_2 t hk.2.2.2.2.2)]
            rw [outsAt1_Byx V c t hByx]
            unfold sout1_Byx_3; (try dsimp only)
            rw [PhiS1_castSucc V c t, PhiS1_pos V c _ _ hne0]
            unfold held1; (try dsimp only)
            iintro ⟨⟨⟨R0, R1, R2, HS0, HS1, HS2, HS3⟩, Hg⟩, Ho, ⟨%d0, H0⟩, ⟨%d1, H1⟩, ⟨%d2, H2⟩⟩
            iapply ((kernelRun1_Byx c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
            isplitl [H0]; · iexact H0
            isplitl [H1]; · iexact H1
            isplitl [H2]; · iexact H2
            isplitl [HS0]; · iexact HS0
            isplitl [HS1]; · iexact HS1
            isplitl [HS2]; · iexact HS2
            isplitl [HS3]; · iexact HS3
            iintro ⟨H0, H1, H2, HS0, HS1, HS2, ⟨%es3, HS3⟩⟩
            isplitl [R0 R1 R2 HS0 HS1 HS2 HS3 Hg]
            · isplitl [R0 R1 R2 HS0 HS1 HS2 HS3]
              · isplitl [R0]; · iexact R0
                isplitl [R1]; · iexact R1
                isplitl [R2]; · iexact R2
                isplitl [HS0]; · iexact HS0
                isplitl [HS1]; · iexact HS1
                isplitl [HS2]; · iexact HS2
                unfold owns; iexists _; isplitr
                swap; · iexact HS3
                ipureintro; exact View.read_writes_of_cover _ _ _ _ _ (scover1_Byx_3 c _ _ _ _ _ _ _ _ _ _ _ _ _ _ _ _ _ _ _ _ _ _ _ _ _ _ _)
              iexact Hg
            isplitl [Ho]; · iexact Ho
            isplitl [H0]; · iexact H0
            isplitl [H1]; · iexact H1
            iexists _; iexact H2
          · have hByy : t.val ≠ 63 ∧ ¬ t.val / 8 < 4 ∧ ¬ t.val % 8 < 4 := ⟨hC, by omega, by omega⟩
            have hk := hcase1_Byy t hByy
            rw [Dat.leavesExact_idle (dat1 V c) 2 t (idleAt1_2 t hk.2.2.2.2.2) (noFlush1_2 t hk.2.2.2.2.2)]
            rw [outsAt1_Byy V c t hByy]
            unfold sout1_Byy_1; (try dsimp only)
            rw [PhiS1_castSucc V c t, PhiS1_pos V c _ _ hne0]
            unfold held1; (try dsimp only)
            iintro ⟨⟨⟨R0, R1, R2, HS0, HS1, HS2, HS3⟩, Hg⟩, Ho, ⟨%d0, H0⟩, ⟨%d1, H1⟩, ⟨%d2, H2⟩⟩
            iapply ((kernelRun1_Byy c (grid1.coords t) _ _ _ _ _ _ _ _ _ _ _ _ _ _ hk.1 hk.2.1 hk.2.2.1 hk.2.2.2.1 hk.2.2.2.2.1 hk.2.2.2.2.2 (iblk1 V c 0 t) (iblk1 V c 1 t) _ _ _ _).2 _ Set.univ _)
            isplitl [H0]; · iexact H0
            isplitl [H1]; · iexact H1
            isplitl [H2]; · iexact H2
            isplitl [HS0]; · iexact HS0
            isplitl [HS1]; · iexact HS1
            isplitl [HS2]; · iexact HS2
            isplitl [HS3]; · iexact HS3
            iintro ⟨H0, H1, H2, HS0, ⟨%es1, HS1⟩, HS2, HS3⟩
            isplitl [R0 R1 R2 HS0 HS1 HS2 HS3 Hg]
            · isplitl [R0 R1 R2 HS0 HS1 HS2 HS3]
              · isplitl [R0]; · iexact R0
                isplitl [R1]; · iexact R1
                isplitl [R2]; · iexact R2
                isplitl [HS0]; · iexact HS0
                isplitl [HS1]
                · unfold owns; iexists _; isplitr
                  swap; · iexact HS1
                  ipureintro; exact View.read_writes_of_cover _ _ _ _ _ (scover1_Byy_1 c _ _ _ _ _ _ _ _ _ _ _ _ _ _ _ _ _ _ _ _ _ _ _ _ _ _ _)
                isplitl [HS2]; · iexact HS2
                iexact HS3
              iexact Hg
            isplitl [Ho]; · iexact Ho
            isplitl [H0]; · iexact H0
            isplitl [H1]; · iexact H1
            iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold held1
  iintro ⟨⟨R0, R1, R2, HS0, HS1, HS2, HS3⟩, Hg⟩
  isplitl [R0 R1 R2 HS0 HS1 HS2 HS3]
  · isplitl [R0]; · iexact R0
    isplitl [R1]; · iexact R1
    isplitl [R2]; · iexact R2
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.IRun.lean ====
/-
  The whole run of the program of two kernel regions: the buffer contents at each boundary of @main as a fold from the launch
  memory (host operations applied, then each region's arrays at what its pipeline leaves), the two regions as segments
  entered from and left at those contents, @main as the list of its four segments, and from the launch theorem for such a
  list: every weakly fair execution terminates, nothing faulting, each unscoped buffer ending at the fold's last contents —
  whence the argument arrays end as launched and the result buffer at the last contents of its own.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121879_j18313740550844_2_alg».proof.Proof.IRegion0
import proofs.«121879_j18313740550844_2_alg».proof.Proof.IRegion1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register. -/
abbrev Tₙ (c : Dev nD) : sProp 𝕄 := iprop(StableHlo.held (c : Thread nD τ) (Pipeline.ucRefs τ sig) (W4 m ρ c) ∗ ∃ r, prngReg c r)

/-- What a region is handed beside its windows makes the class's invariant, and back. -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c) ⊢ (Pipeline.ΦA win c : sProp 𝕄) := by
  unfold Pipeline.ΦA
  iintro ⟨Hp, -, Hr⟩
  isplitl [Hr]; · iexact Hr
  iexact Hp
theorem phiA_out {gr W : Nat} (win : Fin W → Pipeline.WinSpec sig gr) (c : Dev nD) :
    (Pipeline.ΦA win c : sProp 𝕄) ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr
/-- The last host segment's post is the last thread state beside the core owing nothing. -/
theorem last_link (c : Dev nD) :
    iprop(StableHlo.held (c : Thread nD τ) (Pipeline.ucRefs τ sig) (W4 m ρ c) ∗ R (F := F) c) ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at the contents before it, left at the contents
    after it. Its arrays are split out of the unscoped buffers and put back at what the pipeline leaves; the generator
    register and the scoped buffers go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec0 c _).trans (hin0 (V1 m ρ) c)
  hout c := by
    rw [Pipeline.ownSems0_none]
    exact (hout0 (V1 m ρ) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register and the scoped buffers go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec1 c _).trans (hin1 (V2 m ρ) c)
  hout c := by
    rw [Pipeline.ownSems0_none]
    exact (hout1 (V2 m ρ) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched; the result is the last contents of its buffer -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg2) := rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run with the result buffer named: it ends at the fold's last contents. -/
theorem valued : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v19 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.IAcc0.lean ====
/-
  What the first region's accumulator holds, read as one step per grid point: each case's stored pieces opened to the body's
  payload terms (the tile's sum added to the carried word, the first point starting from the zero it has just stored, the
  last point also scaling the total into the output window), the input window's block as the whole array, and the one-word
  output array after the region as what the last point left.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121879_j18313740550844_2_alg».proof.Proof.IRegion0
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The two tiles of rows a point reads. -/
abbrev rA0 (i : grid0.Coords) : Rect S8192x256 := Rect.unit (s := S8192x256) (k0_off1 i) S1024x256.size (k0_off1_inb i)
abbrev rB0 (i : grid0.Coords) : Rect S8192x256 := Rect.unit (s := S8192x256) (k0_off2 i) S1024x256.size (k0_off2_inb i)

/-- One step of the accumulator: the tile's sum added to what it held. -/
def step0 (i : grid0.Coords) (x0 : Vec F S8192x256 .f32) (s : Vec F S1x1 .f32) : Vec F S1x1 .f32 :=
  k0_pay1 (k0_pay4 (View.ld x0 (rA0 i)) (View.ld x0 (rB0 i)) s)

/-- At the first point the accumulator is zeroed, read back, and stepped. -/
theorem sout0_A_0_eq (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x256 .f32) :
    sout0_A_0 c i arg2 harg2 arg3 harg3 arg4 harg4 hc0 hc1 x0 = step0 i x0 k0_pay3 := by
  unfold sout0_A_0
  rw [View.read_writes_eq_canon _ _ _ (scover0_A_0 c i arg2 harg2 arg3 harg3 arg4 harg4 hc0 hc1 x0)]
  unfold kernelRun0_A; dsimp only
  sl_unfold_run_names
  rw [View.canon_cons_unit_zero hz2]
  simp only [View.readAt_eq_ld, harg2.read_unread, View.readCov_unit_zero (S := S1x1) arg4.view hz2]
  rfl

/-- At a middle point it is stepped from what the point before left. -/
theorem sout0_B_0_eq (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x256 .f32) (xs0 : Vec F S1x1 .f32) :
    sout0_B_0 c i arg2 harg2 arg3 harg3 arg4 harg4 hc0 hc1 x0 xs0 = step0 i x0 xs0 := by
  unfold sout0_B_0
  rw [View.read_writes_eq_canon _ _ _ (scover0_B_0 c i arg2 harg2 arg3 harg3 arg4 harg4 hc0 hc1 x0 xs0)]
  unfold kernelRun0_B; dsimp only
  sl_unfold_run_names
  rw [View.canon_unit_zero hz2]
  simp only [View.readAt_eq_ld, harg2.read_unread, harg4.read_unread, View.ld_unit_zero (S := S1x1) hz2]
  rfl

/-- At the last point likewise, -/
theorem sout0_C_0_eq (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) :
    sout0_C_0 c i arg2 harg2 arg3 harg3 arg4 harg4 hc0 hc1 x0 xs0 = step0 i x0 xs0 := by
  unfold sout0_C_0
  rw [View.read_writes_eq_canon _ _ _ (scover0_C_0 c i arg2 harg2 arg3 harg3 arg4 harg4 hc0 hc1 x0 xs0)]
  unfold kernelRun0_C; dsimp only
  sl_unfold_run_names
  rw [View.canon_unit_zero hz2]
  simp only [View.readAt_eq_ld, harg2.read_unread, harg4.read_unread, View.ld_unit_zero (S := S1x1) hz2]
  rfl

/-- and the output window receives the scaled total. -/
theorem out0_C_1_eq (c : Dev nD) (i : grid0.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x256 .f32) (xs0 : Vec F S1x1 .f32) :
    out0_C_1 c i arg2 harg2 arg3 harg3 arg4 harg4 hc0 hc1 x0 xs0 = k0_pay2 (step0 i x0 xs0) := by
  unfold out0_C_1
  rw [View.read_writes_eq_canon _ _ _ (cover0_C_1 c i arg2 harg2 arg3 harg3 arg4 harg4 hc0 hc1 x0 xs0)]
  unfold kernelRun0_C; dsimp only
  sl_unfold_run_names
  rw [View.canon_unit_zero hz2]
  simp only [View.readAt_eq_ld, harg2.read_unread, harg4.read_unread, View.readCov_unit_zero (S := S1x1) arg4.view hz2, View.ld_unit_zero (S := S1x1) hz2]
  rfl

section Region0
variable (V : (c : Dev nD) → (b : Ref sig .tc) → Buf (Elt F) ((c : Thread nD τ).loc b))

/-- The accumulation, step by step. -/
theorem outsAt0_zero (c : Dev nD) (hn : 0 < cfg0.N) :
    (outsAt0 V c 0 hn).2 = step0 (grid0.coords ⟨0, hn⟩) (iblk0 V c 0 ⟨0, hn⟩) k0_pay3 :=
  sout0_A_0_eq (F := F) c (grid0.coords ⟨0, hn⟩) (ms0_0 ⟨0, hn⟩) (hs0_0 ⟨0, hn⟩) (ms0_1 ⟨0, hn⟩) (hs0_1 ⟨0, hn⟩) scM0_0 (Memref.isWhole_whole _) (hc0_of_zero ⟨0, hn⟩ rfl) (nhc1_of_ne ⟨0, hn⟩ (show (0 : ℕ) ≠ 63 by decide)) (iblk0 V c 0 ⟨0, hn⟩)
theorem outsAt0_succ (c : Dev nD) (n : ℕ) (hn : n + 1 < cfg0.N) :
    (outsAt0 V c (n + 1) hn).2 = step0 (grid0.coords ⟨n + 1, hn⟩) (iblk0 V c 0 ⟨n + 1, hn⟩) (outsAt0 V c n (Nat.lt_of_succ_lt hn)).2 := by
  by_cases h1 : n + 1 = 63
  · exact (congrArg Prod.snd (dif_pos h1)).trans (sout0_C_0_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (hc1_of_last ⟨n + 1, hn⟩ h1) (iblk0 V c 0 ⟨n + 1, hn⟩) (outsAt0 V c n (Nat.lt_of_succ_lt hn)).2)
  · exact (congrArg Prod.snd (dif_neg h1)).trans (sout0_B_0_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nhc0_of_pos ⟨n + 1, hn⟩ (Nat.succ_ne_zero n)) (nhc1_of_ne ⟨n + 1, hn⟩ h1) (iblk0 V c 0 ⟨n + 1, hn⟩) (outsAt0 V c n (Nat.lt_of_succ_lt hn)).2)
/-- What the output window's buffer holds after the last point. -/
theorem outsAt0_last (c : Dev nD) (hn : 62 + 1 < cfg0.N) :
    (outsAt0 V c (62 + 1) hn).1 = k0_pay2 (outsAt0 V c (62 + 1) hn).2 := by
  rw [outsAt0_succ V c 62 hn]
  exact (congrArg Prod.fst (dif_pos rfl)).trans (out0_C_1_eq (F := F) c (grid0.coords ⟨62 + 1, hn⟩) (ms0_0 ⟨62 + 1, hn⟩) (hs0_0 ⟨62 + 1, hn⟩) (ms0_1 ⟨62 + 1, hn⟩) (hs0_1 ⟨62 + 1, hn⟩) scM0_0 (Memref.isWhole_whole _) (nhc0_of_pos ⟨62 + 1, hn⟩ (Nat.succ_ne_zero 62)) (hc1_of_last ⟨62 + 1, hn⟩ rfl) (iblk0 V c 0 ⟨62 + 1, hn⟩) (outsAt0 V c 62 (Nat.lt_of_succ_lt hn)).2)

end Region0

section Region0b
variable (V : (c : Dev nD) → (b : Ref sig .tc) → Buf (Elt F) ((c : Thread nD τ).loc b))

/-- Both windows of the region have one block: their index maps are constantly zero. -/
theorem idx0_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole array. -/
theorem iblk0_0_eq (c : Dev nD) (t : Fin cfg0.N) :
    iblk0 V c 0 t = (V c main_v16 : S8192x256.Idx → Elt F .f32) := by
  funext y
  show V c main_v16 (((cfg0.win 0).blk t).view.emb y) = V c main_v16 y
  obtain ⟨e0, e1, -, -⟩ := idx0_zero t
  refine congrArg _ ?_
  funext a; apply Fin.ext
  match a with
  | ⟨0, _⟩ => show win0_0.index t (0 : Fin 2) * 8192 + 1 * (y 0).val = (y 0).val; omega
  | ⟨1, _⟩ => show win0_0.index t (1 : Fin 2) * 256 + 1 * (y 1).val = (y 1).val; omega

/-- An index of the one-word output array is in the one block. -/
theorem mem_blk0_1 (t : Fin cfg0.N) (i : S1x1.Idx) : i ∈ ((cfg0.win 1).blk t).view.set := by
  show i ∈ ((View.whole main_v17).slice (win0_1.rect t)).set
  rw [View.set_slice_whole, Rect.mem_set_unit]
  obtain ⟨-, -, e0, e1⟩ := idx0_zero t
  intro a
  match a with
  | ⟨0, _⟩ => show win0_1.index t (0 : Fin 2) * 1 ≤ (i 0).val ∧ (i 0).val < win0_1.index t (0 : Fin 2) * 1 + 1; have hi : (i 0).val < 1 := (i 0).isLt; omega
  | ⟨1, _⟩ => show win0_1.index t (1 : Fin 2) * 1 ≤ (i 1).val ∧ (i 1).val < win0_1.index t (1 : Fin 2) * 1 + 1; have hi : (i 1).val < 1 := (i 1).isLt; omega

/-- The one block read off an array of one word is the array. -/
theorem read_blk0_1 (t : Fin cfg0.N) (G : S1x1.Idx → Elt F .f32) :
    ((cfg0.win 1).blk t).view.read (Elt F) G = G := by
  funext y
  show G (((cfg0.win 1).blk t).view.emb y) = G y
  obtain ⟨-, -, e0, e1⟩ := idx0_zero t
  refine congrArg _ ?_
  funext a; apply Fin.ext
  match a with
  | ⟨0, _⟩ => show win0_1.index t (0 : Fin 2) * 1 + 1 * (y 0).val = (y 0).val; omega
  | ⟨1, _⟩ => show win0_1.index t (1 : Fin 2) * 1 + 1 * (y 1).val = (y 1).val; omega

/-- THE OUTPUT ARRAY after the region: what the last point left in the window's buffer. -/
theorem arrAt0_1 (c : Dev nD) (h63 : 63 < cfg0.N) :
    (dat0 V c).arrAt 1 cfg0.N = ((outsAt0 V c 63 h63).1 : S1x1.Idx → Elt F .f32) := by
  refine (dat0 V c).arrAt_eq_of_cover 1 _ (fun t hf => ?_) (fun i => ⟨⟨63, h63⟩, (flush0_1 ⟨63, h63⟩).mpr rfl, mem_blk0_1 _ i⟩)
  rw [read_blk0_1]
  have ht : t.val = 63 := by have := (flush0_1 t).mp hf; have := t.isLt; have hN : cfg0.N = 64 := N_0; omega
  obtain ⟨n, hn⟩ := t
  subst ht
  show (cfg0.win 1).cut (grid0.coords ⟨63, hn⟩) ((dat0 V c).after 1 ⟨63, hn⟩) = _
  rw [after0_1]
  rfl

end Region0b

end Cert.KernelIdeal.Hand

end
-- ==== Proof.Spec.lean ====
/-
  The loss as mathematics: the stacked samples are a matrix of 8192 rows and 256 features; the squared distance of
  rows r and c is max (|x_r|² + |x_c|² − 2·⟨x_r, x_c⟩) 0; the bandwidth is the mean distance over the off-diagonal
  count, quartered; the radial kernel at a distance d is the sum of exp (−d / (bandwidth · 2^k)), k = 0 … 4; the result is
  the sum of the two diagonal quadrant means minus the two off-diagonal ones. Two arrangements of the same sums are
  stated here over the extended reals: one summed tile by tile (64 tiles of 1024 × 1024, visited row-major, each
  quadrant's tiles added up in the order they are met) and scaled once at the end, one summed whole and quadrant by
  quadrant, each quadrant divided by its count.
-/
import Idealize.ShloMosaic.PureOps.Ideal
import Idealize.ShloMosaic.Lib.ValueIdx

noncomputable section

namespace Cert.MMD

open Idealize.ShloMosaic Idealize.ShloMosaic.ValueIdx

/-- The stacked samples: 8192 rows of 256 features, as extended reals. -/
abbrev Tot : Type := (⟨2, ![8192, 256]⟩ : Shape).Idx → EReal

/-- The float literals of both programs, kept as the words they are printed with. -/
def c1 : EReal := Ideal.ofBits .f32 0x3F800000#32
def c2 : EReal := Ideal.ofBits .f32 0x40000000#32
def c4 : EReal := Ideal.ofBits .f32 0x40800000#32
def c8 : EReal := Ideal.ofBits .f32 0x41000000#32
def c16 : EReal := Ideal.ofBits .f32 0x41800000#32
/-- 8192² − 8192 = 67100672. -/
def cDen : EReal := Ideal.ofBits .f32 0x4C7FF800#32
/-- 1/4. -/
def cQuarter : EReal := Ideal.ofBits .f32 0x3E800000#32
/-- 4096² = 16777216, and its reciprocal 2⁻²⁴. -/
def cM : EReal := Ideal.ofBits .f32 0x4B800000#32
def cMinv : EReal := Ideal.ofBits .f32 0x33800000#32

/-- A row's squared norm. -/
def sqn (x : Tot) (r : Fin 8192) : EReal := ∑ k : Fin 256, x (ix2 r k) * x (ix2 r k)
/-- Two rows' inner product. -/
def gram (x : Tot) (r c : Fin 8192) : EReal := ∑ k : Fin 256, x (ix2 r k) * x (ix2 c k)
/-- Two rows' squared distance, clamped at zero. -/
def dist (x : Tot) (r c : Fin 8192) : EReal := max ((sqn x r + sqn x c) - c2 * gram x r c) 0
/-- The five-bandwidth radial kernel at a distance. -/
def rbf (bw d : EReal) : EReal :=
  ((((0 + Ideal.exp (Ideal.div (-d) (bw * c1))) + Ideal.exp (Ideal.div (-d) (bw * c2)))
      + Ideal.exp (Ideal.div (-d) (bw * c4))) + Ideal.exp (Ideal.div (-d) (bw * c8)))
    + Ideal.exp (Ideal.div (-d) (bw * c16))

/-! ## Tile by tile -/

/-- Row `p` of tile row `i`. -/
def row (i : Fin 8) (p : Fin 1024) : Fin 8192 := ⟨1024 * i.val + p.val, by have := i.isLt; have := p.isLt; omega⟩

/-- The sum of `f` over tile `s` of the 8 × 8 tiling, tiles numbered row-major: rows first, then within a row. -/
def blk (f : Fin 8192 → Fin 8192 → EReal) (s : ℕ) : EReal :=
  if h : s < 64 then ∑ p : Fin 1024, ∑ q : Fin 1024, f (row ⟨s / 8, by omega⟩ p) (row ⟨s % 8, by omega⟩ q) else 0

/-- An accumulator started at zero that adds `g s` at the steps `s < n` where `P s` holds, in order. -/
def accQ (P : ℕ → Prop) [DecidablePred P] (g : ℕ → EReal) : ℕ → EReal
  | 0 => 0
  | n + 1 => if P n then accQ P g n + g n else accQ P g n

/-- The bandwidth from the tile sums. -/
def kerBw (x : Tot) : EReal := Ideal.div (accQ (fun _ => True) (blk (dist x)) 64) cDen * cQuarter

/-- The result from the four quadrants' tile sums. -/
def kerOut (x : Tot) : EReal :=
  (((accQ (fun s => s / 8 < 4 ∧ s % 8 < 4) (blk fun r c => rbf (kerBw x) (dist x r c)) 64
      + accQ (fun s => ¬ s / 8 < 4 ∧ ¬ s % 8 < 4) (blk fun r c => rbf (kerBw x) (dist x r c)) 64)
    - accQ (fun s => s / 8 < 4 ∧ ¬ s % 8 < 4) (blk fun r c => rbf (kerBw x) (dist x r c)) 64)
    - accQ (fun s => ¬ s / 8 < 4 ∧ s % 8 < 4) (blk fun r c => rbf (kerBw x) (dist x r c)) 64) * cMinv

/-! ## Whole -/

/-- A row of the first half, and of the second. -/
def lo (a : Fin 4096) : Fin 8192 := ⟨a.val, by have := a.isLt; omega⟩
def hi (a : Fin 4096) : Fin 8192 := ⟨4096 + a.val, by have := a.isLt; omega⟩

/-- The bandwidth from the whole sum. -/
def refBw (x : Tot) : EReal :=
  Ideal.div (Ideal.div (0 + ∑ i : (⟨2, ![8192, 8192]⟩ : Shape).Idx, dist x (i 0) (i 1)) cDen) c4

/-- A quadrant's mean. -/
def quad (x : Tot) (a b : Fin 4096 → Fin 8192) : EReal :=
  Ideal.div (0 + ∑ i : (⟨2, ![4096, 4096]⟩ : Shape).Idx, rbf (refBw x) (dist x (a (i 0)) (b (i 1)))) cM

/-- The result from the four quadrant means. -/
def refOut (x : Tot) : EReal := ((quad x lo lo + quad x hi hi) - quad x lo hi) - quad x hi lo

end Cert.MMD

end
-- ==== Proof.IPayTile.lean ====
/-
  The tile arithmetic of the two kernel bodies, over the extended reals. Both bodies load two tiles a and b of 1024
  rows by 256 features and form the 1024 × 1024 tile of clamped squared distances
  max (|a_p|² + |b_q|² − 2·⟨a_p, b_q⟩) 0: the rows' sums of squares by a lane sum, laid out as a column and as a row
  and broadcast, the inner products by the matrix unit into a zero accumulator (the change of format on the way in is
  the identity on extended reals), and a total of a tile by a lane sum followed by a sum down the column. Here each of
  those operations is read at one index, the distance tile at (p, q) is identified, and the total is the double sum.
-/
import proofs.«121879_j18313740550844_2_alg».proof.Proof.Gen.KernelIdeal.Skeleton
import proofs.«121879_j18313740550844_2_alg».proof.Proof.Spec
import Idealize.ShloMosaic.Lib.IdealHost
import Idealize.ShloMosaic.Lib.ValueLayout
import Idealize.ShloMosaic.Lib.StackMember
import Idealize.ShloMosaic.Lib.Pipeline.Value

noncomputable section

namespace Cert.KernelIdeal.Pay

open Cert.KernelIdeal Cert.KernelIdeal.Gen Cert.MMD Idealize.ShloMosaic Idealize.ShloMosaic.ValueIdx
open scoped BigOperators

/-- A tile: 1024 rows of 256 features, as extended reals. -/
abbrev Tile : Type := FVec Ideal S1024x256 .f32

/-- The one index of a 1 × 1 array. -/
abbrev o : S1x1.Idx := ix2 (0 : Fin 1) (0 : Fin 1)

/-- Every index of a 1 × 1 array is that one. -/
theorem eq_o (j : S1x1.Idx) : j = o := by
  funext a
  match a with
  | ⟨0, _⟩ => exact Subsingleton.elim (α := Fin 1) _ _
  | ⟨1, _⟩ => exact Subsingleton.elim (α := Fin 1) _ _

/-- The clamped squared distance of row p of tile a and row q of tile b. -/
def tdist (a b : Tile) (p q : Fin 1024) : EReal :=
  max ((∑ k : Fin 256, a (ix2 p k) * a (ix2 p k) + ∑ k : Fin 256, b (ix2 q k) * b (ix2 q k))
    - c2 * ∑ k : Fin 256, a (ix2 p k) * b (ix2 q k)) 0

/-! ## The operations of a tile body read at an index -/

/-- A sum along the second axis of an n × m array, at row p, is the sum over that row. -/
theorem lane_sum_read {n m : Nat} (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (p : Fin n) :
    multiReduction .add [1] ⟨1, ![n]⟩ v 0x00000000#32 h hφ hacc (ix1 p) = ∑ k : Fin m, v (ix2 p k) := by
  refine (Ideal.multiReduction_add_single v _ h hφ hacc (ix1 p)).trans ?_
  refine Finset.sum_congr rfl fun k _ => ?_
  have e : h.lift (ix1 p) k = ix2 p k := by
    funext ax; apply Fin.ext
    match ax with
    | ⟨0, _⟩ => rfl
    | ⟨1, _⟩ => rfl
  rw [e]
  rfl

/-- A sum along the first axis of an n × 1 column, at its one index, is the sum over the column. -/
theorem column_sum_read {n : Nat} (v : FVec Ideal ⟨2, ![n, 1]⟩ .f32) (h : (⟨2, ![n, 1]⟩ : Shape).Reduces [0] ⟨1, ![1]⟩)
    (hφ : FKind.Formats .f32) (hacc : (0x00000000#32 : BitVec 32) = 0x00000000#32) :
    multiReduction .add [0] ⟨1, ![1]⟩ v 0x00000000#32 h hφ hacc (ix1 (0 : Fin 1)) = ∑ p : Fin n, v (ix2 p (0 : Fin 1)) := by
  refine (Ideal.multiReduction_add_single v _ h hφ hacc (ix1 (0 : Fin 1))).trans ?_
  refine Finset.sum_congr rfl fun p _ => ?_
  have e : h.lift (ix1 (0 : Fin 1)) p = ix2 p (0 : Fin 1) := by
    funext ax; apply Fin.ext
    match ax with
    | ⟨0, _⟩ => rfl
    | ⟨1, _⟩ => rfl
  rw [e]
  rfl

/-- A vector of n entries cast to an n × 1 column reads its entry. -/
theorem cast_column_read {n : Nat} {α : Type} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An n × 1 column broadcast across n columns reads its row's entry. -/
theorem bcast_column_read {n m : Nat} {α : Type} (v : (⟨2, ![n, 1]⟩ : Shape).Idx → α)
    (h : (⟨2, ![n, 1]⟩ : Shape).Broadcasts ⟨2, ![n, m]⟩) (p : Fin n) (q : Fin m) :
    broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- A 1 × 1 array broadcast to any n × m array reads its one entry. -/
theorem bcast_one_read {n m : Nat} {α : Type} (v : (⟨2, ![1, 1]⟩ : Shape).Idx → α)
    (h : (⟨2, ![1, 1]⟩ : Shape).Broadcasts ⟨2, ![n, m]⟩) (p : Fin n) (q : Fin m) :
    broadcastTo ⟨2, ![n, m]⟩ v h (ix2 p q) = v o := by
  refine broadcastTo_apply v h (ix2 p q) o fun ax => ?_
  match ax with
  | ⟨0, _⟩ => rfl
  | ⟨1, _⟩ => rfl

/-- The matrix unit's product of a tile with a transposed tile, into the zero accumulator, at (p, q), is the inner
    product of row p of the first with row q of the second. -/
theorem tile_matmul_read {φ₁ φ₂ : FTy} (l : FVec Ideal S1024x256 φ₁) (r : FVec Ideal S256x1024 φ₂) (p q : Fin 1024) :
    matmul (F := Ideal) dot_S1024x256_S256x1024_S1024x1024_1_0_0_1_n_n none l r
      (constant (F := Ideal) S1024x1024 .f32 0x00000000#32) (ix2 p q) = ∑ k : Fin 256, l (ix2 p k) * r (ix2 k q) := by
  refine (Ideal.matmul_constant_zero_apply _ none l r (ix2 p q)).trans ?_
  refine (Ideal.dotGeneral_apply _ none .single l r (ix2 p q)).symm.trans ?_
  exact StackMember.dotGeneral_plain_apply (m := 1024) (n := 1024) (k := 256) none l r p q

/-- The same with the second tile given by rows: the product with its transpose, at (p, q), is the inner product of
    row p of the first tile with row q of the second. -/
theorem tile_gram_read {φ₁ φ₂ : FTy} (l : FVec Ideal S1024x256 φ₁) (r : FVec Ideal S1024x256 φ₂) (p q : Fin 1024) :
    matmul (F := Ideal) dot_S1024x256_S256x1024_S1024x1024_1_0_0_1_n_n none l
      (transpose S256x1024 [1, 0] r transposes_S1024x256_p1_0_S256x1024)
      (constant (F := Ideal) S1024x1024 .f32 0x00000000#32) (ix2 p q) = ∑ k : Fin 256, l (ix2 p k) * r (ix2 q k) := by
  refine (tile_matmul_read l _ p q).trans ?_
  refine Finset.sum_congr rfl fun k _ => ?_
  rw [transpose_ix2_apply]

/-! ## The distance tile -/

/-- The word of a scalar constant, at the ideal values, is the extended real it encodes. -/
theorem scalar_ofBits (w : BitVec 32) : (Scalar.ofBits (F := Ideal) .f32 w : EReal) = Ideal.ofBits .f32 w := rfl

/-- (P3) The distance tile at (p, q) is the clamped squared distance of row p of the first tile and row q of the second. -/
theorem k1_pay9_apply (a b : Tile) (p q : Fin 1024) : k1_pay9 (F := Ideal) a b (ix2 p q) = tdist a b p q := by
  unfold k1_pay9
  dsimp only
  rw [maximumf_apply, subf_apply, addf_apply, mulf_apply, broadcast_apply, broadcast_apply, scalar_ofBits, scalar_ofBits,
    Ideal.ofBits_zero_f32, bcast_column_read, cast_column_read, lane_sum_read,
    broadcastTo_1b_ab_apply, transpose_ix2_apply, cast_column_read, lane_sum_read, tile_gram_read]
  unfold tdist c2
  simp only [shapeCast_self, mulf_apply, truncf_apply]

/-- A one-entry vector cast to a 1 × 1 array reads its entry. -/
theorem cast_one_read {α : Type} (v : S1.Idx → α) (h : S1.ShapeCasts S1x1) : shapeCast S1x1 v h o = v (ix1 (0 : Fin 1)) := by
  refine shapeCast_apply v h o (ix1 (0 : Fin 1)) ?_
  rw [Shape.rowMajor_val_one, Shape.rowMajor_val_two]
  rfl

/-- The lane sum, then the sum down the column, of a 1024 × 1024 tile, as the bodies write it into a 1 × 1 array, is
    the double sum over the tile. -/
theorem tile_total_read (g : FVec Ideal S1024x1024 .f32) :
    shapeCast S1x1 (multiReduction .add [0] S1 (shapeCast S1024x1 (multiReduction .add [1] S1024 g 0x00000000#32
        reduces_S1024x1024_S1024 (.inl rfl) rfl) shapeCasts_S1024_S1024x1) 0x00000000#32 reduces_S1024x1_S1 (.inl rfl) rfl)
      shapeCasts_S1_S1x1 o = ∑ p : Fin 1024, ∑ q : Fin 1024, g (ix2 p q) := by
  rw [cast_one_read, column_sum_read]
  refine Finset.sum_congr rfl fun p _ => ?_
  rw [cast_column_read, lane_sum_read]

end Cert.KernelIdeal.Pay

end
-- ==== Proof.IPayBlocks.lean ====
/-
  The tiles as blocks of the whole array. The grid has 8 × 8 points, numbered row-major: point t has coordinates
  (t / 8, t % 8), and its two loads take the 1024 rows starting at 1024 · (t / 8) and at 1024 · (t % 8) of the
  8192 × 256 array x, all 256 columns. So entry (p, k) of the first tile is x at (1024 · (t / 8) + p, k), likewise the
  second; the tile distance of the two loads at (p, q) is the array's distance of those two rows; and the total over
  the tile — of the distances, or of the radial kernel of the distances at any bandwidth — is the specification's
  sum over tile t.
-/
import proofs.«121879_j18313740550844_2_alg».proof.Proof.IPayTile

noncomputable section

namespace Cert.KernelIdeal.Pay

open Cert.KernelIdeal Cert.KernelIdeal.Gen Cert.MMD Idealize.ShloMosaic Idealize.ShloMosaic.ValueIdx
open scoped BigOperators

/-! ## The tiles as blocks of the whole array -/

/-- Both grids have 64 points. -/
theorem N0 : grid0.N = 64 := by decide
theorem N1 : grid1.N = 64 := by decide

/-- Point t of the 8 × 8 grid, points numbered row-major, has coordinates (t / 8, t % 8). -/
theorem coords0 : ∀ t : Fin grid0.N, ((grid0.coords t) 0).val = t.val / 8 ∧ ((grid0.coords t) 1).val = t.val % 8 := by
  decide +kernel
theorem coords1 : ∀ t : Fin grid1.N, ((grid1.coords t) 0).val = t.val / 8 ∧ ((grid1.coords t) 1).val = t.val % 8 := by
  decide +kernel

/-- The two loads of a grid point start at rows 1024 · (t / 8) and 1024 · (t % 8), column 0. -/
theorem k0_off1_coords : ∀ t : Fin grid0.N, k0_off1 (grid0.coords t) = ![1024 * (t.val / 8), 0] := by decide +kernel
theorem k0_off2_coords : ∀ t : Fin grid0.N, k0_off2 (grid0.coords t) = ![1024 * (t.val % 8), 0] := by decide +kernel
theorem k1_off1_coords : ∀ t : Fin grid1.N, k1_off1 (grid1.coords t) = ![1024 * (t.val / 8), 0] := by decide +kernel
theorem k1_off2_coords : ∀ t : Fin grid1.N, k1_off2 (grid1.coords t) = ![1024 * (t.val % 8), 0] := by decide +kernel

/-- A 1024 × 256 tile loaded from the whole array at row offset 1024 · i, column offset 0, holds at (p, k) the array's
    entry at (row i p, k). -/
theorem ld_tile_apply (x : FVec Ideal S8192x256 .f32) (off : Fin 2 → Nat)
    (inb : ∀ a, off a + S1024x256.size a ≤ S8192x256.size a) (i : Fin 8) (hoff : off = ![1024 * i.val, 0])
    (p : Fin 1024) (k : Fin 256) :
    View.ld (Val := Elt Ideal) (e' := .f32) x (Rect.unit (s := S8192x256) off S1024x256.size inb) (ix2 p k)
      = x (ix2 (row i p) k) := by
  subst hoff
  refine congrArg x (funext fun ax => Fin.ext ?_)
  match ax with
  | ⟨0, _⟩ =>
    show 1024 * i.val + 1 * p.val = 1024 * i.val + p.val
    omega
  | ⟨1, _⟩ =>
    show 0 + 1 * k.val = k.val
    omega

/-- When two tiles are the row blocks i and j of the whole array, their tile distance is the array's distance. -/
theorem tdist_of_rows (x : FVec Ideal S8192x256 .f32) (A B : Tile) (i j : Fin 8)
    (hA : ∀ (p : Fin 1024) (k : Fin 256), A (ix2 p k) = x (ix2 (row i p) k))
    (hB : ∀ (q : Fin 1024) (k : Fin 256), B (ix2 q k) = x (ix2 (row j q) k)) (p q : Fin 1024) :
    tdist A B p q = dist x (row i p) (row j q) := by
  unfold tdist MMD.dist sqn gram
  simp only [hA, hB]

/-- (P6) The total of the distance tile of grid point t of region 0 is the sum of the distances over tile t. -/
theorem blk_dist0 (x : FVec Ideal S8192x256 .f32) (t : Fin grid0.N) :
    ∑ p : Fin 1024, ∑ q : Fin 1024, tdist
        (View.ld (Val := Elt Ideal) (e' := .f32) x (Rect.unit (s := S8192x256) (k0_off1 (grid0.coords t)) S1024x256.size (k0_off1_inb (grid0.coords t))))
        (View.ld (Val := Elt Ideal) (e' := .f32) x (Rect.unit (s := S8192x256) (k0_off2 (grid0.coords t)) S1024x256.size (k0_off2_inb (grid0.coords t))))
        p q = blk (dist x) t.val := by
  have ht : t.val < 64 := N0 ▸ t.isLt
  unfold blk
  rw [dif_pos ht]
  refine Finset.sum_congr rfl fun p _ => Finset.sum_congr rfl fun q _ => ?_
  exact tdist_of_rows x _ _ ⟨t.val / 8, by omega⟩ ⟨t.val % 8, by omega⟩
    (fun p k => ld_tile_apply x _ _ ⟨t.val / 8, by omega⟩ (k0_off1_coords t) p k)
    (fun q k => ld_tile_apply x _ _ ⟨t.val % 8, by omega⟩ (k0_off2_coords t) q k) p q

/-- (P6) The same for region 1's distance tile … -/
theorem blk_dist1 (x : FVec Ideal S8192x256 .f32) (t : Fin grid1.N) :
    ∑ p : Fin 1024, ∑ q : Fin 1024, tdist
        (View.ld (Val := Elt Ideal) (e' := .f32) x (Rect.unit (s := S8192x256) (k1_off1 (grid1.coords t)) S1024x256.size (k1_off1_inb (grid1.coords t))))
        (View.ld (Val := Elt Ideal) (e' := .f32) x (Rect.unit (s := S8192x256) (k1_off2 (grid1.coords t)) S1024x256.size (k1_off2_inb (grid1.coords t))))
        p q = blk (dist x) t.val := by
  have ht : t.val < 64 := N1 ▸ t.isLt
  unfold blk
  rw [dif_pos ht]
  refine Finset.sum_congr rfl fun p _ => Finset.sum_congr rfl fun q _ => ?_
  exact tdist_of_rows x _ _ ⟨t.val / 8, by omega⟩ ⟨t.val % 8, by omega⟩
    (fun p k => ld_tile_apply x _ _ ⟨t.val / 8, by omega⟩ (k1_off1_coords t) p k)
    (fun q k => ld_tile_apply x _ _ ⟨t.val % 8, by omega⟩ (k1_off2_coords t) q k) p q

/-- … and for the radial kernel of its distances at any bandwidth w: the total over grid point t's tile is the sum
    of the radial kernel over tile t. -/
theorem blk_rbf1 (x : FVec Ideal S8192x256 .f32) (w : EReal) (t : Fin grid1.N) :
    ∑ p : Fin 1024, ∑ q : Fin 1024, rbf w (tdist
        (View.ld (Val := Elt Ideal) (e' := .f32) x (Rect.unit (s := S8192x256) (k1_off1 (grid1.coords t)) S1024x256.size (k1_off1_inb (grid1.coords t))))
        (View.ld (Val := Elt Ideal) (e' := .f32) x (Rect.unit (s := S8192x256) (k1_off2 (grid1.coords t)) S1024x256.size (k1_off2_inb (grid1.coords t))))
        p q) = blk (fun r c => rbf w (dist x r c)) t.val := by
  have ht : t.val < 64 := N1 ▸ t.isLt
  unfold blk
  rw [dif_pos ht]
  refine Finset.sum_congr rfl fun p _ => Finset.sum_congr rfl fun q _ => congrArg (rbf w) ?_
  exact tdist_of_rows x _ _ ⟨t.val / 8, by omega⟩ ⟨t.val % 8, by omega⟩
    (fun p k => ld_tile_apply x _ _ ⟨t.val / 8, by omega⟩ (k1_off1_coords t) p k)
    (fun q k => ld_tile_apply x _ _ ⟨t.val % 8, by omega⟩ (k1_off2_coords t) q k) p q

end Cert.KernelIdeal.Pay

end
-- ==== Proof.IPayload.lean ====
/-
  What each payload of the two kernel bodies computes, over the extended reals, as equations of functions.
  Region 0 (the bandwidth): a grid point adds the total of its distance tile to the accumulator; the accumulator starts
  at zero; at the last point the bandwidth is the accumulated total over the off-diagonal count, times a quarter.
  Region 1 (the loss): a grid point forms the distance tile, its negation, and the total over the tile of the
  five-scale radial kernel sum_k exp (−d / (w · 2^k)) at the bandwidth w (zero minus d is −d on every extended real);
  the total is added to the accumulator of the tile's quadrant; at the last point the result is
  ((Q1 + Q2) − Q3) − Q4 times the reciprocal of a quadrant's count. The tiles as blocks of the whole array are in the
  sibling module on blocks.
-/
import proofs.«121879_j18313740550844_2_alg».proof.Proof.IPayTile
import proofs.«121879_j18313740550844_2_alg».proof.Proof.IPayBlocks

noncomputable section

namespace Cert.KernelIdeal.Pay

open Cert.KernelIdeal Cert.KernelIdeal.Gen Cert.MMD Idealize.ShloMosaic Idealize.ShloMosaic.ValueIdx
open scoped BigOperators

/-! ## Region 0 -/

/-- (P1) One grid point's contribution to the bandwidth accumulator: the accumulator plus the total of the distance
    tile. -/
theorem k0_pay4_eq (a b : Tile) (s : FVec Ideal S1x1 .f32) :
    k0_pay4 (F := Ideal) a b s = fun _ => s o + ∑ p : Fin 1024, ∑ q : Fin 1024, tdist a b p q := by
  funext j
  obtain rfl : j = o := eq_o j
  unfold k0_pay4
  dsimp only
  rw [addf_apply]
  refine congrArg (s o + ·) ?_
  refine (tile_total_read _).trans ?_
  refine Finset.sum_congr rfl fun p _ => Finset.sum_congr rfl fun q _ => ?_
  exact k1_pay9_apply a b p q

/-- (P2) The accumulator is stored back as it is. -/
theorem k0_pay1_eq (v : FVec Ideal S1x1 .f32) : k0_pay1 (F := Ideal) v = v := by
  unfold k0_pay1
  exact shapeCast_self v _

/-- (P2) The accumulator starts at zero. -/
theorem k0_pay3_eq : k0_pay3 (F := Ideal) = fun _ => (0 : EReal) := by
  funext j
  unfold k0_pay3
  rw [shapeCast_self, broadcast_apply, scalar_ofBits, Ideal.ofBits_zero_f32]

/-- (P2) The bandwidth: the total over the off-diagonal count, times a quarter. -/
theorem k0_pay2_eq (v : FVec Ideal S1x1 .f32) :
    k0_pay2 (F := Ideal) v = fun _ => Ideal.div (v o) cDen * cQuarter := by
  funext j
  obtain rfl : j = o := eq_o j
  unfold k0_pay2
  rw [mulf_apply, divf_apply, broadcast_apply, broadcast_apply, scalar_ofBits, scalar_ofBits]
  rfl

/-! ## Region 1 -/

/-- (P3) Zero minus the distance tile is its negation. -/
theorem k1_pay12_apply (a b : Tile) (p q : Fin 1024) : k1_pay12 (F := Ideal) a b (ix2 p q) = -(tdist a b p q) := by
  unfold k1_pay12
  rw [subf_apply, broadcast_apply, scalar_ofBits, Ideal.ofBits_zero_f32, zero_sub, k1_pay9_apply]

/-- (P3) The bandwidth is passed on as it is. -/
theorem k1_pay10_eq (v : FVec Ideal S1x1 .f32) : k1_pay10 (F := Ideal) v = v := by
  unfold k1_pay10
  exact shapeCast_self v _

/-- (P3) The radial kernel's sum starts at zero. -/
theorem k1_pay11_eq : k1_pay11 (F := Ideal) = fun _ => (0 : EReal) := by
  funext j
  unfold k1_pay11
  rw [broadcast_apply, scalar_ofBits, Ideal.ofBits_zero_f32]

/-- (P3) The first scale is the word of one. -/
theorem k1_pay13_eq : k1_pay13 (F := Ideal) = fun _ => c1 := by
  funext j
  unfold k1_pay13
  rw [broadcast_apply, scalar_ofBits]
  rfl

/-- One term of the radial kernel as the body writes it: the exponential of a numerator tile over the bandwidth
    times a scale. -/
theorem rbf_term_apply (num : FVec Ideal S1024x1024 .f32) (w : FVec Ideal S1x1 .f32) (sc : FVec Ideal S1x1 .f32)
    (p q : Fin 1024) :
    exp (F := Ideal) (divf num (broadcastTo S1024x1024 (mulf w sc) broadcasts_S1x1_S1024x1024)) (ix2 p q)
      = Ideal.exp (Ideal.div (num (ix2 p q)) (w o * sc o)) := by
  show FloatOps.exp _ = _
  rw [Ideal.exp_def, divf_apply, bcast_one_read, mulf_apply]

/-- (P5) The four quadrant accumulators are set to zero at the first grid point. -/
theorem k1_pay5_eq : k1_pay5 (F := Ideal) = fun _ => (0 : EReal) := by
  funext j
  unfold k1_pay5
  rw [shapeCast_self, broadcast_apply, scalar_ofBits, Ideal.ofBits_zero_f32]
theorem k1_pay6_eq : k1_pay6 (F := Ideal) = fun _ => (0 : EReal) := by
  funext j
  unfold k1_pay6
  rw [shapeCast_self, broadcast_apply, scalar_ofBits, Ideal.ofBits_zero_f32]
theorem k1_pay7_eq : k1_pay7 (F := Ideal) = fun _ => (0 : EReal) := by
  funext j
  unfold k1_pay7
  rw [shapeCast_self, broadcast_apply, scalar_ofBits, Ideal.ofBits_zero_f32]
theorem k1_pay8_eq : k1_pay8 (F := Ideal) = fun _ => (0 : EReal) := by
  funext j
  unfold k1_pay8
  rw [shapeCast_self, broadcast_apply, scalar_ofBits, Ideal.ofBits_zero_f32]

/-- (P5) A quadrant accumulator plus the tile's total. -/
theorem k1_pay1_eq (v80 v104 : FVec Ideal S1x1 .f32) : k1_pay1 (F := Ideal) v80 v104 = fun _ => v104 o + v80 o := by
  funext j
  obtain rfl : j = o := eq_o j
  unfold k1_pay1
  rw [shapeCast_self, addf_apply]
theorem k1_pay2_eq (v80 v104 : FVec Ideal S1x1 .f32) : k1_pay2 (F := Ideal) v80 v104 = fun _ => v104 o + v80 o := by
  funext j
  obtain rfl : j = o := eq_o j
  unfold k1_pay2
  rw [shapeCast_self, addf_apply]
theorem k1_pay3_eq (v80 v104 : FVec Ideal S1x1 .f32) : k1_pay3 (F := Ideal) v80 v104 = fun _ => v104 o + v80 o := by
  funext j
  obtain rfl : j = o := eq_o j
  unfold k1_pay3
  rw [shapeCast_self, addf_apply]

/-- (P5) The result: the two diagonal quadrant totals minus the two off-diagonal ones, times the reciprocal of a
    quadrant's count. -/
theorem k1_pay4_eq (v104 v105 v107 v109 : FVec Ideal S1x1 .f32) :
    k1_pay4 (F := Ideal) v104 v105 v107 v109 = fun _ => (((v104 o + v105 o) - v107 o) - v109 o) * cMinv := by
  funext j
  obtain rfl : j = o := eq_o j
  unfold k1_pay4
  rw [mulf_apply, subf_apply, subf_apply, addf_apply, broadcast_apply, scalar_ofBits]
  rfl

/-- The radial-kernel total of a tile body, for any inputs: the double sum over the tile of the starting value plus
    the five exponentials, the first over its own numerator and scale, the other four over zero minus the distance
    tile and the scales 2, 4, 8, 16. -/
theorem k1_pay14_apply (v33 : FVec Ideal S1024x1024 .f32) (v35 : FVec Ideal S1x1 .f32) (v36 v38 : FVec Ideal S1024x1024 .f32)
    (v39 : FVec Ideal S1x1 .f32) :
    k1_pay14 (F := Ideal) v33 v35 v36 v38 v39 o = ∑ p : Fin 1024, ∑ q : Fin 1024,
      (((((v36 (ix2 p q) + Ideal.exp (Ideal.div (v38 (ix2 p q)) (v35 o * v39 o)))
        + Ideal.exp (Ideal.div (-(v33 (ix2 p q))) (v35 o * c2)))
        + Ideal.exp (Ideal.div (-(v33 (ix2 p q))) (v35 o * c4)))
        + Ideal.exp (Ideal.div (-(v33 (ix2 p q))) (v35 o * c8)))
        + Ideal.exp (Ideal.div (-(v33 (ix2 p q))) (v35 o * c16))) := by
  unfold k1_pay14
  dsimp only
  refine (tile_total_read _).trans ?_
  refine Finset.sum_congr rfl fun p _ => Finset.sum_congr rfl fun q _ => ?_
  simp only [addf_apply, subf_apply, rbf_term_apply, broadcast_apply, scalar_ofBits, Ideal.ofBits_zero_f32, zero_sub]
  rfl

/-- (P4) With the payloads of the first part as inputs — the distance tile, the bandwidth w, zero, the negated
    distance tile and the scale one — the total is the sum over the tile of the five-scale radial kernel. -/
theorem k1_pay14_eq (a b : Tile) (w : FVec Ideal S1x1 .f32) :
    k1_pay14 (F := Ideal) (k1_pay9 a b) (k1_pay10 w) k1_pay11 (k1_pay12 a b) k1_pay13
      = fun _ => ∑ p : Fin 1024, ∑ q : Fin 1024, rbf (w o) (tdist a b p q) := by
  funext j
  obtain rfl : j = o := eq_o j
  rw [k1_pay14_apply]
  refine Finset.sum_congr rfl fun p _ => Finset.sum_congr rfl fun q _ => ?_
  rw [k1_pay9_apply, k1_pay12_apply, k1_pay10_eq, k1_pay11_eq, k1_pay13_eq]
  rfl

/-- (P5) The first quadrant's accumulator plus the tile's total. -/
theorem k1_pay15_eq (v33 : FVec Ideal S1024x1024 .f32) (v35 : FVec Ideal S1x1 .f32) (v36 v38 : FVec Ideal S1024x1024 .f32)
    (v39 v104 : FVec Ideal S1x1 .f32) :
    k1_pay15 (F := Ideal) v33 v35 v36 v38 v39 v104 = fun _ => v104 o + k1_pay14 (F := Ideal) v33 v35 v36 v38 v39 o := by
  funext j
  obtain rfl : j = o := eq_o j
  unfold k1_pay15
  rw [shapeCast_self, addf_apply]

end Cert.KernelIdeal.Pay

end
-- ==== Proof.IVal0.lean ====
/-
  The first region at the extended reals: one step of its accumulator adds the sum, over the point's 1024 × 1024 tile, of the
  clamped squared distances of the stacked samples' rows; so after the 64 points it holds the sum over all tiles, and the
  region leaves in its one-word output array that total divided by the off-diagonal count and quartered: the bandwidth.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121879_j18313740550844_2_alg».proof.Proof.IAcc0
import proofs.«121879_j18313740550844_2_alg».proof.Proof.IPayload
import proofs.«121879_j18313740550844_2_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MMD Cert.KernelIdeal.Pay

section Region0
variable (V : (c : Dev nD) → (b : Ref sig .tc) → Buf (Elt Ideal) ((c : Thread nD τ).loc b))

/-- One step at the extended reals: the carried word plus the sum of the squared distances over the point's tile. -/
theorem step0_ideal (t : Fin cfg0.N) (x : FVec Ideal S8192x256 .f32) (s : FVec Ideal S1x1 .f32) :
    step0 (F := Ideal) (grid0.coords t) x s = fun _ => s o + blk (dist x) t.val := by
  unfold step0
  rw [k0_pay1_eq, k0_pay4_eq]
  funext _
  exact congrArg (s o + ·) (blk_dist0 x t)

/-- After position `n` the accumulator holds the sum of the first `n + 1` tiles' sums, added in order from zero. -/
theorem acc0_ideal (c : Dev nD) : ∀ (n : ℕ) (hn : n < cfg0.N),
    (outsAt0 V c n hn).2 = fun _ => accQ (fun _ => True) (blk (dist (V c main_v16))) (n + 1)
  | 0, hn => by
    rw [outsAt0_zero, iblk0_0_eq, step0_ideal ⟨0, hn⟩, k0_pay3_eq]
    funext _
    exact (if_pos trivial).symm
  | n + 1, hn => by
    rw [outsAt0_succ, iblk0_0_eq, step0_ideal ⟨n + 1, hn⟩, acc0_ideal c n (Nat.lt_of_succ_lt hn)]
    funext _
    exact (if_pos trivial).symm

/-- The output window's buffer after the last point: the bandwidth. -/
theorem out0_ideal (c : Dev nD) (hn : 62 + 1 < cfg0.N) :
    (outsAt0 V c (62 + 1) hn).1 = fun _ => kerBw (V c main_v16) := by
  rw [outsAt0_last, k0_pay2_eq, acc0_ideal]
  rfl

/-- THE OUTPUT ARRAY of the first region: the bandwidth. -/
theorem arr0_ideal (c : Dev nD) : (dat0 V c).arrAt 1 cfg0.N = fun _ => kerBw (V c main_v16) := by
  have h63 : 62 + 1 < cfg0.N := by have : cfg0.N = 64 := N_0; omega
  rw [arrAt0_1 V c h63]
  exact out0_ideal V c h63

end Region0

end Cert.KernelIdeal.Hand

end
-- ==== Proof.IAcc1Eqs.lean ====
/-
  The pieces the second region's body stores, opened to the body's payload terms, case by case: the tile's radial-kernel
  total added to the carried word of the tile's quadrant, the first point starting from the zeros it has just stored, the
  last point also combining the four accumulators into the output window.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import proofs.«121879_j18313740550844_2_alg».proof.Proof.IRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-- The two tiles of rows a point reads. -/
abbrev rA1 (i : grid1.Coords) : Rect S8192x256 := Rect.unit (s := S8192x256) (k1_off1 i) S1024x256.size (k1_off1_inb i)
abbrev rB1 (i : grid1.Coords) : Rect S8192x256 := Rect.unit (s := S8192x256) (k1_off2 i) S1024x256.size (k1_off2_inb i)

/-- The radial-kernel total of the point's tile, from the samples and the bandwidth word. -/
def tot1 (i : grid1.Coords) (x0 : Vec F S8192x256 .f32) (x1 : Vec F S1x1 .f32) : Vec F S1x1 .f32 :=
  k1_pay14 (k1_pay9 (View.ld x0 (rA1 i)) (View.ld x0 (rB1 i))) (k1_pay10 x1) k1_pay11 (k1_pay12 (View.ld x0 (rA1 i)) (View.ld x0 (rB1 i))) k1_pay13

/-- One step of the first accumulator: the tile's total added to what it held. -/
def step1_0 (i : grid1.Coords) (x0 : Vec F S8192x256 .f32) (x1 : Vec F S1x1 .f32) (s : Vec F S1x1 .f32) : Vec F S1x1 .f32 :=
  k1_pay15 (k1_pay9 (View.ld x0 (rA1 i)) (View.ld x0 (rB1 i))) (k1_pay10 x1) k1_pay11 (k1_pay12 (View.ld x0 (rA1 i)) (View.ld x0 (rB1 i))) k1_pay13 s

/-- At the first point the first accumulator is zeroed, read back, and stepped; -/
theorem sout1_A_0_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) :
    sout1_A_0 c i arg2 harg2 arg3 harg3 arg4 harg4 arg5 harg5 arg6 harg6 arg7 harg7 arg8 harg8 hc0 hc1 hc2 hc3 hc4 hc5 x0 x1 = step1_0 i x0 x1 k1_pay5 := by
  unfold sout1_A_0
  rw [View.read_writes_eq_canon _ _ _ (scover1_A_0 c i arg2 harg2 arg3 harg3 arg4 harg4 arg5 harg5 arg6 harg6 arg7 harg7 arg8 harg8 hc0 hc1 hc2 hc3 hc4 hc5 x0 x1)]
  unfold kernelRun1_A; dsimp only
  sl_unfold_run_names
  rw [View.canon_cons_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- the other three are zeroed. -/
theorem sout1_A_1_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) :
    sout1_A_1 c i arg2 harg2 arg3 harg3 arg4 harg4 arg5 harg5 arg6 harg6 arg7 harg7 arg8 harg8 hc0 hc1 hc2 hc3 hc4 hc5 x0 x1 = k1_pay6 := by
  unfold sout1_A_1
  rw [View.read_writes_eq_canon _ _ _ (scover1_A_1 c i arg2 harg2 arg3 harg3 arg4 harg4 arg5 harg5 arg6 harg6 arg7 harg7 arg8 harg8 hc0 hc1 hc2 hc3 hc4 hc5 x0 x1)]
  unfold kernelRun1_A; dsimp only
  sl_unfold_run_names
  rw [View.canon_unit_zero hz2']

theorem sout1_A_2_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) :
    sout1_A_2 c i arg2 harg2 arg3 harg3 arg4 harg4 arg5 harg5 arg6 harg6 arg7 harg7 arg8 harg8 hc0 hc1 hc2 hc3 hc4 hc5 x0 x1 = k1_pay7 := by
  unfold sout1_A_2
  rw [View.read_writes_eq_canon _ _ _ (scover1_A_2 c i arg2 harg2 arg3 harg3 arg4 harg4 arg5 harg5 arg6 harg6 arg7 harg7 arg8 harg8 hc0 hc1 hc2 hc3 hc4 hc5 x0 x1)]
  unfold kernelRun1_A; dsimp only
  sl_unfold_run_names
  rw [View.canon_unit_zero hz2']

theorem sout1_A_3_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) :
    sout1_A_3 c i arg2 harg2 arg3 harg3 arg4 harg4 arg5 harg5 arg6 harg6 arg7 harg7 arg8 harg8 hc0 hc1 hc2 hc3 hc4 hc5 x0 x1 = k1_pay8 := by
  unfold sout1_A_3
  rw [View.read_writes_eq_canon _ _ _ (scover1_A_3 c i arg2 harg2 arg3 harg3 arg4 harg4 arg5 harg5 arg6 harg6 arg7 harg7 arg8 harg8 hc0 hc1 hc2 hc3 hc4 hc5 x0 x1)]
  unfold kernelRun1_A; dsimp only
  sl_unfold_run_names
  rw [View.canon_unit_zero hz2']

/-- At a later point of the first quadrant the first accumulator is stepped from what the point before left. -/
theorem sout1_Bxx_0_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (hc2 : ¬cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) :
    sout1_Bxx_0 c i arg2 harg2 arg3 harg3 arg4 harg4 arg5 harg5 arg6 harg6 arg7 harg7 arg8 harg8 hc0 hc1 hc2 hc3 hc4 hc5 x0 x1 xs0 xs1 xs2 xs3 = step1_0 i x0 x1 xs0 := by
  unfold sout1_Bxx_0
  rw [View.read_writes_eq_canon _ _ _ (scover1_Bxx_0 c i arg2 harg2 arg3 harg3 arg4 harg4 arg5 harg5 arg6 harg6 arg7 harg7 arg8 harg8 hc0 hc1 hc2 hc3 hc4 hc5 x0 x1 xs0 xs1 xs2 xs3)]
  unfold kernelRun1_Bxx; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- At a point of low rows and high columns the third accumulator receives the tile's total. -/
theorem sout1_Bxy_2_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : cond1_2 i) (hc3 : ¬cond1_3 i) (hc4 : ¬cond1_4 i) (hc5 : ¬cond1_5 i) (x0 : Vec F S8192x256 .f32) (x1 : Vec F S1x1 .f32) (xs0 xs1 xs2 xs3 : Vec F S1x1 .f32) :
    sout1_Bxy_2 c i arg2 harg2 arg3 harg3 arg4 harg4 arg5 harg5 arg6 harg6 arg7 harg7 arg8 harg8 hc0 hc1 hc2 hc3 hc4 hc5 x0 x1 xs0 xs1 xs2 xs3 = k1_pay1 (tot1 i x0 x1) xs2 := by
  unfold sout1_Bxy_2
  rw [View.read_writes_eq_canon _ _ _ (scover1_Bxy_2 c i arg2 harg2 arg3 harg3 arg4 harg4 arg5 harg5 arg6 harg6 arg7 harg7 arg8 harg8 hc0 hc1 hc2 hc3 hc4 hc5 x0 x1 xs0 xs1 xs2 xs3)]
  unfold kernelRun1_Bxy; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- At a point of high rows and low columns the fourth does. -/
theorem sout1_Byx_3_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : cond1_3 i) (hc4 : ¬cond1_4 i) (hc5 : ¬cond1_5 i) (x0 : Vec F S8192x256 .f32) (x1 : Vec F S1x1 .f32) (xs0 xs1 xs2 xs3 : Vec F S1x1 .f32) :
    sout1_Byx_3 c i arg2 harg2 arg3 harg3 arg4 harg4 arg5 harg5 arg6 harg6 arg7 harg7 arg8 harg8 hc0 hc1 hc2 hc3 hc4 hc5 x0 x1 xs0 xs1 xs2 xs3 = k1_pay2 (tot1 i x0 x1) xs3 := by
  unfold sout1_Byx_3
  rw [View.read_writes_eq_canon _ _ _ (scover1_Byx_3 c i arg2 harg2 arg3 harg3 arg4 harg4 arg5 harg5 arg6 harg6 arg7 harg7 arg8 harg8 hc0 hc1 hc2 hc3 hc4 hc5 x0 x1 xs0 xs1 xs2 xs3)]
  unfold kernelRun1_Byx; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- At a point of the last quadrant the second does, -/
theorem sout1_Byy_1_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : ¬cond1_5 i) (x0 : Vec F S8192x256 .f32) (x1 : Vec F S1x1 .f32) (xs0 xs1 xs2 xs3 : Vec F S1x1 .f32) :
    sout1_Byy_1 c i arg2 harg2 arg3 harg3 arg4 harg4 arg5 harg5 arg6 harg6 arg7 harg7 arg8 harg8 hc0 hc1 hc2 hc3 hc4 hc5 x0 x1 xs0 xs1 xs2 xs3 = k1_pay3 (tot1 i x0 x1) xs1 := by
  unfold sout1_Byy_1
  rw [View.read_writes_eq_canon _ _ _ (scover1_Byy_1 c i arg2 harg2 arg3 harg3 arg4 harg4 arg5 harg5 arg6 harg6 arg7 harg7 arg8 harg8 hc0 hc1 hc2 hc3 hc4 hc5 x0 x1 xs0 xs1 xs2 xs3)]
  unfold kernelRun1_Byy; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- at the last point too, -/
theorem sout1_C_1_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) :
    sout1_C_1 c i arg2 harg2 arg3 harg3 arg4 harg4 arg5 harg5 arg6 harg6 arg7 harg7 arg8 harg8 hc0 hc1 hc2 hc3 hc4 hc5 x0 x1 xs0 xs1 xs2 xs3 = k1_pay3 (tot1 i x0 x1) xs1 := by
  unfold sout1_C_1
  rw [View.read_writes_eq_canon _ _ _ (scover1_C_1 c i arg2 harg2 arg3 harg3 arg4 harg4 arg5 harg5 arg6 harg6 arg7 harg7 arg8 harg8 hc0 hc1 hc2 hc3 hc4 hc5 x0 x1 xs0 xs1 xs2 xs3)]
  unfold kernelRun1_C; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

/-- and there the output window receives the combination of the four. -/
theorem out1_C_2_eq (c : Dev nD) (i : grid1.Coords) (arg2 : Memref sig .tc .vmem S8192x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (hc2 : ¬cond1_2 i) (hc3 : ¬cond1_3 i) (hc4 : cond1_4 i) (hc5 : cond1_5 i) (x0 : Vec F S8192x256 .f32) (x1 : Vec F S1x1 .f32) (xs0 xs1 xs2 xs3 : Vec F S1x1 .f32) :
    out1_C_2 c i arg2 harg2 arg3 harg3 arg4 harg4 arg5 harg5 arg6 harg6 arg7 harg7 arg8 harg8 hc0 hc1 hc2 hc3 hc4 hc5 x0 x1 xs0 xs1 xs2 xs3 = k1_pay4 xs0 (k1_pay3 (tot1 i x0 x1) xs1) xs2 xs3 := by
  unfold out1_C_2
  rw [View.read_writes_eq_canon _ _ _ (cover1_C_2 c i arg2 harg2 arg3 harg3 arg4 harg4 arg5 harg5 arg6 harg6 arg7 harg7 arg8 harg8 hc0 hc1 hc2 hc3 hc4 hc5 x0 x1 xs0 xs1 xs2 xs3)]
  unfold kernelRun1_C; dsimp only
  sl_unfold_run_names
  rw [View.canon_unit_zero hz2']
  simp only [View.readAt_eq_ld, harg2.read_unread, harg3.read_unread, harg5.read_unread, harg6.read_unread, harg7.read_unread, harg8.read_unread, View.readCov_unit_zero (S := S1x1) arg5.view hz2', View.readCov_unit_zero (S := S1x1) arg6.view hz2', View.readCov_unit_zero (S := S1x1) arg7.view hz2', View.readCov_unit_zero (S := S1x1) arg8.view hz2', View.ld_unit_zero (S := S1x1) hz2']
  rfl

end Cert.KernelIdeal.Hand

end
-- ==== Proof.IAcc1.lean ====
/-
  What the second region's four accumulators hold, read as one step per grid point from the stored pieces' payload terms,
  the two input windows' blocks as the whole arrays, and the one-word output array after the region as what the last point
  left.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import proofs.«121879_j18313740550844_2_alg».proof.Proof.IAcc1Eqs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first component of a tuple headed by a combination of the other four is that combination of its components. -/
theorem tuple_last1 {α : Type} (f : α → α → α → α → α) (a b c d : α) :
    ((f a b c d, a, b, c, d) : α × α × α × α × α).1
      = f (f a b c d, a, b, c, d).2.1 (f a b c d, a, b, c, d).2.2.1 (f a b c d, a, b, c, d).2.2.2.1 (f a b c d, a, b, c, d).2.2.2.2 := rfl

section Region1
variable (V : (c : Dev nD) → (b : Ref sig .tc) → Buf (Elt F) ((c : Thread nD τ).loc b))

/-- The accumulation, step by step: after the first point, -/
theorem outsAt1_zero (c : Dev nD) (hn : 0 < cfg1.N) :
    outsAt1 V c 0 hn = (VO1_2.read (Elt F) VO1_2.junk, step1_0 (grid1.coords ⟨0, hn⟩) (iblk1 V c 0 ⟨0, hn⟩) (iblk1 V c 1 ⟨0, hn⟩) k1_pay5, k1_pay6, k1_pay7, k1_pay8) := by
  refine (outsAt1_A V c ⟨0, hn⟩ rfl).trans ?_
  rw [sout1_A_0_eq, sout1_A_1_eq, sout1_A_2_eq, sout1_A_3_eq]

/-- after a later point of the first quadrant, -/
theorem outsAt1_succ_Bxx (c : Dev nD) (n : ℕ) (hn : n + 1 < cfg1.N) (h : (n + 1) / 8 < 4 ∧ (n + 1) % 8 < 4) :
    outsAt1 V c (n + 1) hn = (VO1_2.read (Elt F) VO1_2.junk,
      step1_0 (grid1.coords ⟨n + 1, hn⟩) (iblk1 V c 0 ⟨n + 1, hn⟩) (iblk1 V c 1 ⟨n + 1, hn⟩) (outsAt1 V c n (Nat.lt_of_succ_lt hn)).2.1,
      (outsAt1 V c n (Nat.lt_of_succ_lt hn)).2.2.1,
      (outsAt1 V c n (Nat.lt_of_succ_lt hn)).2.2.2.1,
      (outsAt1 V c n (Nat.lt_of_succ_lt hn)).2.2.2.2) := by
  refine (outsAt1_Bxx V c ⟨n + 1, hn⟩ ⟨Nat.succ_ne_zero n, h.1, h.2⟩).trans ?_
  rw [sout1_Bxx_0_eq]
  rfl

/-- after a point of low rows and high columns, -/
theorem outsAt1_succ_Bxy (c : Dev nD) (n : ℕ) (hn : n + 1 < cfg1.N) (h : (n + 1) / 8 < 4 ∧ ¬ (n + 1) % 8 < 4) :
    outsAt1 V c (n + 1) hn = (VO1_2.read (Elt F) VO1_2.junk,
      (outsAt1 V c n (Nat.lt_of_succ_lt hn)).2.1,
      (outsAt1 V c n (Nat.lt_of_succ_lt hn)).2.2.1,
      k1_pay1 (tot1 (grid1.coords ⟨n + 1, hn⟩) (iblk1 V c 0 ⟨n + 1, hn⟩) (iblk1 V c 1 ⟨n + 1, hn⟩)) (outsAt1 V c n (Nat.lt_of_succ_lt hn)).2.2.2.1,
      (outsAt1 V c n (Nat.lt_of_succ_lt hn)).2.2.2.2) := by
  refine (outsAt1_Bxy V c ⟨n + 1, hn⟩ h).trans ?_
  rw [sout1_Bxy_2_eq]
  rfl

/-- after a point of high rows and low columns, -/
theorem outsAt1_succ_Byx (c : Dev nD) (n : ℕ) (hn : n + 1 < cfg1.N) (h : ¬ (n + 1) / 8 < 4 ∧ (n + 1) % 8 < 4) :
    outsAt1 V c (n + 1) hn = (VO1_2.read (Elt F) VO1_2.junk,
      (outsAt1 V c n (Nat.lt_of_succ_lt hn)).2.1,
      (outsAt1 V c n (Nat.lt_of_succ_lt hn)).2.2.1,
      (outsAt1 V c n (Nat.lt_of_succ_lt hn)).2.2.2.1,
      k1_pay2 (tot1 (grid1.coords ⟨n + 1, hn⟩) (iblk1 V c 0 ⟨n + 1, hn⟩) (iblk1 V c 1 ⟨n + 1, hn⟩)) (outsAt1 V c n (Nat.lt_of_succ_lt hn)).2.2.2.2) := by
  refine (outsAt1_Byx V c ⟨n + 1, hn⟩ h).trans ?_
  rw [sout1_Byx_3_eq]
  rfl

/-- after a point of the last quadrant before the last, -/
theorem outsAt1_succ_Byy (c : Dev nD) (n : ℕ) (hn : n + 1 < cfg1.N) (h : (n + 1) ≠ 63 ∧ ¬ (n + 1) / 8 < 4 ∧ ¬ (n + 1) % 8 < 4) :
    outsAt1 V c (n + 1) hn = (VO1_2.read (Elt F) VO1_2.junk,
      (outsAt1 V c n (Nat.lt_of_succ_lt hn)).2.1,
      k1_pay3 (tot1 (grid1.coords ⟨n + 1, hn⟩) (iblk1 V c 0 ⟨n + 1, hn⟩) (iblk1 V c 1 ⟨n + 1, hn⟩)) (outsAt1 V c n (Nat.lt_of_succ_lt hn)).2.2.1,
      (outsAt1 V c n (Nat.lt_of_succ_lt hn)).2.2.2.1,
      (outsAt1 V c n (Nat.lt_of_succ_lt hn)).2.2.2.2) := by
  refine (outsAt1_Byy V c ⟨n + 1, hn⟩ h).trans ?_
  rw [sout1_Byy_1_eq]
  rfl

/-- after the last point, -/
theorem outsAt1_succ_C (c : Dev nD) (n : ℕ) (hn : n + 1 < cfg1.N) (h : n + 1 = 63) :
    outsAt1 V c (n + 1) hn = (k1_pay4 (outsAt1 V c n (Nat.lt_of_succ_lt hn)).2.1 (k1_pay3 (tot1 (grid1.coords ⟨n + 1, hn⟩) (iblk1 V c 0 ⟨n + 1, hn⟩) (iblk1 V c 1 ⟨n + 1, hn⟩)) (outsAt1 V c n (Nat.lt_of_succ_lt hn)).2.2.1) (outsAt1 V c n (Nat.lt_of_succ_lt hn)).2.2.2.1 (outsAt1 V c n (Nat.lt_of_succ_lt hn)).2.2.2.2,
      (outsAt1 V c n (Nat.lt_of_succ_lt hn)).2.1,
      k1_pay3 (tot1 (grid1.coords ⟨n + 1, hn⟩) (iblk1 V c 0 ⟨n + 1, hn⟩) (iblk1 V c 1 ⟨n + 1, hn⟩)) (outsAt1 V c n (Nat.lt_of_succ_lt hn)).2.2.1,
      (outsAt1 V c n (Nat.lt_of_succ_lt hn)).2.2.2.1,
      (outsAt1 V c n (Nat.lt_of_succ_lt hn)).2.2.2.2) := by
  refine (outsAt1_C V c ⟨n + 1, hn⟩ h).trans ?_
  rw [out1_C_2_eq, sout1_C_1_eq]
  rfl

/-- What the output window's buffer holds after the last point, from the four accumulators there. -/
theorem outsAt1_last (c : Dev nD) (hn : 62 + 1 < cfg1.N) :
    (outsAt1 V c (62 + 1) hn).1 = k1_pay4 (outsAt1 V c (62 + 1) hn).2.1 (outsAt1 V c (62 + 1) hn).2.2.1 (outsAt1 V c (62 + 1) hn).2.2.2.1 (outsAt1 V c (62 + 1) hn).2.2.2.2 := by
  exact Eq.mpr (congrArg (fun X : Vec F S1x1 .f32 × Vec F S1x1 .f32 × Vec F S1x1 .f32 × Vec F S1x1 .f32 × Vec F S1x1 .f32 => X.1 = k1_pay4 X.2.1 X.2.2.1 X.2.2.2.1 X.2.2.2.2) (outsAt1_succ_C V c 62 hn rfl)) (tuple_last1 (fun a b c d => k1_pay4 a b c d) _ _ _ _)

end Region1

section Region1b
variable (V : (c : Dev nD) → (b : Ref sig .tc) → Buf (Elt F) ((c : Thread nD τ).loc b))

/-- All three windows of the region have one block: their index maps are constantly zero. -/
theorem idx1_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The first input window's block is the whole array of samples. -/
theorem iblk1_0_eq (c : Dev nD) (t : Fin cfg1.N) :
    iblk1 V c 0 t = (V c main_v16 : S8192x256.Idx → Elt F .f32) := by
  funext y
  show V c main_v16 (((cfg1.win 0).blk t).view.emb y) = V c main_v16 y
  obtain ⟨e0, e1, -, -, -, -⟩ := idx1_zero t
  refine congrArg _ ?_
  funext a; apply Fin.ext
  match a with
  | ⟨0, _⟩ => show win1_0.index t (0 : Fin 2) * 8192 + 1 * (y 0).val = (y 0).val; omega
  | ⟨1, _⟩ => show win1_0.index t (1 : Fin 2) * 256 + 1 * (y 1).val = (y 1).val; omega

/-- The second's is the one-word array of the bandwidth. -/
theorem iblk1_1_eq (c : Dev nD) (t : Fin cfg1.N) :
    iblk1 V c 1 t = (V c main_v17 : S1x1.Idx → Elt F .f32) := by
  funext y
  show V c main_v17 (((cfg1.win 1).blk t).view.emb y) = V c main_v17 y
  obtain ⟨-, -, e0, e1, -, -⟩ := idx1_zero t
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 1 + 1 * (y 1).val = (y 1).val; omega

/-- An index of the one-word output array is in the one block. -/
theorem mem_blk1_2 (t : Fin cfg1.N) (i : S1x1.Idx) : i ∈ ((cfg1.win 2).blk t).view.set := by
  show i ∈ ((View.whole main_v18).slice (win1_2.rect t)).set
  rw [View.set_slice_whole, Rect.mem_set_unit]
  obtain ⟨-, -, -, -, e0, e1⟩ := idx1_zero t
  intro a
  match a with
  | ⟨0, _⟩ => show win1_2.index t (0 : Fin 2) * 1 ≤ (i 0).val ∧ (i 0).val < win1_2.index t (0 : Fin 2) * 1 + 1; have hi : (i 0).val < 1 := (i 0).isLt; omega
  | ⟨1, _⟩ => show win1_2.index t (1 : Fin 2) * 1 ≤ (i 1).val ∧ (i 1).val < win1_2.index t (1 : Fin 2) * 1 + 1; have hi : (i 1).val < 1 := (i 1).isLt; omega

/-- The one block read off an array of one word is the array. -/
theorem read_blk1_2 (t : Fin cfg1.N) (G : S1x1.Idx → Elt F .f32) :
    ((cfg1.win 2).blk t).view.read (Elt F) G = G := by
  funext y
  show G (((cfg1.win 2).blk t).view.emb y) = G y
  obtain ⟨-, -, -, -, e0, e1⟩ := idx1_zero t
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 1 + 1 * (y 1).val = (y 1).val; omega

end Region1b

section Region1c
variable (V : (c : Dev nD) → (b : Ref sig .tc) → Buf (Elt F) ((c : Thread nD τ).loc b))

/-- The output window's block at the last point is not cut. -/
theorem cut1_2_last (hn : 63 < cfg1.N) (X : S1x1.Idx → Elt F .f32) :
    (cfg1.win 2).cut (grid1.coords ⟨63, hn⟩) X = X := rfl

/-- For any proof data of the region, the one-word output array ends holding what the data says the last point left in
    the window's buffer. -/
theorem arrAt1_2_of (c : Dev nD) (dat : Dat τ (Elt F) Unit ℕ (UR sig nD τ) ℕ cfg1 c) (G : S1x1.Idx → Elt F .f32)
    (h63 : 63 < cfg1.N) (hG : dat.after 2 ⟨63, h63⟩ = G) : dat.arrAt 2 cfg1.N = G := by
  refine dat.arrAt_eq_of_cover 2 _ (fun t hf => ?_) (fun i => ⟨⟨63, h63⟩, (flush1_2 ⟨63, h63⟩).mpr rfl, mem_blk1_2 _ i⟩)
  rw [read_blk1_2]
  have ht : t.val = 63 := by have := (flush1_2 t).mp hf; have := t.isLt; have hN : cfg1.N = 64 := N_1; omega
  obtain ⟨n, hn⟩ := t
  subst ht
  show (cfg1.win 2).cut (grid1.coords ⟨63, hn⟩) (dat.after 2 ⟨63, hn⟩) = _
  rw [hG]
  exact cut1_2_last hn G

/-- THE OUTPUT ARRAY after the region: what the last point left in the window's buffer. -/
theorem arrAt1_2 (c : Dev nD) (h63 : 63 < cfg1.N) :
    (dat1 V c).arrAt 2 cfg1.N = ((outsAt1 V c 63 h63).1 : S1x1.Idx → Elt F .f32) :=
  arrAt1_2_of c (dat1 V c) (outsAt1 V c 63 h63).1 h63 (after1_2 V c ⟨63, h63⟩)

end Region1c

end Cert.KernelIdeal.Hand

end
-- ==== Proof.IVal1.lean ====
/-
  The second region at the extended reals: the tile's total at a grid point is the sum, over the point's 1024 × 1024 tile, of
  the five-scale radial kernel of the rows' clamped squared distances at the bandwidth the region is handed; each point adds
  it to the accumulator of the tile's quadrant; so after the 64 points the four accumulators hold the four quadrants' sums,
  each added up in the order its tiles are met, and the region leaves in its one-word output array the two diagonal
  quadrants' sums minus the two off-diagonal ones, times the reciprocal of a quadrant's count: the loss.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import proofs.«121879_j18313740550844_2_alg».proof.Proof.IAcc1
import proofs.«121879_j18313740550844_2_alg».proof.Proof.IPayload
import proofs.«121879_j18313740550844_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MMD Cert.KernelIdeal.Pay

/-- The result from the four quadrants' tile sums, at a given bandwidth. -/
def kerOut1 (x : Tot) (bw : EReal) : EReal :=
  (((accQ (fun s => s / 8 < 4 ∧ s % 8 < 4) (blk fun r c => rbf bw (dist x r c)) 64
      + accQ (fun s => ¬ s / 8 < 4 ∧ ¬ s % 8 < 4) (blk fun r c => rbf bw (dist x r c)) 64)
    - accQ (fun s => s / 8 < 4 ∧ ¬ s % 8 < 4) (blk fun r c => rbf bw (dist x r c)) 64)
    - accQ (fun s => ¬ s / 8 < 4 ∧ s % 8 < 4) (blk fun r c => rbf bw (dist x r c)) 64) * cMinv

/-- The specification's result is this one at the specification's bandwidth. -/
example (x : Tot) : Cert.MMD.kerOut x = kerOut1 x (kerBw x) := rfl

/-- The tile sums of the radial kernel at a bandwidth, by step. -/
abbrev g1 (x : Tot) (bw : EReal) : ℕ → EReal := blk fun r c => rbf bw (dist x r c)

section Region1
variable (V : (c : Dev nD) → (b : Ref sig .tc) → Buf (Elt Ideal) ((c : Thread nD τ).loc b))

/-- The tile's total at the extended reals: the sum of the radial kernel of the squared distances over the point's tile. -/
theorem tot1_ideal (t : Fin cfg1.N) (x : FVec Ideal S8192x256 .f32) (w : FVec Ideal S1x1 .f32) :
    tot1 (F := Ideal) (grid1.coords t) x w = fun _ => g1 x (w o) t.val := by
  unfold tot1
  rw [k1_pay14_eq]
  funext _
  exact blk_rbf1 x (w o) t

/-- One step of the first accumulator at the extended reals: the carried word plus the tile's total. -/
theorem step1_0_ideal (t : Fin cfg1.N) (x : FVec Ideal S8192x256 .f32) (w s : FVec Ideal S1x1 .f32) :
    step1_0 (F := Ideal) (grid1.coords t) x w s = fun _ => s o + g1 x (w o) t.val := by
  unfold step1_0
  rw [k1_pay15_eq, k1_pay14_eq]
  funext _
  exact congrArg (s o + ·) (blk_rbf1 x (w o) t)

/-- After position `n` the four accumulators hold their quadrants' sums over the first `n + 1` tiles, each added in order from
    zero: the first quadrant's, the last's, the one of low rows and high columns, the one of high rows and low columns. -/
theorem acc1_ideal (c : Dev nD) : ∀ (n : ℕ) (hn : n < cfg1.N),
    (outsAt1 V c n hn).2 = (fun _ => accQ (fun s => s / 8 < 4 ∧ s % 8 < 4) (g1 (V c main_v16) (V c main_v17 o)) (n + 1), fun _ => accQ (fun s => ¬ s / 8 < 4 ∧ ¬ s % 8 < 4) (g1 (V c main_v16) (V c main_v17 o)) (n + 1), fun _ => accQ (fun s => s / 8 < 4 ∧ ¬ s % 8 < 4) (g1 (V c main_v16) (V c main_v17 o)) (n + 1), fun _ => accQ (fun s => ¬ s / 8 < 4 ∧ s % 8 < 4) (g1 (V c main_v16) (V c main_v17 o)) (n + 1))
  | 0, hn => by
    rw [outsAt1_zero, iblk1_0_eq, iblk1_1_eq, step1_0_ideal ⟨0, hn⟩, k1_pay5_eq, k1_pay6_eq, k1_pay7_eq, k1_pay8_eq]
    refine Prod.ext ?_ (Prod.ext ?_ (Prod.ext ?_ ?_))
    · funext _; rfl
    · funext _; rfl
    · funext _; rfl
    · funext _; rfl
  | n + 1, hn => by
    have ih := acc1_ideal c n (Nat.lt_of_succ_lt hn)
    have i0 := congrArg (fun p => p.1) ih
    have i1 := congrArg (fun p => p.2.1) ih
    have i2 := congrArg (fun p => p.2.2.1) ih
    have i3 := congrArg (fun p => p.2.2.2) ih
    dsimp only at i0 i1 i2 i3
    by_cases hC : n + 1 = 63
    · rw [outsAt1_succ_C V c n hn hC, iblk1_0_eq, iblk1_1_eq, k1_pay3_eq, tot1_ideal ⟨n + 1, hn⟩, i0, i1, i2, i3]
      refine Prod.ext ?_ (Prod.ext ?_ (Prod.ext ?_ ?_))
      · funext _; exact (if_neg (by omega)).symm
      · funext _; exact (if_pos (by omega)).symm
      · funext _; exact (if_neg (by omega)).symm
      · funext _; exact (if_neg (by omega)).symm
    · by_cases hxx : (n + 1) / 8 < 4 ∧ (n + 1) % 8 < 4
      · rw [outsAt1_succ_Bxx V c n hn hxx, iblk1_0_eq, iblk1_1_eq, step1_0_ideal ⟨n + 1, hn⟩, i0, i1, i2, i3]
        refine Prod.ext ?_ (Prod.ext ?_ (Prod.ext ?_ ?_))
        · funext _; exact (if_pos (by omega)).symm
        · funext _; exact (if_neg (by omega)).symm
        · funext _; exact (if_neg (by omega)).symm
        · funext _; exact (if_neg (by omega)).symm
      · by_cases hxy : (n + 1) / 8 < 4 ∧ ¬ (n + 1) % 8 < 4
        · rw [outsAt1_succ_Bxy V c n hn hxy, iblk1_0_eq, iblk1_1_eq, k1_pay1_eq, tot1_ideal ⟨n + 1, hn⟩, i0, i1, i2, i3]
          refine Prod.ext ?_ (Prod.ext ?_ (Prod.ext ?_ ?_))
          · funext _; exact (if_neg (by omega)).symm
          · funext _; exact (if_neg (by omega)).symm
          · funext _; exact (if_pos (by omega)).symm
          · funext _; exact (if_neg (by omega)).symm
        · by_cases hyx : ¬ (n + 1) / 8 < 4 ∧ (n + 1) % 8 < 4
          · rw [outsAt1_succ_Byx V c n hn hyx, iblk1_0_eq, iblk1_1_eq, k1_pay2_eq, tot1_ideal ⟨n + 1, hn⟩, i0, i1, i2, i3]
            refine Prod.ext ?_ (Prod.ext ?_ (Prod.ext ?_ ?_))
            · funext _; exact (if_neg (by omega)).symm
            · funext _; exact (if_neg (by omega)).symm
            · funext _; exact (if_neg (by omega)).symm
            · funext _; exact (if_pos (by omega)).symm
          · rw [outsAt1_succ_Byy V c n hn ⟨hC, by omega, by omega⟩, iblk1_0_eq, iblk1_1_eq, k1_pay3_eq, tot1_ideal ⟨n + 1, hn⟩, i0, i1, i2, i3]
            refine Prod.ext ?_ (Prod.ext ?_ (Prod.ext ?_ ?_))
            · funext _; exact (if_neg (by omega)).symm
            · funext _; exact (if_pos (by omega)).symm
            · funext _; exact (if_neg (by omega)).symm
            · funext _; exact (if_neg (by omega)).symm

/-- The output window's buffer after the last point: the loss at the bandwidth the region was handed. -/
theorem out1_ideal (c : Dev nD) (hn : 62 + 1 < cfg1.N) :
    (outsAt1 V c (62 + 1) hn).1 = fun _ => kerOut1 (V c main_v16) (V c main_v17 o) := by
  have h := acc1_ideal V c (62 + 1) hn
  have i0 := congrArg (fun p => p.1) h
  have i1 := congrArg (fun p => p.2.1) h
  have i2 := congrArg (fun p => p.2.2.1) h
  have i3 := congrArg (fun p => p.2.2.2) h
  dsimp only at i0 i1 i2 i3
  rw [outsAt1_last, k1_pay4_eq, i0, i1, i2, i3]
  rfl

/-- THE OUTPUT ARRAY of the second region: the loss at the bandwidth in the region's second input. -/
theorem arr1_ideal (c : Dev nD) : (dat1 V c).arrAt 2 cfg1.N = fun _ => kerOut1 (V c main_v16) (V c main_v17 o) := by
  have h63 : 62 + 1 < cfg1.N := by have : cfg1.N = 64 := N_1; omega
  rw [arrAt1_2 V c h63]
  exact out1_ideal V c h63

end Region1

end Cert.KernelIdeal.Hand

end
-- ==== Proof.IFinal.lean ====
/-
  The kernel program's result at the extended reals: the first region leaves the stacked samples in place and the bandwidth in
  its one-word output array, the second region reads both and leaves the loss, the last host operation drops the unit axes; so
  every run ends with the result buffer at the loss of the stacked samples summed tile by tile.
-/
import proofs.«121879_j18313740550844_2_alg».proof.Proof.Gen.KernelIdeal.Launch
import proofs.«121879_j18313740550844_2_alg».proof.Proof.Gen.KernelIdeal.Skeleton
import proofs.«121879_j18313740550844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121879_j18313740550844_2_alg».proof.Proof.IRun
import proofs.«121879_j18313740550844_2_alg».proof.Proof.IVal0
import proofs.«121879_j18313740550844_2_alg».proof.Proof.IVal1
import proofs.«121879_j18313740550844_2_alg».proof.Proof.IPayload
import proofs.«121879_j18313740550844_2_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MMD Cert.KernelIdeal.Pay

variable (m : (ℓ : Loc nD τ sig) → Buf (Elt Ideal) ℓ) (ρ : Dev nD → PrngReg)

/-- The stacked samples, as the host operations before the first region leave them. -/
def tot (c : Dev nD) : Tot := V1 (F := Ideal) m ρ c main_v16

/-- The first region reads the stacked samples and leaves them; -/
theorem V2_v16 (c : Dev nD) : V2 (F := Ideal) m ρ c main_v16 = tot m ρ c :=
  (W2_arr m ρ c 0).trans (((dat0 (V1 m ρ) c).arrAt_in 0 rfl _).trans (A_eq0 (V1 m ρ) c 0))
/-- it leaves the bandwidth in its output array. -/
theorem V2_v17 (c : Dev nD) : V2 (F := Ideal) m ρ c main_v17 = fun _ => kerBw (tot m ρ c) :=
  (W2_arr m ρ c 1).trans (arr0_ideal (V1 m ρ) c)
/-- The second region leaves the loss in its output array. -/
theorem W3_v18 (c : Dev nD) : W3 (F := Ideal) m ρ c (Proc.devRef .tc main_v18) = fun _ => kerOut (tot m ρ c) := by
  rw [show W3 m ρ c (Proc.devRef .tc main_v18) = (dat1 (V2 m ρ) c).arrAt 2 cfg1.N from W3_arr m ρ c 2, arr1_ideal (V2 m ρ) c, V2_v16, V2_v17]
  rfl
/-- The last host operation drops the two unit axes. -/
theorem W4_v19 (c : Dev nD) : W4 (F := Ideal) m ρ c (Proc.devRef .tc main_v19) = fun _ => kerOut (tot m ρ c) := by
  show StableHlo.after hostOps2 (W3 m ρ c) (Proc.devRef .tc main_v19) = _
  after_results
  rw [W3_v18]
  rfl

/-- THE KERNEL PROGRAM'S RUN at the extended reals: every weakly fair execution terminates, nothing faulting, with the result
    buffer at the loss of the stacked samples summed tile by tile, and the argument arrays as launched. -/
theorem kernelRun : θ_run defs (onTc (τ := τ) (main (F := Ideal))) ⟨m, fun _ => 0, ρ⟩ (fun r => ∀ c : Dev nD,
      r.2.mem ((c.tc : Thread nD τ).loc main_v19) = (fun _ => kerOut (tot m ρ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W4_v19 m ρ c), (h c).2⟩) (valued m ρ)

end Cert.KernelIdeal.Hand

end
-- ==== Proof.RefDist.lean ====
/-
  The first half of the whole-sum reading of the loss: from the stacked samples x (8192 rows of 256 features) to the
  clamped squared distances. Each host operation is read at one index over the extended reals:
  the sum of a row's squares is |x_r|²; the product of x with its transpose at (r, c) is the inner product ⟨x_r, x_c⟩;
  a vector broadcast through a unit column or a unit row reads its row's or its column's entry; so the distance array
  at (r, c) is max (|x_r|² + |x_c|² − 2·⟨x_r, x_c⟩) 0. The initial value of the row sum is the zero word, which reads 0.
-/
import proofs.«121879_j18313740550844_2_alg».proof.Proof.Gen.ReferenceIdeal
import proofs.«121879_j18313740550844_2_alg».proof.Proof.Spec
import Idealize.ShloMosaic.Lib.IdealHost
import Idealize.ShloMosaic.Lib.ValueLayout
import Idealize.ShloMosaic.Lib.StackMember

noncomputable section

namespace Cert.ReferenceIdeal.RefValue

open Cert.ReferenceIdeal Cert.ReferenceIdeal.Gen Cert.MMD Idealize.ShloMosaic Idealize.ShloMosaic.ValueIdx
open scoped BigOperators
/-- A row's sum of squares, read off the host reduction. -/
theorem sqn_read (x : FVec Ideal S8192x256 .f32) (r : Fin 8192) :
    Host.reduceAdd (F := Ideal) (mulf x x) (constant (F := Ideal) S_ .f32 0x00000000#32)
      reducesTo_S8192x256_S8192_d1 h_S_ (ix1 r) = sqn x r := by
  rw [hostReduceAdd_apply]
  refine (Ideal.hostReduceAdd_single reducesTo_S8192x256_S8192_d1
    (by decide : S8192x256.Reduces [1] S8192) _ _ (ix1 r)).trans ?_
  rw [constant_apply, Ideal.ofBits_zero_f32, zero_add]
  unfold sqn
  refine Finset.sum_congr rfl fun k _ => ?_
  rw [mulf_apply]
  have e : (by decide : S8192x256.Reduces [1] S8192).lift (ix1 r) k = ix2 r k := by
    funext a; apply Fin.ext
    match a with
    | ⟨0, _⟩ => rfl
    | ⟨1, _⟩ => rfl
  rw [e]
  rfl

/-- The product of the samples with their transpose, at (r, c), is the inner product of rows r and c. -/
theorem gram_read (x : FVec Ideal S8192x256 .f32) (r c : Fin 8192) :
    Host.dotGeneral (F := Ideal) dot_S8192x256_S256x8192_S8192x8192_1_0_0_1_n_n none x
      (transpose S256x8192 [1, 0] x transposes_S8192x256_S256x8192_1_0) (ix2 r c) = gram x r c := by
  have h := StackMember.dotGeneral_plain_apply (m := 8192) (n := 8192) (k := 256) (φ₁ := .f32) (φ₂ := .f32) none x
    (transpose S256x8192 [1, 0] x transposes_S8192x256_S256x8192_1_0) r c
  refine Eq.trans ?_ (h.trans ?_)
  · rfl
  · unfold gram
    refine Finset.sum_congr rfl fun k _ => ?_
    rw [transpose_ix2_apply]

/-- A vector broadcast down the columns (through a unit column) reads its row's entry. -/
theorem bcast_rows_read (v : FVec Ideal S8192 .f32) (r c : Fin 8192) :
    broadcastInDim S8192x8192 ![0, 1] bcast_S8192x1_S8192x8192_0_1
      (broadcastInDim S8192x1 ![0] bcast_S8192_S8192x1_0 v) (ix2 r c) = v (ix1 r) := by
  refine (broadcastInDim_apply _ _ _ (ix2 r c) (ix2 r (0 : Fin 1)) fun a => ?_).trans ?_
  · match a with
    | ⟨0, _⟩ => rfl
    | ⟨1, _⟩ => rfl
  · exact broadcastInDim_apply _ _ _ (ix2 r (0 : Fin 1)) (ix1 r) fun a => by
      match a with
      | ⟨0, _⟩ => rfl

/-- A vector broadcast along the rows (through a unit row) reads its column's entry. -/
theorem bcast_cols_read (v : FVec Ideal S8192 .f32) (r c : Fin 8192) :
    broadcastInDim S8192x8192 ![0, 1] bcast_S1x8192_S8192x8192_0_1
      (broadcastInDim S1x8192 ![1] bcast_S8192_S1x8192_1 v) (ix2 r c) = v (ix1 c) := by
  refine (broadcastInDim_apply _ _ _ (ix2 r c) (ix2 (0 : Fin 1) c) fun a => ?_).trans ?_
  · match a with
    | ⟨0, _⟩ => rfl
    | ⟨1, _⟩ => rfl
  · exact broadcastInDim_apply _ _ _ (ix2 (0 : Fin 1) c) (ix1 c) fun a => by
      match a with
      | ⟨0, _⟩ => rfl

/-- The clamped squared distance of rows r and c, read off the host operations, for any vector `n` that holds the
    rows' sums of squares. -/
theorem dist_read (x : FVec Ideal S8192x256 .f32) (n : FVec Ideal S8192 .f32) (hn : ∀ r : Fin 8192, n (ix1 r) = sqn x r)
    (r c : Fin 8192) :
    maximumf (subf (addf (broadcastInDim S8192x8192 ![0, 1] bcast_S8192x1_S8192x8192_0_1 (broadcastInDim S8192x1 ![0] bcast_S8192_S8192x1_0 n))
          (broadcastInDim S8192x8192 ![0, 1] bcast_S1x8192_S8192x8192_0_1 (broadcastInDim S1x8192 ![1] bcast_S8192_S1x8192_1 n)))
        (mulf (broadcastInDim S8192x8192 ![] bcast_S_S8192x8192 (constant (F := Ideal) S_ .f32 0x40000000#32))
          (Host.dotGeneral (F := Ideal) dot_S8192x256_S256x8192_S8192x8192_1_0_0_1_n_n none x
            (transpose S256x8192 [1, 0] x transposes_S8192x256_S256x8192_1_0))))
      (broadcastInDim S8192x8192 ![] bcast_S_S8192x8192 (constant (F := Ideal) S_ .f32 0x00000000#32)) (ix2 r c)
      = dist x r c := by
  rw [maximumf_apply, subf_apply, addf_apply, mulf_apply, bcast_rows_read, bcast_cols_read,
    broadcastInDim_scalar_apply, broadcastInDim_scalar_apply, constant_apply, constant_apply, gram_read, hn, hn,
    Ideal.ofBits_zero_f32]
  rfl

end Cert.ReferenceIdeal.RefValue

end
-- ==== Proof.RefKernel.lean ====
/-
  The second half of the whole-sum reading of the loss: from the distance array to the four quadrant means. Each host
  operation is read at one index over the extended reals, for ANY array d that holds the distances (so nothing here
  depends on how they were computed): the bandwidth is the total of d over the off-diagonal count, quartered; the
  radial kernel at (r, c) is the sum over the five scales 1, 2, 4, 8, 16 of exp (−d(r, c) / (bandwidth · scale)),
  added up from zero in that order; a quadrant's mean is the total of the radial kernel over the quadrant's
  4096 × 4096 index pairs, shifted by the quadrant's offsets, over 4096². Each total starts from the zero word, which
  reads 0; every other literal stays the word it is printed with.
-/
import proofs.«121879_j18313740550844_2_alg».proof.Proof.Gen.ReferenceIdeal
import proofs.«121879_j18313740550844_2_alg».proof.Proof.Spec
import Idealize.ShloMosaic.Lib.IdealHost
import Idealize.ShloMosaic.Lib.ValueLayout

noncomputable section

namespace Cert.ReferenceIdeal.RefValue

open Cert.ReferenceIdeal Cert.ReferenceIdeal.Gen Cert.MMD Idealize.ShloMosaic Idealize.ShloMosaic.ValueIdx
open scoped BigOperators
/-- The host's exponential at an index is the ideal exponential of the element. -/
theorem hostExp_apply {s : Shape} {φ : FTy} (a : FVec Ideal s φ) (i : s.Idx) : Host.exp a i = Ideal.exp (a i) := rfl
/-- The host's negation at an index is the negation of the element. -/
theorem hostNegf_apply {s : Shape} {φ : FTy} (a : FVec Ideal s φ) (i : s.Idx) : Host.negf a i = -(a i) := rfl

/-- The bandwidth: the total of the distances over the off-diagonal count, quartered, for any array `d` that holds
    the distances. -/
theorem bw_read (x : FVec Ideal S8192x256 .f32) (d : FVec Ideal S8192x8192 .f32)
    (hd : ∀ r c : Fin 8192, d (ix2 r c) = dist x r c) :
    Host.divf (F := Ideal) (Host.divf (F := Ideal)
        (Host.reduceAdd (F := Ideal) d (constant (F := Ideal) S_ .f32 0x00000000#32) reducesTo_S8192x8192_S_d0_1 h_S_)
        (constant (F := Ideal) S_ .f32 0x4C7FF800#32)) (constant (F := Ideal) S_ .f32 0x40800000#32) ix0 = refBw x := by
  rw [hostDivf_apply, hostDivf_apply, hostReduceAdd_apply,
    Ideal.hostReduceAdd_total reducesTo_S8192x8192_S_d0_1 (fun b => b.elim0),
    constant_apply, constant_apply, constant_apply, Ideal.ofBits_zero_f32]
  unfold refBw cDen c4
  refine congrArg (fun t => Ideal.div (Ideal.div (0 + t) _) _) ?_
  refine Finset.sum_congr rfl fun i _ => ?_
  exact (congrArg d (eq_ix2 i)).trans (hd (i 0) (i 1))

/-- One term of the radial kernel: the exponential of minus the distance over the scaled bandwidth. -/
theorem rbf_term_read (d : FVec Ideal S8192x8192 .f32) (b : FVec Ideal S_ .f32) (w : BitVec 32) (r c : Fin 8192) :
    Host.exp (F := Ideal) (Host.divf (F := Ideal) (Host.negf (F := Ideal) d)
      (broadcastInDim S8192x8192 ![] bcast_S_S8192x8192 (mulf b (constant (F := Ideal) S_ .f32 w)))) (ix2 r c)
      = Ideal.exp (Ideal.div (-(d (ix2 r c))) (b ix0 * Ideal.ofBits .f32 w)) := by
  rw [hostExp_apply, hostDivf_apply, hostNegf_apply, broadcastInDim_scalar_apply, mulf_apply, constant_apply]

/-- The five-bandwidth radial kernel at (r, c), for any array `d` that holds the distances and any scalar `b` that
    holds the bandwidth. -/
theorem rbf_read (x : FVec Ideal S8192x256 .f32) (d : FVec Ideal S8192x8192 .f32) (b : FVec Ideal S_ .f32)
    (hd : ∀ r c : Fin 8192, d (ix2 r c) = dist x r c) (hb : b ix0 = refBw x) (r c : Fin 8192) :
    addf (addf (addf (addf (addf (broadcastInDim S8192x8192 ![] bcast_S_S8192x8192 (constant (F := Ideal) S_ .f32 0x00000000#32))
      (Host.exp (F := Ideal) (Host.divf (F := Ideal) (Host.negf (F := Ideal) d) (broadcastInDim S8192x8192 ![] bcast_S_S8192x8192 (mulf b (constant (F := Ideal) S_ .f32 0x3F800000#32))))))
      (Host.exp (F := Ideal) (Host.divf (F := Ideal) (Host.negf (F := Ideal) d) (broadcastInDim S8192x8192 ![] bcast_S_S8192x8192 (mulf b (constant (F := Ideal) S_ .f32 0x40000000#32))))))
      (Host.exp (F := Ideal) (Host.divf (F := Ideal) (Host.negf (F := Ideal) d) (broadcastInDim S8192x8192 ![] bcast_S_S8192x8192 (mulf b (constant (F := Ideal) S_ .f32 0x40800000#32))))))
      (Host.exp (F := Ideal) (Host.divf (F := Ideal) (Host.negf (F := Ideal) d) (broadcastInDim S8192x8192 ![] bcast_S_S8192x8192 (mulf b (constant (F := Ideal) S_ .f32 0x41000000#32))))))
      (Host.exp (F := Ideal) (Host.divf (F := Ideal) (Host.negf (F := Ideal) d) (broadcastInDim S8192x8192 ![] bcast_S_S8192x8192 (mulf b (constant (F := Ideal) S_ .f32 0x41800000#32)))))
      (ix2 r c) = rbf (refBw x) (dist x r c) := by
  rw [addf_apply, addf_apply, addf_apply, addf_apply, addf_apply, rbf_term_read, rbf_term_read, rbf_term_read,
    rbf_term_read, rbf_term_read, broadcastInDim_scalar_apply, constant_apply, Ideal.ofBits_zero_f32, hd, hb]
  rfl

/-- A quadrant's mean: the total of the radial kernel over the rows `a` and columns `b` of a 4096 × 4096 quadrant
    at offsets (o0, o1), over the quadrant's count, for any array `g` that holds the radial kernel. -/
theorem quad_read (x : FVec Ideal S8192x256 .f32) (g : FVec Ideal S8192x8192 .f32)
    (hg : ∀ r c : Fin 8192, g (ix2 r c) = rbf (refBw x) (dist x r c))
    (o0 o1 : Nat) (h : S8192x8192.Slices ![o0, o1] S4096x4096) (a b : Fin 4096 → Fin 8192)
    (ha : ∀ p : Fin 4096, (a p).val = o0 + p.val) (hb : ∀ p : Fin 4096, (b p).val = o1 + p.val) :
    Host.divf (F := Ideal) (Host.reduceAdd (F := Ideal) (extractStridedSlice S4096x4096 ![o0, o1] g h)
        (constant (F := Ideal) S_ .f32 0x00000000#32) reducesTo_S4096x4096_S_d0_1 h_S_)
      (constant (F := Ideal) S_ .f32 0x4B800000#32) ix0 = quad x a b := by
  rw [hostDivf_apply, hostReduceAdd_apply,
    Ideal.hostReduceAdd_total reducesTo_S4096x4096_S_d0_1 (fun b => b.elim0),
    constant_apply, constant_apply, Ideal.ofBits_zero_f32]
  unfold quad cM
  refine congrArg (fun t => Ideal.div (0 + t) _) ?_
  refine Finset.sum_congr rfl fun i _ => ?_
  refine (extractStridedSlice_apply _ g h i (ix2 (a (i 0)) (b (i 1))) fun ax => ?_).trans (hg _ _)
  match ax with
  | ⟨0, _⟩ => exact ha (i 0)
  | ⟨1, _⟩ => exact hb (i 1)

end Cert.ReferenceIdeal.RefValue

end
-- ==== Proof.RefValue.lean ====
/-
  The reference's result as mathematics. The reference stacks the selected samples into one 8192 × 256 array x and
  computes, whole: the rows' squared norms, the clamped squared distances, the bandwidth, the five-scale radial kernel,
  and the four quadrant means, combined as (Q(lo,lo) + Q(hi,hi)) − Q(lo,hi) − Q(hi,lo), where lo and hi are the first and
  the second 4096 rows. Reading each stage at its indices (the two sibling modules) turns the composed term of the
  operations into the specification's `refOut x`, with x kept as one unopened function of the arguments; the run of the
  program then ends with that value in the result buffer and the arguments unchanged.
-/
import proofs.«121879_j18313740550844_2_alg».proof.Proof.Gen.ReferenceIdeal.Run
import proofs.«121879_j18313740550844_2_alg».proof.Proof.RefDist
import proofs.«121879_j18313740550844_2_alg».proof.Proof.RefKernel

noncomputable section

namespace Cert.ReferenceIdeal.RefValue

open Cert.ReferenceIdeal Cert.ReferenceIdeal.Gen Cert.MMD Idealize.ShloMosaic Idealize.ShloMosaic.ValueIdx
open scoped BigOperators

open Cert.ReferenceIdeal.Value Idealize.ShloMosaic.TcCoe Idealize.SL.Sem Idealize.ShloMosaic.StableHlo

/-- The reference's result, as the operations compose it from the stacked samples, is the whole-sum form of the loss:
    row norms, distances, bandwidth, radial kernel, and the four quadrant means, each read at its indices. The
    stacked-samples array itself is never opened. -/
theorem result_eq (V0 : Valuation τ sig (Elt Ideal)) :
    subf (subf (addf (Host.divf (F := Ideal) (Host.reduceAdd (F := Ideal) (extractStridedSlice S4096x4096 ![0, 0] (res_main_v64 (F := Ideal) V0) slices_S8192x8192_S4096x4096_0_0) (constant (F := Ideal) S_ .f32 0x00000000#32) reducesTo_S4096x4096_S_d0_1 h_S_) (constant (F := Ideal) S_ .f32 0x4B800000#32)) (Host.divf (F := Ideal) (Host.reduceAdd (F := Ideal) (extractStridedSlice S4096x4096 ![4096, 4096] (res_main_v64 (F := Ideal) V0) slices_S8192x8192_S4096x4096_4096_4096) (constant (F := Ideal) S_ .f32 0x00000000#32) reducesTo_S4096x4096_S_d0_1 h_S_) (constant (F := Ideal) S_ .f32 0x4B800000#32))) (Host.divf (F := Ideal) (Host.reduceAdd (F := Ideal) (extractStridedSlice S4096x4096 ![0, 4096] (res_main_v64 (F := Ideal) V0) slices_S8192x8192_S4096x4096_0_4096) (constant (F := Ideal) S_ .f32 0x00000000#32) reducesTo_S4096x4096_S_d0_1 h_S_) (constant (F := Ideal) S_ .f32 0x4B800000#32))) (Host.divf (F := Ideal) (Host.reduceAdd (F := Ideal) (extractStridedSlice S4096x4096 ![4096, 0] (res_main_v64 (F := Ideal) V0) slices_S8192x8192_S4096x4096_4096_0) (constant (F := Ideal) S_ .f32 0x00000000#32) reducesTo_S4096x4096_S_d0_1 h_S_) (constant (F := Ideal) S_ .f32 0x4B800000#32))
      = fun _ => refOut (res_main_v16 (F := Ideal) V0) := by
  have h18 : ∀ r : Fin 8192, (res_main_v18 (F := Ideal) V0 : FVec Ideal S8192 .f32) (ix1 r)
      = sqn (res_main_v16 (F := Ideal) V0) r := fun r => by
    unfold res_main_v18; exact sqn_read _ r
  have h30 : ∀ r c : Fin 8192, (res_main_v30 (F := Ideal) V0 : FVec Ideal S8192x8192 .f32) (ix2 r c)
      = dist (res_main_v16 (F := Ideal) V0) r c := fun r c => by
    unfold res_main_v30; exact dist_read _ _ h18 r c
  have h33 : (res_main_v33 (F := Ideal) V0 : FVec Ideal S_ .f32) ix0 = refBw (res_main_v16 (F := Ideal) V0) := by
    unfold res_main_v33; exact bw_read _ _ h30
  have h64 : ∀ r c : Fin 8192, (res_main_v64 (F := Ideal) V0 : FVec Ideal S8192x8192 .f32) (ix2 r c)
      = rbf (refBw (res_main_v16 (F := Ideal) V0)) (dist (res_main_v16 (F := Ideal) V0) r c) := fun r c => by
    unfold res_main_v64; exact rbf_read _ _ _ h30 h33 r c
  funext j
  obtain rfl : j = ix0 := eq_ix0 j
  rw [subf_apply, subf_apply, addf_apply]
  unfold refOut
  have hlo : ∀ p : Fin 4096, (lo p).val = 0 + p.val := fun p => (Nat.zero_add _).symm
  have hhi : ∀ p : Fin 4096, (hi p).val = 4096 + p.val := fun _ => rfl
  refine congrArg₂ (· - ·) (congrArg₂ (· - ·) (congrArg₂ (· + ·) ?_ ?_) ?_) ?_
  · exact quad_read _ _ h64 0 0 _ lo lo hlo hlo
  · exact quad_read _ _ h64 4096 4096 _ hi hi hhi hhi
  · exact quad_read _ _ h64 0 4096 _ lo hi hlo hhi
  · exact quad_read _ _ h64 4096 0 _ hi lo hhi hlo

/-- Every weakly fair run of the reference ends with the whole-sum form of the loss of the stacked samples in its
    result buffer, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79)
          = (fun _ => refOut (res_main_v16 (F := Ideal) (launchContents m c)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Value.run (F := Ideal) m ρ)

end Cert.ReferenceIdeal.RefValue

end
-- ==== Proof.LibTileSum.lean ====
/-
  Sums over `Fin N` regrouped, in any additive commutative monoid: as `a` consecutive blocks of `b` when
  `N = a * b` (`sum_fin_blocks`), as a lower and an upper part when `N = m + n` (`sum_fin_parts`), the two
  restricted sums that follow (`sum_fin_lower`, `sum_fin_upper`), and a sum over a filtered range of a product length
  as the double sum over quotient and remainder (`sum_range_mul_ite`). The embeddings of the blocks and of the parts are
  arguments, known only through the values they take, so a use site keeps its own way of writing them.
-/
import Mathlib.Algebra.BigOperators.Fin
import Mathlib.Logic.Equiv.Fin.Basic

open scoped BigOperators

namespace LibTileSum

variable {M : Type*} [AddCommMonoid M]

/-- A sum over `Fin (a * b)` is the sum over the `a` blocks of the sums over the `b` places of a block: `e i p` is
    place `p` of block `i`, the index of value `b * i + p`. -/
theorem sum_fin_blocks {N a b : ℕ} (hN : N = a * b) (e : Fin a → Fin b → Fin N)
    (he : ∀ i p, (e i p).val = b * i.val + p.val) (h : Fin N → M) :
    ∑ r : Fin N, h r = ∑ i : Fin a, ∑ p : Fin b, h (e i p) := by
  subst hN
  rw [← (finProdFinEquiv (m := a) (n := b)).sum_comp h, Fintype.sum_prod_type]
  refine Finset.sum_congr rfl fun i _ => Finset.sum_congr rfl fun p _ => ?_
  congr 1
  apply Fin.ext
  rw [he]
  simp [finProdFinEquiv, Nat.add_comm]

/-- A sum over `Fin (m + n)` is the sum over the first `m` indices plus the sum over the last `n`: `lo u` is the index
    of value `u`, `hi u` the index of value `m + u`. -/
theorem sum_fin_parts {N m n : ℕ} (hN : N = m + n) (lo : Fin m → Fin N) (hi : Fin n → Fin N)
    (hlo : ∀ u, (lo u).val = u.val) (hhi : ∀ u, (hi u).val = m + u.val) (g : Fin N → M) :
    ∑ r : Fin N, g r = ∑ u : Fin m, g (lo u) + ∑ u : Fin n, g (hi u) := by
  subst hN
  rw [Fin.sum_univ_add]
  congr 1
  · refine Finset.sum_congr rfl fun u _ => ?_
    congr 1
    apply Fin.ext
    rw [hlo]
    rfl
  · refine Finset.sum_congr rfl fun u _ => ?_
    congr 1
    apply Fin.ext
    rw [hhi]
    rfl

/-- The sum of the terms whose index is below `m` is the sum over the first part. -/
theorem sum_fin_lower {N m n : ℕ} (hN : N = m + n) (lo : Fin m → Fin N) (hi : Fin n → Fin N)
    (hlo : ∀ u, (lo u).val = u.val) (hhi : ∀ u, (hi u).val = m + u.val) (g : Fin N → M) :
    ∑ r : Fin N, (if r.val < m then g r else 0) = ∑ u : Fin m, g (lo u) := by
  rw [sum_fin_parts hN lo hi hlo hhi]
  have h1 : ∀ u : Fin m, (if (lo u).val < m then g (lo u) else 0) = g (lo u) := fun u =>
    if_pos (by rw [hlo]; exact u.isLt)
  have h2 : ∀ u : Fin n, (if (hi u).val < m then g (hi u) else 0) = 0 := fun u =>
    if_neg (by rw [hhi]; omega)
  simp only [h1, h2, Finset.sum_const_zero, add_zero]

/-- The sum of the terms whose index is not below `m` is the sum over the second part. -/
theorem sum_fin_upper {N m n : ℕ} (hN : N = m + n) (lo : Fin m → Fin N) (hi : Fin n → Fin N)
    (hlo : ∀ u, (lo u).val = u.val) (hhi : ∀ u, (hi u).val = m + u.val) (g : Fin N → M) :
    ∑ r : Fin N, (if ¬ r.val < m then g r else 0) = ∑ u : Fin n, g (hi u) := by
  rw [sum_fin_parts hN lo hi hlo hhi]
  have h1 : ∀ u : Fin m, (if ¬ (lo u).val < m then g (lo u) else 0) = 0 := fun u =>
    if_neg (by rw [hlo]; exact not_not.mpr u.isLt)
  have h2 : ∀ u : Fin n, (if ¬ (hi u).val < m then g (hi u) else 0) = g (hi u) := fun u =>
    if_pos (by rw [hhi]; omega)
  simp only [h1, h2, Finset.sum_const_zero, zero_add]

/-- Place `j` of block `i` lies below `a * b`. -/
theorem block_place_lt {a b : ℕ} (i : Fin a) (j : Fin b) : b * i.val + j.val < a * b := by
  have hi := i.isLt
  have hj := j.isLt
  calc b * i.val + j.val < b * i.val + b := by omega
    _ = b * (i.val + 1) := (Nat.mul_succ b i.val).symm
    _ ≤ b * a := Nat.mul_le_mul_left b hi
    _ = a * b := Nat.mul_comm b a

/-- A sum over the steps below `a * b` that satisfy `P` is the double sum over quotient `i` and remainder `j` of the
    terms at `b * i + j` that satisfy it. -/
theorem sum_range_mul_ite (a b : ℕ) (P : ℕ → Prop) [DecidablePred P] (g : ℕ → M) :
    ∑ s ∈ Finset.range (a * b), (if P s then g s else 0)
      = ∑ i : Fin a, ∑ j : Fin b, (if P (b * i.val + j.val) then g (b * i.val + j.val) else 0) := by
  rw [Finset.sum_range fun s => if P s then g s else (0 : M)]
  exact sum_fin_blocks (M := M) rfl (fun i j => ⟨b * i.val + j.val, block_place_lt i j⟩) (fun _ _ => rfl)
    (fun r => if P r.val then g r.val else 0)

end LibTileSum
-- ==== Proof.Law.lean ====
/-
  The two arrangements of Spec.lean are the same extended real. An accumulator that adds the tile sums of the steps
  satisfying a condition is the sum over those steps; the 64 steps are the 8 × 8 tile rows and columns; the tile rows
  below 4 cover the first 4096 rows, the others the last 4096, and all 8 cover every row, so each quadrant's tiles sum
  to the quadrant and all tiles to the whole square. What is left is arithmetic of the extended reals with real
  constants: a quotient by 4 is the product with 1/4, and the product with 2⁻²⁴ distributes over sums and differences
  because a positive real does, at the infinities too.
-/
import proofs.«121879_j18313740550844_2_alg».proof.Proof.Spec
import proofs.«121879_j18313740550844_2_alg».proof.Proof.LibTileSum

noncomputable section

open scoped BigOperators

namespace Cert.MMD

open Idealize.ShloMosaic Idealize.ShloMosaic.ValueIdx

/-! ## The constants as reals -/

theorem c4_eq : c4 = ((4 : ℝ) : EReal) := by
  simp [c4, Ideal.ofBits, Ideal.ieee, -EReal.coe_mul]; norm_num
theorem cQuarter_eq : cQuarter = ((1 / 4 : ℝ) : EReal) := by
  simp [cQuarter, Ideal.ofBits, Ideal.ieee, -EReal.coe_mul]; norm_num
theorem cM_eq : cM = ((16777216 : ℝ) : EReal) := by
  simp [cM, Ideal.ofBits, Ideal.ieee, -EReal.coe_mul]; norm_num
theorem cMinv_eq : cMinv = ((1 / 16777216 : ℝ) : EReal) := by
  simp [cMinv, Ideal.ofBits, Ideal.ieee, -EReal.coe_mul]; norm_num

/-- Scaling the combined sums once by 2⁻²⁴ is dividing each by 2²⁴ first: a nonnegative real factor distributes over
    sums and differences of extended reals. -/
theorem scale_law (a b c d : EReal) :
    (((a + b) - c) - d) * cMinv
      = ((Ideal.div a cM + Ideal.div b cM) - Ideal.div c cM) - Ideal.div d cM := by
  have h0 : (16777216 : ℝ) ≠ 0 := by norm_num
  rw [cM_eq, cMinv_eq, Ideal.div_coe h0, Ideal.div_coe h0, Ideal.div_coe h0, Ideal.div_coe h0]
  have hk : (0 : EReal) ≤ ((1 / 16777216 : ℝ) : EReal) := by
    exact_mod_cast (by norm_num : (0 : ℝ) ≤ 1 / 16777216)
  have hk' : ((1 / 16777216 : ℝ) : EReal) ≠ ⊤ := EReal.coe_ne_top _
  rw [EReal.sub_mul_of_nonneg_of_ne_top hk hk', EReal.sub_mul_of_nonneg_of_ne_top hk hk',
    EReal.right_distrib_of_nonneg_of_ne_top hk hk']

/-- A product with 1/4 is a quotient by 4. -/
theorem quarter_law (y : EReal) : Ideal.div y cDen * cQuarter = Ideal.div (Ideal.div y cDen) c4 := by
  rw [c4_eq, cQuarter_eq, Ideal.div_coe (by norm_num : (4 : ℝ) ≠ 0)]

/-! ## The accumulator as a sum -/

/-- The accumulator after `n` steps is the sum of the terms of the steps below `n` that satisfy the condition. -/
theorem accQ_eq_sum (P : ℕ → Prop) [DecidablePred P] (g : ℕ → EReal) (n : ℕ) :
    accQ P g n = ∑ s ∈ Finset.range n, (if P s then g s else 0) := by
  induction n with
  | zero => rw [accQ, Finset.range_zero, Finset.sum_empty]
  | succ n ih =>
    rw [Finset.sum_range_succ, ← ih, accQ]
    by_cases h : P n
    · rw [if_pos h, if_pos h]
    · rw [if_neg h, if_neg h, add_zero]

/-- The sum of `f` over the tile in tile row `i` and tile column `j`. -/
def tile (f : Fin 8192 → Fin 8192 → EReal) (i j : Fin 8) : EReal :=
  ∑ p : Fin 1024, ∑ q : Fin 1024, f (row i p) (row j q)

/-- Step `8 * i + j` visits the tile in tile row `i` and tile column `j`. -/
theorem blk_eq (f : Fin 8192 → Fin 8192 → EReal) (i j : Fin 8) : blk f (8 * i.val + j.val) = tile f i j := by
  have hi := i.isLt
  have hj := j.isLt
  have hs : 8 * i.val + j.val < 64 := by omega
  rw [blk, dif_pos hs]
  have key : ∀ a b : Fin 8, a = i → b = j →
      (∑ p : Fin 1024, ∑ q : Fin 1024, f (row a p) (row b q)) = tile f i j := by
    rintro _ _ rfl rfl; rfl
  exact key _ _ (Fin.ext (show (8 * i.val + j.val) / 8 = i.val by omega))
    (Fin.ext (show (8 * i.val + j.val) % 8 = j.val by omega))

/-- The accumulator over the 64 steps, by tile row and tile column. -/
theorem accQ_tiles (P : ℕ → Prop) [DecidablePred P] (f : Fin 8192 → Fin 8192 → EReal) :
    accQ P (blk f) 64
      = ∑ i : Fin 8, ∑ j : Fin 8, (if P (8 * i.val + j.val) then tile f i j else 0) := by
  rw [accQ_eq_sum]
  refine (LibTileSum.sum_range_mul_ite 8 8 P (blk f)).trans ?_
  simp only [blk_eq]

/-! ## Tile rows and rows -/

/-- The sum of `g` over the rows of the tile rows that satisfy `A`. -/
def strip (A : ℕ → Prop) [DecidablePred A] (g : Fin 8192 → EReal) : EReal :=
  ∑ i : Fin 8, (if A i.val then ∑ p : Fin 1024, g (row i p) else 0)

/-- All eight tile rows cover every row. -/
theorem strip_all (g : Fin 8192 → EReal) : strip (fun _ => True) g = ∑ r : Fin 8192, g r := by
  simp only [strip, if_true]
  exact (LibTileSum.sum_fin_blocks (by norm_num : 8192 = 8 * 1024) row (fun _ _ => rfl) g).symm

/-- Tile row `k` of the first four, and of the last four. -/
def lo8 (k : Fin 4) : Fin 8 := ⟨k.val, by have := k.isLt; omega⟩
def hi8 (k : Fin 4) : Fin 8 := ⟨4 + k.val, by have := k.isLt; omega⟩
/-- Place `p` of block `k` of a half. -/
def sub (k : Fin 4) (p : Fin 1024) : Fin 4096 := ⟨1024 * k.val + p.val, by have := k.isLt; have := p.isLt; omega⟩

/-- The tile rows below 4 cover the first 4096 rows. -/
theorem strip_lo (g : Fin 8192 → EReal) : strip (fun n => n < 4) g = ∑ u : Fin 4096, g (lo u) := by
  rw [strip, LibTileSum.sum_fin_lower (by norm_num : 8 = 4 + 4) lo8 hi8 (fun _ => rfl) (fun _ => rfl)
    (fun i : Fin 8 => ∑ p : Fin 1024, g (row i p)),
    LibTileSum.sum_fin_blocks (by norm_num : 4096 = 4 * 1024) sub (fun _ _ => rfl) (fun u => g (lo u))]
  refine Finset.sum_congr rfl fun k _ => Finset.sum_congr rfl fun p _ => ?_
  congr 1

/-- The tile rows from 4 on cover the last 4096 rows. -/
theorem strip_hi (g : Fin 8192 → EReal) : strip (fun n => ¬ n < 4) g = ∑ u : Fin 4096, g (hi u) := by
  rw [strip, LibTileSum.sum_fin_upper (by norm_num : 8 = 4 + 4) lo8 hi8 (fun _ => rfl) (fun _ => rfl)
    (fun i : Fin 8 => ∑ p : Fin 1024, g (row i p)),
    LibTileSum.sum_fin_blocks (by norm_num : 4096 = 4 * 1024) sub (fun _ _ => rfl) (fun u => g (hi u))]
  refine Finset.sum_congr rfl fun k _ => Finset.sum_congr rfl fun p _ => ?_
  congr 1
  apply Fin.ext
  show 1024 * (4 + k.val) + p.val = 4096 + (1024 * k.val + p.val)
  omega

/-- The tiles whose tile row satisfies `A` and whose tile column satisfies `B`, summed, are the rows of `A` against the
    columns of `B`. -/
theorem quad_tiles (A B : ℕ → Prop) [DecidablePred A] [DecidablePred B] (f : Fin 8192 → Fin 8192 → EReal) :
    ∑ i : Fin 8, ∑ j : Fin 8, (if A i.val ∧ B j.val then tile f i j else 0)
      = strip A fun r => strip B fun c => f r c := by
  unfold strip
  refine Finset.sum_congr rfl fun i _ => ?_
  by_cases hA : A i.val
  · simp only [hA, true_and, if_true]
    refine Eq.trans ?_ (Finset.sum_comm (s := (Finset.univ : Finset (Fin 8))) (t := (Finset.univ : Finset (Fin 1024)))
      (f := fun j p => if B j.val then ∑ q : Fin 1024, f (row i p) (row j q) else 0))
    refine Finset.sum_congr rfl fun j _ => ?_
    by_cases hB : B j.val
    · simp only [hB, if_true]; rfl
    · simp only [hB, if_false, Finset.sum_const_zero]
  · simp only [hA, false_and, if_false, Finset.sum_const_zero]

/-- The accumulator of the steps whose tile row satisfies `A` and tile column `B` is the double sum over the rows `a`
    and the columns `b` those tile rows and columns cover. -/
theorem quad_sum (P A B : ℕ → Prop) [DecidablePred P] [DecidablePred A] [DecidablePred B]
    (hP : ∀ s, P s ↔ A (s / 8) ∧ B (s % 8)) (n m : ℕ) (a : Fin n → Fin 8192) (b : Fin m → Fin 8192)
    (ha : ∀ g, strip A g = ∑ u : Fin n, g (a u)) (hb : ∀ g, strip B g = ∑ v : Fin m, g (b v))
    (f : Fin 8192 → Fin 8192 → EReal) :
    accQ P (blk f) 64 = ∑ i : (⟨2, ![n, m]⟩ : Shape).Idx, f (a (i 0)) (b (i 1)) := by
  rw [accQ_tiles, sum_idx2]
  have key : ∀ i j : Fin 8, (if P (8 * i.val + j.val) then tile f i j else 0)
      = if A i.val ∧ B j.val then tile f i j else 0 := by
    intro i j
    have hi := i.isLt
    have hj := j.isLt
    have h1 : (8 * i.val + j.val) / 8 = i.val := by omega
    have h2 : (8 * i.val + j.val) % 8 = j.val := by omega
    refine if_congr ?_ rfl rfl
    rw [hP, h1, h2]
  simp only [key]
  rw [quad_tiles, ha]
  simp only [hb]
  rfl

/-! ## The two arrangements agree -/

theorem kerBw_eq (x : Tot) : kerBw x = refBw x := by
  unfold kerBw refBw
  rw [quad_sum (fun _ => True) (fun _ => True) (fun _ => True) (fun _ => ⟨fun h => ⟨h, h⟩, fun h => h.1⟩) 8192 8192
    (fun r => r) (fun c => c) strip_all strip_all (dist x), zero_add]
  exact quarter_law _

theorem ker_eq_ref (x : Tot) : kerOut x = refOut x := by
  unfold kerOut refOut quad
  rw [kerBw_eq,
    quad_sum (fun s => s / 8 < 4 ∧ s % 8 < 4) (fun n => n < 4) (fun n => n < 4) (fun _ => Iff.rfl) 4096 4096
      lo lo strip_lo strip_lo,
    quad_sum (fun s => ¬ s / 8 < 4 ∧ ¬ s % 8 < 4) (fun n => ¬ n < 4) (fun n => ¬ n < 4) (fun _ => Iff.rfl) 4096 4096
      hi hi strip_hi strip_hi,
    quad_sum (fun s => s / 8 < 4 ∧ ¬ s % 8 < 4) (fun n => n < 4) (fun n => ¬ n < 4) (fun _ => Iff.rfl) 4096 4096
      lo hi strip_lo strip_hi,
    quad_sum (fun s => ¬ s / 8 < 4 ∧ s % 8 < 4) (fun n => ¬ n < 4) (fun n => n < 4) (fun _ => Iff.rfl) 4096 4096
      hi lo strip_hi strip_lo]
  simp only [zero_add]
  exact scale_law _ _ _ _

end Cert.MMD

end
-- ==== Proof.Bridge.lean ====
/-
  The stacked samples are one array in both programs: each builds it from its three arguments by the same host operations
  (the time indices wrapped if negative, the two indexed time steps gathered from each array, each gather reshaped to 4096 rows,
  the two stacked into 8192 rows), so from memories that agree on the arguments the two arrays are equal.
-/
import proofs.«121879_j18313740550844_2_alg».proof.Proof.Gen.ReferenceIdeal.Run
import proofs.«121879_j18313740550844_2_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Tot
open Cert.KernelIdeal Cert.KernelIdeal.Gen
/-- The stacked samples from the three arguments: negative time indices wrapped, the two indexed time steps gathered from
    each array, each reshaped to 4096 rows, the two stacked. -/
def tot (a0 a1 : (⟨S2048x128x256, .f32⟩ : BufTy).Contents (Elt Ideal)) (a2 : (⟨S2, .i32⟩ : BufTy).Contents (Elt Ideal)) : (⟨S8192x256, .f32⟩ : BufTy).Contents (Elt Ideal) :=
  concatenate S8192x256 0 [⟨S4096x256, (shapeCast _ (Host.gather gather_S2048x128x256_S2x1_S2048x2x256_02_1_n_n_1_1_20481256 a0 (broadcastInDim S2x1 ![0] bcast_S2_S2x1_0 (select (cmpi .slt a2 (broadcastInDim S2 ![] bcast_S_S2 (constantI S_ 32 0#32))) (addi a2 (broadcastInDim S2 ![] bcast_S_S2 (constantI S_ 32 128#32))) a2))) shapeCasts_S2048x2x256_S4096x256)⟩, ⟨S4096x256, (shapeCast _ (Host.gather gather_S2048x128x256_S2x1_S2048x2x256_02_1_n_n_1_1_20481256 a1 (broadcastInDim S2x1 ![0] bcast_S2_S2x1_0 (select (cmpi .slt a2 (broadcastInDim S2 ![] bcast_S_S2 (constantI S_ 32 0#32))) (addi a2 (broadcastInDim S2 ![] bcast_S_S2 (constantI S_ 32 128#32))) a2))) shapeCasts_S2048x2x256_S4096x256)⟩] concatenates_S4096x256_S4096x256_S8192x256_d0

set_option maxHeartbeats 8000000 in
theorem after_eq (m : (ℓ : Loc nD τ sig) → Buf (Elt Ideal) ℓ) (c : Dev nD) :
    StableHlo.after (hostOps0 (F := Ideal)) (fun b => m (c, b)) (Proc.devRef .tc main_v16)
      = tot (m ((c.tc : Thread nD τ).loc main_arg0)) (m ((c.tc : Thread nD τ).loc main_arg1)) (m ((c.tc : Thread nD τ).loc main_arg2)) := by
  after_results_simp <;> rfl
end Cert.KernelIdeal.Tot

namespace Cert.ReferenceIdeal.Tot
open Cert.ReferenceIdeal Cert.ReferenceIdeal.Gen Cert.ReferenceIdeal.Value
/-- The same array as the reference's operations build it. -/
def tot (a0 a1 : (⟨S2048x128x256, .f32⟩ : BufTy).Contents (Elt Ideal)) (a2 : (⟨S2, .i32⟩ : BufTy).Contents (Elt Ideal)) : (⟨S8192x256, .f32⟩ : BufTy).Contents (Elt Ideal) :=
  concatenate S8192x256 0 [⟨S4096x256, (shapeCast _ (Host.gather gather_S2048x128x256_S2x1_S2048x2x256_02_1_n_n_1_1_20481256 a0 (broadcastInDim S2x1 ![0] bcast_S2_S2x1_0 (select (cmpi .slt a2 (broadcastInDim S2 ![] bcast_S_S2 (constantI S_ 32 0#32))) (addi a2 (broadcastInDim S2 ![] bcast_S_S2 (constantI S_ 32 128#32))) a2))) shapeCasts_S2048x2x256_S4096x256)⟩, ⟨S4096x256, (shapeCast _ (Host.gather gather_S2048x128x256_S2x1_S2048x2x256_02_1_n_n_1_1_20481256 a1 (broadcastInDim S2x1 ![0] bcast_S2_S2x1_0 (select (cmpi .slt a2 (broadcastInDim S2 ![] bcast_S_S2 (constantI S_ 32 0#32))) (addi a2 (broadcastInDim S2 ![] bcast_S_S2 (constantI S_ 32 128#32))) a2))) shapeCasts_S2048x2x256_S4096x256)⟩] concatenates_S4096x256_S4096x256_S8192x256_d0

theorem res_eq (V0 : Valuation τ sig (Elt Ideal)) :
    res_main_v16 (F := Ideal) V0 = tot (V0 (Proc.devRef .tc main_arg0)) (V0 (Proc.devRef .tc main_arg1)) (V0 (Proc.devRef .tc main_arg2)) := rfl
end Cert.ReferenceIdeal.Tot

namespace Cert.Bridge
/-- The two are one function: the printed records and shapes of the two programs are the same. -/
theorem tot_eq (a0 a1 : (⟨Cert.KernelIdeal.S2048x128x256, .f32⟩ : BufTy).Contents (Elt Ideal)) (a2 : (⟨Cert.KernelIdeal.S2, .i32⟩ : BufTy).Contents (Elt Ideal)) :
    Cert.ReferenceIdeal.Tot.tot a0 a1 a2 = Cert.KernelIdeal.Tot.tot a0 a1 a2 := rfl

/-- From memories that agree on the arguments the reference's stacked samples are the kernel program's. -/
theorem tot_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v16 (F := Ideal) (launchContents m' c)
      = StableHlo.after (Cert.KernelIdeal.Gen.hostOps0 (F := Ideal)) (fun b => m (c, b)) (Proc.devRef .tc Cert.KernelIdeal.main_v16) := by
  rw [Cert.ReferenceIdeal.Tot.res_eq, Cert.KernelIdeal.Tot.after_eq,
    show launchContents m' c (Proc.devRef .tc Cert.ReferenceIdeal.main_arg0) = m ((c.tc : Thread Cert.KernelIdeal.nD Cert.KernelIdeal.τ).loc Cert.KernelIdeal.main_arg0) from h0,
    show launchContents m' c (Proc.devRef .tc Cert.ReferenceIdeal.main_arg1) = m ((c.tc : Thread Cert.KernelIdeal.nD Cert.KernelIdeal.τ).loc Cert.KernelIdeal.main_arg1) from h1,
    show launchContents m' c (Proc.devRef .tc Cert.ReferenceIdeal.main_arg2) = m ((c.tc : Thread Cert.KernelIdeal.nD Cert.KernelIdeal.τ).loc Cert.KernelIdeal.main_arg2) from h2]
  exact tot_eq _ _ _
end Cert.Bridge

end
-- ==== Proof.lean ====
/-
  The certificate of the pairwise-distance loss kernel against its reference. The kernel program is host operations that stack
  the sampled time steps into 8192 rows, a first kernel region that sums the clamped squared row distances tile by tile into a
  one-word accumulator and leaves the bandwidth, a second region that sums the five-bandwidth radial kernel tile by tile into
  four quadrant accumulators and leaves their signed, scaled sum, and a reshape. Its frames (at the word level and idealized)
  are its run through the two regions with the accumulators carried from grid point to grid point; its value at the extended
  reals is read off the same run. The reference is host operations only. The two results agree because the tiles partition each
  quadrant, finite sums of extended reals regroup freely, division by 4 is multiplication by 1/4, and the positive factor 2⁻²⁴
  distributes over sums and differences of extended reals.
-/
import proofs.«121879_j18313740550844_2_alg».proof.Defs
import proofs.«121879_j18313740550844_2_alg».proof.Proof.Gen.Kernel
import proofs.«121879_j18313740550844_2_alg».proof.Proof.Gen.KernelIdeal
import proofs.«121879_j18313740550844_2_alg».proof.Proof.Gen.ReferenceIdeal
import proofs.«121879_j18313740550844_2_alg».proof.Proof.Gen.Pre_finite_inputs
import proofs.«121879_j18313740550844_2_alg».proof.Proof.Gen.ReferenceIdeal.Run
import proofs.«121879_j18313740550844_2_alg».proof.Proof.BRun
import proofs.«121879_j18313740550844_2_alg».proof.Proof.IFinal
import proofs.«121879_j18313740550844_2_alg».proof.Proof.RefValue
import proofs.«121879_j18313740550844_2_alg».proof.Proof.Law
import proofs.«121879_j18313740550844_2_alg».proof.Proof.Bridge
import Idealize.ShloMosaic.Adequacy
import Idealize.ShloMosaic.Init

noncomputable section

namespace Cert.Proof

open Idealize.ShloMosaic Idealize.SL.Sem

/-- The word-level program runs and leaves its arguments: its run through the two kernel regions. -/
theorem frame_k : Cert.frame_Kernel := fun m ρ _ => Cert.Kernel.Hand.frame m ρ
/-- So does the idealized program, by the same argument at the other instance. -/
theorem frame_ki : Cert.frame_KernelIdeal := fun m ρ _ => Cert.KernelIdeal.Hand.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- At the extended reals the kernel program ends with the loss summed tile by tile and scaled once, the reference with the loss
    summed quadrant by quadrant and each quadrant divided by its count, of the same stacked samples: one number, because
    the tiles partition each quadrant, a sum of extended reals regroups freely, and a positive real factor distributes over
    sums and differences of extended reals. -/
theorem algebraic : Cert.algebraic_KernelIdeal_ReferenceIdeal := by
  intro m ρ m' ρ' _ hagree
  refine ⟨fun c => (fun _ => Cert.MMD.kerOut (Cert.KernelIdeal.Hand.tot m ρ c)), Cert.KernelIdeal.Hand.kernelRun m ρ, ?_⟩
  refine (θ_run Cert.ReferenceIdeal.defs _ _).mono (fun _ h c => ⟨(h c).1.trans ?_, (h c).2⟩)
    (Cert.ReferenceIdeal.RefValue.refRun m' ρ')
  have e : Cert.ReferenceIdeal.Value.res_main_v16 (F := Ideal) (StableHlo.launchContents m' c) = Cert.KernelIdeal.Hand.tot m ρ c :=
    Cert.Bridge.tot_agree m m' c (hagree c).1 (hagree c).2.1 (hagree c).2.2
  rw [e]
  funext _
  exact (Cert.MMD.ker_eq_ref _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
